-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.named_const.Statement Cert.KernelIdeal.κ "inv_scale" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S204800x256 : Shape := ⟨2, ![204800, 256]⟩
abbrev S204800 : Shape := ⟨1, ![204800]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S204800x256 : S_.BroadcastsInDim S204800x256 (![] : Fin 0 → Fin S204800x256.rank)
  reducesTo_S204800x256_S_d0_1 : S204800x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn_part4 {F : FTy → Type} [FloatOps F] (main_arg15 : FVec F S1024 .f32) (main_arg16 : FVec F S1024x256 .f32) (main_arg17 : FVec F S256 .f32) (main_v63 : IVec S_ 1) (main_v67 : IVec S_ 1) : IVec S_ 1 :=
  let main_v68 : IVec S_ 1 := andi main_v63 main_v67
  let main_v69 : FVec F S1024 .f32 := Host.absf main_arg15
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x256 .f32 := Host.absf main_arg16
  let main_cst_28 : FVec F S_ .f32 := constant S_ .f32 0x7F800000#32
  let main_v75 : FVec F S1024x256 .f32 := broadcastInDim S1024x256 ![] bcast_S_S1024x256 main_cst_28
  let main_v76 : IVec S1024x256 1 := cmpf .olt main_v74 main_v75
  let main_c_29 : IVec S_ 1 := constantI S_ 1 1#1
  let main_v77 : IVec S_ 1 := (fun x v => Host.reduce IntOp.andi x v reducesTo_S1024x256_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  main_v83

def fn_part3 {F : FTy → Type} [FloatOps F] (main_arg12 : FVec F S256 .f32) (main_arg13 : FVec F S256 .f32) (main_arg14 : FVec F S256x1024 .f32) (main_arg15 : FVec F S1024 .f32) (main_arg16 : FVec F S1024x256 .f32) (main_arg17 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x1024 .f32 := Host.absf main_arg14
  let main_cst_24 : FVec F S_ .f32 := constant S_ .f32 0x7F800000#32
  let main_v65 : FVec F S256x1024 .f32 := broadcastInDim S256x1024 ![] bcast_S_S256x1024 main_cst_24
  let main_v66 : IVec S256x1024 1 := cmpf .olt main_v64 main_v65
  let main_c_25 : IVec S_ 1 := constantI S_ 1 1#1
  let main_v67 : IVec S_ 1 := (fun x v => Host.reduce IntOp.andi x v reducesTo_S256x1024_S_d0_1 h_S_) main_v66 main_c_25
  fn_part4 (F := F) main_arg15 main_arg16 main_arg17 main_v63 main_v67

def fn_part2 {F : FTy → Type} [FloatOps F] (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256x1024 .f32) (main_arg15 : FVec F S1024 .f32) (main_arg16 : FVec F S1024x256 .f32) (main_arg17 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256x1024 .f32) (main_arg15 : FVec F S1024 .f32) (main_arg16 : FVec F S1024x256 .f32) (main_arg17 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S4096x256 .f32) (main_arg1 : FVec F S204800x256 .f32) (main_arg2 : FVec F S204800x256 .f32) (main_arg3 : IVec S204800 32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256x1024 .f32) (main_arg15 : FVec F S1024 .f32) (main_arg16 : FVec F S1024x256 .f32) (main_arg17 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S204800x256 .f32 := Host.absf main_arg1
  let main_cst_0 : FVec F S_ .f32 := constant S_ .f32 0x7F800000#32
  let main_v5 : FVec F S204800x256 .f32 := broadcastInDim S204800x256 ![] bcast_S_S204800x256 main_cst_0
  let main_v6 : IVec S204800x256 1 := cmpf .olt main_v4 main_v5
  let main_c_1 : IVec S_ 1 := constantI S_ 1 1#1
  let main_v7 : IVec S_ 1 := (fun x v => Host.reduce IntOp.andi x v reducesTo_S204800x256_S_d0_1 h_S_) main_v6 main_c_1
  let main_v8 : IVec S_ 1 := andi main_v3 main_v7
  let main_v9 : FVec F S204800x256 .f32 := Host.absf main_arg2
  let main_cst_2 : FVec F S_ .f32 := constant S_ .f32 0x7F800000#32
  let main_v10 : FVec F S204800x256 .f32 := broadcastInDim S204800x256 ![] bcast_S_S204800x256 main_cst_2
  let main_v11 : IVec S204800x256 1 := cmpf .olt main_v9 main_v10
  let main_c_3 : IVec S_ 1 := constantI S_ 1 1#1
  let main_v12 : IVec S_ 1 := (fun x v => Host.reduce IntOp.andi x v reducesTo_S204800x256_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S4096x256 : Shape := ⟨2, ![4096, 256]⟩
abbrev S204800x256 : Shape := ⟨2, ![204800, 256]⟩
abbrev S204800 : Shape := ⟨1, ![204800]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S1x256 : Shape := ⟨2, ![1, 256]⟩
abbrev S_ : Shape := ⟨0, ![]⟩
abbrev S204800x1 : Shape := ⟨2, ![204800, 1]⟩
abbrev S2048x256 : Shape := ⟨2, ![2048, 256]⟩
abbrev S2048x1 : Shape := ⟨2, ![2048, 1]⟩
abbrev S2048 : Shape := ⟨1, ![2048]⟩
abbrev S4096 : Shape := ⟨1, ![4096]⟩
abbrev S4096x1 : Shape := ⟨2, ![4096, 1]⟩
abbrev S1x1024 : Shape := ⟨2, ![1, 1024]⟩
abbrev S512x256 : Shape := ⟨2, ![512, 256]⟩
abbrev S512x1 : Shape := ⟨2, ![512, 1]⟩
abbrev S512 : Shape := ⟨1, ![512]⟩
abbrev S512x1024 : Shape := ⟨2, ![512, 1024]⟩

abbrev nBuf : Space → Nat
  | .hbm => 65
  | .vmem => 30
  | .smem => 0
  | _ => 0

abbrev bufTy : (tb : Table) → Fin (tcTables nBuf tb) → BufTy
  | .hbm, ⟨0, _⟩ => ⟨S4096x256, .f32⟩
  | .hbm, ⟨1, _⟩ => ⟨S204800x256, .f32⟩
  | .hbm, ⟨2, _⟩ => ⟨S204800x256, .f32⟩
  | .hbm, ⟨3, _⟩ => ⟨S204800, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x1024, .f32⟩
  | .hbm, ⟨15, _⟩ => ⟨S1024, .f32⟩
  | .hbm, ⟨16, _⟩ => ⟨S1024x256, .f32⟩
  | .hbm, ⟨17, _⟩ => ⟨S256, .f32⟩
  | .hbm, ⟨18, _⟩ => ⟨S4096x256, .f32⟩
  | .hbm, ⟨19, _⟩ => ⟨S1x256, .f32⟩
  | .hbm, ⟨20, _⟩ => ⟨S4096x256, .f32⟩
  | .hbm, ⟨21, _⟩ => ⟨S4096x256, .f32⟩
  | .hbm, ⟨22, _⟩ => ⟨S4096x256, .bf16⟩
  | .hbm, ⟨23, _⟩ => ⟨S_, .i32⟩
  | .hbm, ⟨24, _⟩ => ⟨S204800, .i32⟩
  | .hbm, ⟨25, _⟩ => ⟨S204800, .i1⟩
  | .hbm, ⟨26, _⟩ => ⟨S_, .i32⟩
  | .hbm, ⟨27, _⟩ => ⟨S204800, .i32⟩
  | .hbm, ⟨28, _⟩ => ⟨S204800, .i32⟩
  | .hbm, ⟨29, _⟩ => ⟨S204800, .i32⟩
  | .hbm, ⟨30, _⟩ => ⟨S204800x1, .i32⟩
  | .hbm, ⟨31, _⟩ => ⟨S204800x256, .bf16⟩
  | .hbm, ⟨32, _⟩ => ⟨S1x256, .f32⟩
  | .hbm, ⟨33, _⟩ => ⟨S1x256, .f32⟩
  | .hbm, ⟨34, _⟩ => ⟨S204800x1, .f32⟩
  | .hbm, ⟨35, _⟩ => ⟨S204800x256, .bf16⟩
  | .hbm, ⟨36, _⟩ => ⟨S204800, .f32⟩
  | .hbm, ⟨37, _⟩ => ⟨S_, .f32⟩
  | .hbm, ⟨38, _⟩ => ⟨S4096, .f32⟩
  | .hbm, ⟨39, _⟩ => ⟨S204800x1, .i32⟩
  | .hbm, ⟨40, _⟩ => ⟨S4096, .f32⟩
  | .hbm, ⟨41, _⟩ => ⟨S204800x256, .f32⟩
  | .hbm, ⟨42, _⟩ => ⟨S_, .f32⟩
  | .hbm, ⟨43, _⟩ => ⟨S4096x256, .f32⟩
  | .hbm, ⟨44, _⟩ => ⟨S204800x1, .i32⟩
  | .hbm, ⟨45, _⟩ => ⟨S4096x256, .f32⟩
  | .hbm, ⟨46, _⟩ => ⟨S_, .i32⟩
  | .hbm, ⟨47, _⟩ => ⟨S204800, .i32⟩
  | .hbm, ⟨48, _⟩ => ⟨S204800, .i1⟩
  | .hbm, ⟨49, _⟩ => ⟨S_, .i32⟩
  | .hbm, ⟨50, _⟩ => ⟨S204800, .i32⟩
  | .hbm, ⟨51, _⟩ => ⟨S204800, .i32⟩
  | .hbm, ⟨52, _⟩ => ⟨S204800, .i32⟩
  | .hbm, ⟨53, _⟩ => ⟨S204800x1, .i32⟩
  | .hbm, ⟨54, _⟩ => ⟨S204800, .f32⟩
  | .hbm, ⟨55, _⟩ => ⟨S204800, .f32⟩
  | .hbm, ⟨56, _⟩ => ⟨S204800x1, .f32⟩
  | .hbm, ⟨57, _⟩ => ⟨S4096x1, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S1x1024, .f32⟩
  | .hbm, ⟨63, _⟩ => ⟨S1x256, .f32⟩
  | .hbm, ⟨64, _⟩ => ⟨S4096x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S2048x1, .f32⟩
  | .local _ .vmem, ⟨11, _⟩ => ⟨S2048x1, .f32⟩
  | .local _ .vmem, ⟨12, _⟩ => ⟨S2048x256, .bf16⟩
  | .local _ .vmem, ⟨13, _⟩ => ⟨S2048x256, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x1, .f32⟩
  | .local _ .vmem, ⟨19, _⟩ => ⟨S512x1, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S256x1024, .f32⟩
  | .local _ .vmem, ⟨25, _⟩ => ⟨S1x1024, .f32⟩
  | .local _ .vmem, ⟨26, _⟩ => ⟨S1024x256, .f32⟩
  | .local _ .vmem, ⟨27, _⟩ => ⟨S1x256, .f32⟩
  | .local _ .vmem, ⟨28, _⟩ => ⟨S512x256, .f32⟩
  | .local _ .vmem, ⟨29, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_c_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bitsLt_bf16_f32 : FTy.bits .bf16 < FTy.bits .f32
  bcast_S_S204800 : S_.BroadcastsInDim S204800 (![] : Fin 0 → Fin S204800.rank)
  bcast_S204800_S204800x1_0 : S204800.BroadcastsInDim S204800x1 (![0] : Fin 1 → Fin S204800x1.rank)
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  broadcasts_S2048x1_S2048x256 : S2048x1.Broadcasts S2048x256
  packedbf16_S2048x256_S2048x256_0_0 : (Rect.unit (s := S2048x256) ![0, 0] S2048x256.size inb_S2048x256_S2048x256_0_0).PackedRows (EltTy.packing .bf16)
  shapeCasts_S204800x1_S204800 : S204800x1.ShapeCasts S204800
  bcast_S_S4096 : S_.BroadcastsInDim S4096 (![] : Fin 0 → Fin S4096.rank)
  bcast_S_S4096x256 : S_.BroadcastsInDim S4096x256 (![] : Fin 0 → Fin S4096x256.rank)
  shapeCasts_S4096_S4096x1 : S4096.ShapeCasts S4096x1
  shapeCasts_S1024_S1x1024 : S1024.ShapeCasts S1x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S512x1_S512x256 : S512x1.Broadcasts S512x256
  reduces_S512x256_S512 : S512x256.Reduces [1] S512
  shapeCasts_S512_S512x1 : S512.ShapeCasts S512x1
  broadcasts_S1x256_S512x256 : S1x256.Broadcasts S512x256
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x256_S1024x256_0_0 : ∀ a, (![0, 0] : Fin 2 → Nat) a + S1024x256.size a ≤ S1024x256.size a
  h_S1024x256 : 0 < S1024x256.numel
  dot_S4096x256_S256x256_S4096x256_1_0_0_1_n_n_wf : DotDims.WF S4096x256 S256x256 S4096x256 [1] [0] [0] [1] [] []
  gather_S4096x256_S204800x1_S204800x256_1_0_n_n_0_1_1256_wf : GatherDims.WF S4096x256 S204800x1 S204800x256 [1] [0] [] [0] [] 1 ![1, 256]
  dot_S2048x256_S256x256_S2048x256_1_0_0_1_n_n_wf : DotDims.WF S2048x256 S256x256 S2048x256 [1] [0] [0] [1] [] []
  scatter_S4096_S204800x1_S204800_n_0_0_1_wf : ScatterDims.WF S4096 S204800x1 S204800 [] [0] [0] 1
  scatter_S4096x256_S204800x1_S204800x256_1_0_0_1_wf : ScatterDims.WF S4096x256 S204800x1 S204800x256 [1] [0] [0] 1
  gather_S4096_S204800x1_S204800_n_0_n_n_0_1_1_wf : GatherDims.WF S4096 S204800x1 S204800 [] [0] [] [0] [] 1 ![1]
  dot_S512x256_S256x1024_S512x1024_1_0_0_1_n_n_wf : DotDims.WF S512x256 S256x1024 S512x1024 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S204800x256.size a
  hwx0_0 : ∀ i : grid0.Coords, EltTy.bits .bf16 = 32 ∨ (Rect.block (s := S204800x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S204800x256.size a
  hwx0_1 : ∀ i : grid0.Coords, EltTy.bits .f32 = 32 ∨ (Rect.block (s := S204800x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S204800x256.size a
  hwx0_2 : ∀ i : grid0.Coords, EltTy.bits .f32 = 32 ∨ (Rect.block (s := S204800x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S204800x1.size a
  hwx0_7 : ∀ i : grid0.Coords, EltTy.bits .f32 = 32 ∨ (Rect.block (s := S204800x1) S2048x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S204800x256.size a
  hwx0_8 : ∀ i : grid0.Coords, EltTy.bits .bf16 = 32 ∨ (Rect.block (s := S204800x256) S2048x256.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .f32 = 32 ∨ (Rect.block (s := S4096x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .f32 = 32 ∨ (Rect.block (s := S4096x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x1024.size a ≤ S256x1024.size a
  hwx1_7 : ∀ i : grid1.Coords, EltTy.bits .f32 = 32 ∨ (Rect.block (s := S256x1024) S256x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1024x256.size a ≤ S1024x256.size a
  hwx1_9 : ∀ i : grid1.Coords, EltTy.bits .f32 = 32 ∨ (Rect.block (s := S1024x256) S1024x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x256.size a ≤ S4096x256.size a
  hwx1_11 : ∀ i : grid1.Coords, EltTy.bits .f32 = 32 ∨ (Rect.block (s := S4096x256) S512x256.size (cc1_transform_11 i) (hinb1_11 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S4096x256_S204800x1_S204800x256_1_0_n_n_0_1_1256 : GatherDims S4096x256 S204800x1 S204800x256 where
  offsetDims := [1]
  collapsedSliceDims := [0]
  operandBatchingDims := []
  startIndicesBatchingDims := []
  startIndexMap := [0]
  indexVectorDim := 1
  sliceSizes := ![1, 256]
  wf := gather_S4096x256_S204800x1_S204800x256_1_0_n_n_0_1_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S4096_S204800x1_S204800_n_0_0_1 : ScatterDims S4096 S204800x1 S204800 where
  updateWindowDims := []
  insertedWindowDims := [0]
  scatterDimsToOperandDims := [0]
  indexVectorDim := 1
  wf := scatter_S4096_S204800x1_S204800_n_0_0_1_wf
def scatter_S4096x256_S204800x1_S204800x256_1_0_0_1 : ScatterDims S4096x256 S204800x1 S204800x256 where
  updateWindowDims := [1]
  insertedWindowDims := [0]
  scatterDimsToOperandDims := [0]
  indexVectorDim := 1
  wf := scatter_S4096x256_S204800x1_S204800x256_1_0_0_1_wf
def gather_S4096_S204800x1_S204800_n_0_n_n_0_1_1 : GatherDims S4096 S204800x1 S204800 where
  offsetDims := []
  collapsedSliceDims := [0]
  operandBatchingDims := []
  startIndicesBatchingDims := []
  startIndexMap := [0]
  indexVectorDim := 1
  sliceSizes := ![1]
  wf := gather_S4096_S204800x1_S204800_n_0_n_n_0_1_1_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_v11) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S2048x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S256x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S1024x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v38) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v39) S512x256.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S4096x256 : Shape := ⟨2, ![4096, 256]⟩
abbrev S204800x256 : Shape := ⟨2, ![204800, 256]⟩
abbrev S204800 : Shape := ⟨1, ![204800]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S_ : Shape := ⟨0, ![]⟩
abbrev S204800x1 : Shape := ⟨2, ![204800, 1]⟩
abbrev S1x256 : Shape := ⟨2, ![1, 256]⟩
abbrev S4096 : Shape := ⟨1, ![4096]⟩
abbrev S4096x1 : Shape := ⟨2, ![4096, 1]⟩
abbrev S4096x1024 : Shape := ⟨2, ![4096, 1024]⟩
abbrev S1x1024 : Shape := ⟨2, ![1, 1024]⟩

abbrev nBuf : Space → Nat
  | .hbm => 138
  | .vmem => 0
  | .smem => 0
  | _ => 0

abbrev hbmTy0_0 (i : Nat) : BufTy := match i % 128 with
  | 0 => ⟨S4096x256, .f32⟩
  | 1 => ⟨S204800x256, .f32⟩
  | 2 => ⟨S204800x256, .f32⟩
  | 3 => ⟨S204800, .i32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256, .f32⟩
  | 11 => ⟨S256, .f32⟩
  | 12 => ⟨S256, .f32⟩
  | 13 => ⟨S256, .f32⟩
  | 14 => ⟨S256x1024, .f32⟩
  | 15 => ⟨S1024, .f32⟩
  | 16 => ⟨S1024x256, .f32⟩
  | 17 => ⟨S256, .f32⟩
  | 18 => ⟨S_, .i32⟩
  | 19 => ⟨S204800, .i32⟩
  | 20 => ⟨S204800, .i1⟩
  | 21 => ⟨S_, .i32⟩
  | 22 => ⟨S204800, .i32⟩
  | 23 => ⟨S204800, .i32⟩
  | 24 => ⟨S204800, .i32⟩
  | 25 => ⟨S204800x1, .i32⟩
  | 26 => ⟨S204800x256, .f32⟩
  | 27 => ⟨S204800x256, .f32⟩
  | 28 => ⟨S1x256, .f32⟩
  | 29 => ⟨S204800x256, .f32⟩
  | 30 => ⟨S204800x256, .f32⟩
  | 31 => ⟨S204800x256, .f32⟩
  | 32 => ⟨S1x256, .f32⟩
  | 33 => ⟨S204800x256, .f32⟩
  | 34 => ⟨S204800x256, .f32⟩
  | 35 => ⟨S204800x256, .f32⟩
  | 36 => ⟨S1x256, .f32⟩
  | 37 => ⟨S204800x256, .f32⟩
  | 38 => ⟨S204800x256, .f32⟩
  | 39 => ⟨S204800x256, .f32⟩
  | 40 => ⟨S_, .f32⟩
  | 41 => ⟨S204800, .f32⟩
  | 42 => ⟨S_, .f32⟩
  | 43 => ⟨S204800, .f32⟩
  | 44 => ⟨S204800, .f32⟩
  | 45 => ⟨S204800, .f32⟩
  | 46 => ⟨S_, .f32⟩
  | 47 => ⟨S4096, .f32⟩
  | 48 => ⟨S204800x1, .i32⟩
  | 49 => ⟨S4096, .f32⟩
  | 50 => ⟨S_, .i32⟩
  | 51 => ⟨S204800, .i32⟩
  | 52 => ⟨S204800, .i1⟩
  | 53 => ⟨S_, .i32⟩
  | 54 => ⟨S204800, .i32⟩
  | 55 => ⟨S204800, .i32⟩
  | 56 => ⟨S204800, .i32⟩
  | 57 => ⟨S204800x1, .i32⟩
  | 58 => ⟨S204800, .f32⟩
  | 59 => ⟨S204800, .f32⟩
  | 60 => ⟨S204800x1, .f32⟩
  | 61 => ⟨S204800x256, .f32⟩
  | 62 => ⟨S204800x256, .f32⟩
  | 63 => ⟨S_, .f32⟩
  | 64 => ⟨S4096x256, .f32⟩
  | 65 => ⟨S204800x1, .i32⟩
  | 66 => ⟨S4096x256, .f32⟩
  | 67 => ⟨S4096x256, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S4096x256, .f32⟩
  | 75 => ⟨S4096x256, .f32⟩
  | 76 => ⟨S4096x256, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S4096x256, .f32⟩
  | 84 => ⟨S4096x256, .f32⟩
  | 85 => ⟨S_, .f32⟩
  | 86 => ⟨S4096x1, .f32⟩
  | 87 => ⟨S4096x1, .f32⟩
  | 88 => ⟨S4096x1, .f32⟩
  | 89 => ⟨S4096x256, .f32⟩
  | 90 => ⟨S4096x256, .f32⟩
  | 91 => ⟨S1x256, .f32⟩
  | 92 => ⟨S4096x256, .f32⟩
  | 93 => ⟨S4096x256, .f32⟩
  | 94 => ⟨S1x256, .f32⟩
  | 95 => ⟨S4096x256, .f32⟩
  | 96 => ⟨S4096x256, .f32⟩
  | 97 => ⟨S4096x1024, .f32⟩
  | 98 => ⟨S1x1024, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S_, .f32⟩
  | 110 => ⟨S4096, .f32⟩
  | 111 => ⟨S4096x1, .f32⟩
  | 112 => ⟨S_, .f32⟩
  | 113 => ⟨S4096x1, .f32⟩
  | 114 => ⟨S4096x1, .f32⟩
  | 115 => ⟨S4096x256, .f32⟩
  | 116 => ⟨S4096x256, .f32⟩
  | 117 => ⟨S4096x256, .f32⟩
  | 118 => ⟨S_, .f32⟩
  | 119 => ⟨S4096, .f32⟩
  | 120 => ⟨S4096x1, .f32⟩
  | 121 => ⟨S_, .f32⟩
  | 122 => ⟨S4096x1, .f32⟩
  | 123 => ⟨S4096x1, .f32⟩
  | 124 => ⟨S4096x256, .f32⟩
  | 125 => ⟨S4096x256, .f32⟩
  | 126 => ⟨S_, .f32⟩
  | 127 => ⟨S4096x1, .f32⟩
  | _ => ⟨S4096x256, .f32⟩

abbrev hbmTy0_1 (i : Nat) : BufTy := match i % 128 with
  | 0 => ⟨S4096x1, .f32⟩
  | 1 => ⟨S4096x1, .f32⟩
  | 2 => ⟨S4096x256, .f32⟩
  | 3 => ⟨S4096x256, .f32⟩
  | 4 => ⟨S1x256, .f32⟩
  | 5 => ⟨S4096x256, .f32⟩
  | 6 => ⟨S4096x256, .f32⟩
  | 7 => ⟨S1x256, .f32⟩
  | 8 => ⟨S4096x256, .f32⟩
  | 9 => ⟨S4096x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call0_cst : Ref sig .tc := ⟨.hbm, 101, rfl⟩
abbrev main_call0_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_11 : Ref sig .tc := ⟨.hbm, 109, rfl⟩
abbrev main_v76 : Ref sig .tc := ⟨.hbm, 110, rfl⟩
abbrev main_v77 : Ref sig .tc := ⟨.hbm, 111, rfl⟩
abbrev main_cst_12 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_13 : Ref sig .tc := ⟨.hbm, 118, rfl⟩
abbrev main_v83 : Ref sig .tc := ⟨.hbm, 119, rfl⟩
abbrev main_v84 : Ref sig .tc := ⟨.hbm, 120, rfl⟩
abbrev main_cst_14 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_15 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  bcast_S_S204800 : S_.BroadcastsInDim S204800 (![] : Fin 0 → Fin S204800.rank)
  bcast_S204800_S204800x1_0 : S204800.BroadcastsInDim S204800x1 (![0] : Fin 1 → Fin S204800x1.rank)
  bcast_S256_S1x256_1 : S256.BroadcastsInDim S1x256 (![1] : Fin 1 → Fin S1x256.rank)
  bcast_S1x256_S204800x256_0_1 : S1x256.BroadcastsInDim S204800x256 (![0, 1] : Fin 2 → Fin S204800x256.rank)
  reducesTo_S204800x256_S204800_d1 : S204800x256.ReducesTo [1] S204800
  h_S_ : 0 < S_.numel
  bcast_S_S4096 : S_.BroadcastsInDim S4096 (![] : Fin 0 → Fin S4096.rank)
  bcast_S204800x1_S204800x256_0_1 : S204800x1.BroadcastsInDim S204800x256 (![0, 1] : Fin 2 → Fin S204800x256.rank)
  bcast_S_S4096x256 : S_.BroadcastsInDim S4096x256 (![] : Fin 0 → Fin S4096x256.rank)
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S1x256_S4096x256_0_1 : S1x256.BroadcastsInDim S4096x256 (![0, 1] : Fin 2 → Fin S4096x256.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  gather_S4096x256_S204800x1_S204800x256_1_0_n_n_0_1_1256_wf : GatherDims.WF S4096x256 S204800x1 S204800x256 [1] [0] [] [0] [] 1 ![1, 256]
  dot_S204800x256_S256x256_S204800x256_1_0_0_1_n_n_wf : DotDims.WF S204800x256 S256x256 S204800x256 [1] [0] [0] [1] [] []
  scatter_S4096_S204800x1_S204800_n_0_0_1_wf : ScatterDims.WF S4096 S204800x1 S204800 [] [0] [0] 1
  gather_S4096_S204800x1_S204800_n_0_n_n_0_1_1_wf : GatherDims.WF S4096 S204800x1 S204800 [] [0] [] [0] [] 1 ![1]
  scatter_S4096x256_S204800x1_S204800x256_1_0_0_1_wf : ScatterDims.WF S4096x256 S204800x1 S204800x256 [1] [0] [0] 1
  dot_S4096x256_S256x1024_S4096x1024_1_0_0_1_n_n_wf : DotDims.WF S4096x256 S256x1024 S4096x1024 [1] [0] [0] [1] [] []
  dot_S4096x1024_S1024x256_S4096x256_1_0_0_1_n_n_wf : DotDims.WF S4096x1024 S1024x256 S4096x256 [1] [0] [0] [1] [] []

variable [Facts₀]

def gather_S4096x256_S204800x1_S204800x256_1_0_n_n_0_1_1256 : GatherDims S4096x256 S204800x1 S204800x256 where
  offsetDims := [1]
  collapsedSliceDims := [0]
  operandBatchingDims := []
  startIndicesBatchingDims := []
  startIndexMap := [0]
  indexVectorDim := 1
  sliceSizes := ![1, 256]
  wf := gather_S4096x256_S204800x1_S204800x256_1_0_n_n_0_1_1256_wf
def dot_S204800x256_S256x256_S204800x256_1_0_0_1_n_n : DotDims S204800x256 S256x256 S204800x256 where
  lhsContracting := [1]
  rhsContracting := [0]
  lhsNonContracting := [0]
  rhsNonContracting := [1]
  lhsBatch := []
  rhsBatch := []
  wf := dot_S204800x256_S256x256_S204800x256_1_0_0_1_n_n_wf
def scatter_S4096_S204800x1_S204800_n_0_0_1 : ScatterDims S4096 S204800x1 S204800 where
  updateWindowDims := []
  insertedWindowDims := [0]
  scatterDimsToOperandDims := [0]
  indexVectorDim := 1
  wf := scatter_S4096_S204800x1_S204800_n_0_0_1_wf
def gather_S4096_S204800x1_S204800_n_0_n_n_0_1_1 : GatherDims S4096 S204800x1 S204800 where
  offsetDims := []
  collapsedSliceDims := [0]
  operandBatchingDims := []
  startIndicesBatchingDims := []
  startIndexMap := [0]
  indexVectorDim := 1
  sliceSizes := ![1]
  wf := gather_S4096_S204800x1_S204800_n_0_n_n_0_1_1_wf
def scatter_S4096x256_S204800x1_S204800x256_1_0_0_1 : ScatterDims S4096x256 S204800x1 S204800x256 where
  updateWindowDims := [1]
  insertedWindowDims := [0]
  scatterDimsToOperandDims := [0]
  indexVectorDim := 1
  wf := scatter_S4096x256_S204800x1_S204800x256_1_0_0_1_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf

class Facts : Prop extends Facts₀ where

variable [Facts]
-- ==== Proof.WholeRun.lean ====
/-
  The whole run of the program with its two results named.

  The program is four stretches in a row: host operations, the scoring call, host operations, the feed-forward call.
  At every boundary the contents of each unscoped buffer are known by name; after the last stretch they are `W4`.  The
  run below keeps, beside the arguments, the two result buffers at `W4`, which the later modules read back through the
  four stretches.
-/
import proofs.«181518_j33663953666886_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the two results at the last boundary's contents and the arguments as
    launched. -/
theorem run : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c)⟩)

end Cert.KernelIdeal.Whole

end
-- ==== Proof.LibRowGather.lean ====
/-
  Row gathers and row scatters read at an index.

  `x[idx]` of a matrix `x : [N, F]` (or a vector `x : [N]`) at a column of integers `idx : [E, 1]` is a gather whose
  result row `e` is row `clamp (idx e)` of the operand: the start index is read signed, a negative one becomes `0`, and
  it is cut at `N - 1`. The matrix form and the vector form clamp in the same way, so the row a matrix gather reads is the
  entry a vector gather with the same indices reads.  A scatter of rows `u : [E, F]` into `[N, F]` at such a column
  sends update `(e, f)` to `(idx e, f)` when `0 ≤ idx e < N`, and drops it otherwise: nothing is clamped there.
-/
import Idealize.ShloMosaic.PureOps.ShapeOps
import Idealize.ShloMosaic.Lib.ValueIdx

noncomputable section

namespace Cert.RowIndexing

open Idealize.ShloMosaic Idealize.ShloMosaic.ValueIdx

/-- The dimension numbers of `x[idx]` for a matrix `x : [N, F]` and a column of indices `[E, 1]`. -/
abbrev rowGatherDims (N E F : Nat)
    (wf : GatherDims.WF (⟨2, ![N, F]⟩ : Shape) ⟨2, ![E, 1]⟩ ⟨2, ![E, F]⟩ [1] [0] [] [0] [] 1 ![1, F]) :
    GatherDims (⟨2, ![N, F]⟩ : Shape) ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x[idx]` for a vector `x : [N]` and a column of indices `[E, 1]`. -/
abbrev vecGatherDims (N E : Nat)
    (wf : GatherDims.WF (⟨1, ![N]⟩ : Shape) ⟨2, ![E, 1]⟩ ⟨1, ![E]⟩ [] [0] [] [0] [] 1 ![1]) :
    GatherDims (⟨1, ![N]⟩ : Shape) ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row an index column selects at position `e`: the entry read signed, cut to `[0, N - 1]`. -/
def clampRow {N E w : Nat} (hN : 0 < N) (idx : IVec (⟨2, ![E, 1]⟩ : Shape) w) (e : Fin E) : Fin N :=
  ⟨min (idx (ix2 e (0 : Fin 1))).toInt.toNat (N - 1), by omega⟩

/-- The operand index a matrix gather reads at `(e, f)`: row `clampRow idx e`, column `f`. -/
theorem rowGather_operandIdx {N E F w : Nat} (hN : 0 < N) (wf)
    (idx : IVec (⟨2, ![E, 1]⟩ : Shape) w) (e : Fin E) (f : Fin F) :
    (rowGatherDims N E F wf).operandIdx (ix2 e f) idx = ix2 (clampRow hN idx e) f := by
  funext a
  refine Fin.ext ?_
  have hsi : ∀ c, (rowGatherDims N E F wf).siIdx (ix2 e f) c = ix2 e (0 : Fin 1) := by
    intro c
    funext b; refine Fin.ext ?_
    match b with
    | ⟨0, _⟩ => rfl
    | ⟨1, _⟩ => show c.val = 0; have := c.isLt; exact Nat.lt_one_iff.mp this
  match a with
  | ⟨0, h0⟩ =>
    show (rowGatherDims N E F wf).start (ix2 e f) idx ⟨0, h0⟩ + (rowGatherDims N E F wf).batchCoord (ix2 e f) ⟨0, h0⟩
      + (rowGatherDims N E F wf).offCoord (ix2 e f) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E F wf).startIndexMap from List.mem_singleton.mpr rfl)]
    rw [hsi]
    rfl
  | ⟨1, h1⟩ =>
    show (rowGatherDims N E F wf).start (ix2 e f) idx ⟨1, h1⟩ + (rowGatherDims N E F wf).batchCoord (ix2 e f) ⟨1, h1⟩
      + (rowGatherDims N E F wf).offCoord (ix2 e f) ⟨1, h1⟩ = _
    rw [GatherDims.batchCoord_eq_zero _ _ _ List.not_mem_nil]
    unfold GatherDims.start
    rw [dif_neg (show ¬ (⟨1, h1⟩ : Fin 2) ∈ (rowGatherDims N E F wf).startIndexMap from
      fun h => absurd (congrArg Fin.val (List.mem_singleton.mp h)) Nat.one_ne_zero)]
    simp only [Nat.add_zero, Nat.zero_add]
    rfl

/-- A matrix gather at `(e, f)` reads row `clampRow idx e`, column `f`. -/
theorem rowGather_apply {N E F w : Nat} {α : Type} (hN : 0 < N) (wf)
    (x : (⟨2, ![N, F]⟩ : Shape).Idx → α) (idx : IVec (⟨2, ![E, 1]⟩ : Shape) w) (e : Fin E) (f : Fin F) :
    Host.gather (rowGatherDims N E F wf) x idx (ix2 e f) = x (ix2 (clampRow hN idx e) f) :=
  congrArg x (rowGather_operandIdx hN wf idx e f)

/-- The operand index a vector gather reads at `e`: entry `clampRow idx e`. -/
theorem vecGather_operandIdx {N E w : Nat} (hN : 0 < N) (wf)
    (idx : IVec (⟨2, ![E, 1]⟩ : Shape) w) (e : Fin E) :
    (vecGatherDims N E wf).operandIdx (ix1 e) idx = ix1 (clampRow hN idx e) := by
  funext a
  obtain rfl : a = 0 := Subsingleton.elim _ _
  refine Fin.ext ?_
  have hsi : ∀ c, (vecGatherDims N E wf).siIdx (ix1 e) c = ix2 e (0 : Fin 1) := by
    intro c
    funext b; refine Fin.ext ?_
    match b with
    | ⟨0, _⟩ => rfl
    | ⟨1, _⟩ => show c.val = 0; have := c.isLt; exact Nat.lt_one_iff.mp this
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [hsi]
  rfl

/-- A vector gather at `e` reads entry `clampRow idx e`. -/
theorem vecGather_apply {N E w : Nat} {α : Type} (hN : 0 < N) (wf)
    (x : (⟨1, ![N]⟩ : Shape).Idx → α) (idx : IVec (⟨2, ![E, 1]⟩ : Shape) w) (e : Fin E) :
    Host.gather (vecGatherDims N E wf) x idx (ix1 e) = x (ix1 (clampRow hN idx e)) :=
  congrArg x (vecGather_operandIdx hN wf idx e)

/-- The dimension numbers of a scatter of rows `[E, F]` into `[N, F]` at a column of indices `[E, 1]`. -/
abbrev rowScatterDims (N E F : Nat)
    (wf : ScatterDims.WF (⟨2, ![N, F]⟩ : Shape) ⟨2, ![E, 1]⟩ ⟨2, ![E, F]⟩ [1] [0] [0] 1) :
    ScatterDims (⟨2, ![N, F]⟩ : Shape) ⟨2, ![E, 1]⟩ ⟨2, ![E, F]⟩ where
  updateWindowDims := [1]
  insertedWindowDims := [0]
  scatterDimsToOperandDims := [0]
  indexVectorDim := 1
  wf := wf

/-- Where update row `e` lands, when it lands: the row its index names, read signed and NOT clamped. -/
theorem rowScatter_row {N E F w : Nat} (wf) (idx : IVec (⟨2, ![E, 1]⟩ : Shape) w) (j : (⟨2, ![E, F]⟩ : Shape).Idx)
    (i : (⟨2, ![N, F]⟩ : Shape).Idx) (h : (rowScatterDims N E F wf).resultIdx? j idx = some i) :
    (idx (ix2 (j 0) (0 : Fin 1))).toInt = ((i 0).val : Int) := by
  unfold ScatterDims.resultIdx? at h
  split at h
  · rename_i hall
    have hi := Option.some.inj h
    have h0 := congrArg (fun k : (⟨2, ![N, F]⟩ : Shape).Idx => (k 0).val) hi
    simp only at h0
    have hw : (rowScatterDims N E F wf).window j 0 = 0 := by
      unfold ScatterDims.window
      rw [dif_neg (fun hk => by
        have hk' : (0 : Fin 2) ∈ (List.finRange 2).filter (fun a : Fin 2 => a ∉ [(0 : Fin 2)]) := hk
        revert hk'; decide)]
    have hs : (rowScatterDims N E F wf).start j idx 0 = (idx (ix2 (j 0) (0 : Fin 1))).toInt := by
      unfold ScatterDims.start
      rw [dif_pos (show (0 : Fin 2) ∈ (rowScatterDims N E F wf).scatterDimsToOperandDims from List.mem_singleton.mpr rfl)]
      congr 2
      funext b; refine Fin.ext ?_
      match b with
      | ⟨0, _⟩ => rfl
      | ⟨1, _⟩ => rfl
    have hr := hall 0
    rw [hw, hs] at hr
    rw [hw, hs] at h0
    omega
  · exact absurd h (by simp)

end Cert.RowIndexing

end
-- ==== Proof.LibRowScatterSum.lean ====
/-
  A scatter-add of rows read at an entry, over the extended reals.

  A scatter of update rows `u : [E, F]` into `[N, F]` at a column of integers `idx : [E, 1]` sends update `(e, c)` to
  `(idx e, c)` when `0 ≤ idx e < N` and drops it otherwise.  So the update entries that land on `(n, f)` are exactly
  the entries `(e, f)` of the rows `e` whose index, read signed, is `n`; the set of those rows does not depend on the
  column `f`, nor on the width `F`.  With the host's accumulating scatter this makes the result at `(n, f)` the operand
  there plus the sum of `u (e, f)` over those rows.
-/
import proofs.«181518_j33663953666886_2_alg».proof.Proof.LibRowGather
import Idealize.ShloMosaic.PureOps.Ideal

noncomputable section

namespace Cert.RowIndexing

open Idealize.ShloMosaic Idealize.ShloMosaic.ValueIdx

/-- The rows of an index column that name node `n`: the index read signed equals `n`. -/
def rowsAt {N E w : Nat} (idx : IVec (⟨2, ![E, 1]⟩ : Shape) w) (n : Fin N) : Finset (Fin E) :=
  Finset.univ.filter fun e => (idx (ix2 e (0 : Fin 1))).toInt = ((n.val : Nat) : Int)

/-- Update `(e, c)` lands on `(n, f)` exactly when row `e` names `n` and the column is kept. -/
theorem rowScatter_lands_iff {N E F w : Nat} (wf) (idx : IVec (⟨2, ![E, 1]⟩ : Shape) w)
    (e : Fin E) (c : Fin F) (n : Fin N) (f : Fin F) :
    (rowScatterDims N E F wf).resultIdx? (ix2 e c) idx = some (ix2 n f)
      ↔ (idx (ix2 e (0 : Fin 1))).toInt = ((n.val : Nat) : Int) ∧ c = f := by
  have hw0 : (rowScatterDims N E F wf).window (ix2 e c) 0 = 0 := by
    unfold ScatterDims.window
    rw [dif_neg (fun hk => by
      have hk' : (0 : Fin 2) ∈ (List.finRange 2).filter (fun a : Fin 2 => a ∉ [(0 : Fin 2)]) := hk
      revert hk'; decide)]
  have hs0 : (rowScatterDims N E F wf).start (ix2 e c) idx 0 = (idx (ix2 e (0 : Fin 1))).toInt := by
    unfold ScatterDims.start
    rw [dif_pos (show (0 : Fin 2) ∈ (rowScatterDims N E F wf).scatterDimsToOperandDims from List.mem_singleton.mpr rfl)]
    congr 2
    funext b; refine Fin.ext ?_
    match b with
    | ⟨0, _⟩ => rfl
    | ⟨1, _⟩ => rfl
  have hs1 : (rowScatterDims N E F wf).start (ix2 e c) idx 1 = 0 := by
    unfold ScatterDims.start
    rw [dif_neg (show ¬ (1 : Fin 2) ∈ (rowScatterDims N E F wf).scatterDimsToOperandDims from
      fun h => absurd (congrArg Fin.val (List.mem_singleton.mp h)) Nat.one_ne_zero)]
  have hw1 : (rowScatterDims N E F wf).window (ix2 e c) 1 = c.val := by
    have hmem : (1 : Fin 2) ∈ (rowScatterDims N E F wf).sKept :=
      (by decide : (1 : Fin 2) ∈ (List.finRange 2).filter (fun a : Fin 2 => a ∉ [(0 : Fin 2)]))
    unfold ScatterDims.window
    rw [dif_pos hmem]
    rfl
  unfold ScatterDims.resultIdx?
  constructor
  · intro h
    split at h
    · rename_i hall
      have hi := Option.some.inj h
      have h0 := congrArg (fun k : (⟨2, ![N, F]⟩ : Shape).Idx => (k 0).val) hi
      have h1 := congrArg (fun k : (⟨2, ![N, F]⟩ : Shape).Idx => (k 1).val) hi
      simp only at h0 h1
      have r0 := hall 0
      rw [hs0, hw0] at r0 h0
      rw [hs1, hw1] at h1
      refine ⟨?_, Fin.ext ?_⟩
      · have : ((ix2 n f : (⟨2, ![N, F]⟩ : Shape).Idx) 0).val = n.val := rfl
        omega
      · have : ((ix2 n f : (⟨2, ![N, F]⟩ : Shape).Idx) 1).val = f.val := rfl
        omega
    · exact absurd h (by simp)
  · rintro ⟨hn, rfl⟩
    have hall : ∀ a, 0 ≤ (rowScatterDims N E F wf).start (ix2 e c) idx a + (rowScatterDims N E F wf).window (ix2 e c) a
        ∧ (rowScatterDims N E F wf).start (ix2 e c) idx a + (rowScatterDims N E F wf).window (ix2 e c) a
          < (⟨2, ![N, F]⟩ : Shape).size a := by
      intro a
      match a with
      | ⟨0, _⟩ =>
        show 0 ≤ (rowScatterDims N E F wf).start (ix2 e c) idx 0 + (rowScatterDims N E F wf).window (ix2 e c) 0
          ∧ (rowScatterDims N E F wf).start (ix2 e c) idx 0 + (rowScatterDims N E F wf).window (ix2 e c) 0 < (N : Int)
        rw [hs0, hw0, hn]; have := n.isLt; omega
      | ⟨1, _⟩ =>
        show 0 ≤ (rowScatterDims N E F wf).start (ix2 e c) idx 1 + (rowScatterDims N E F wf).window (ix2 e c) 1
          ∧ (rowScatterDims N E F wf).start (ix2 e c) idx 1 + (rowScatterDims N E F wf).window (ix2 e c) 1 < (F : Int)
        rw [hs1, hw1]; have := c.isLt; omega
    rw [dif_pos hall]
    refine congrArg some ?_
    funext a; refine Fin.ext ?_
    match a with
    | ⟨0, _⟩ =>
      show ((rowScatterDims N E F wf).start (ix2 e c) idx 0 + (rowScatterDims N E F wf).window (ix2 e c) 0).toNat = n.val
      rw [hs0, hw0, hn]; omega
    | ⟨1, _⟩ =>
      show ((rowScatterDims N E F wf).start (ix2 e c) idx 1 + (rowScatterDims N E F wf).window (ix2 e c) 1).toNat = c.val
      rw [hs1, hw1]; omega

/-- The host's accumulating scatter of rows at `(n, f)`: the operand there plus the sum over the rows naming `n` of
    their entry in column `f`. -/
theorem rowScatterAdd_apply {N E F w : Nat} (wf) (x : (⟨2, ![N, F]⟩ : Shape).Idx → EReal)
    (idx : IVec (⟨2, ![E, 1]⟩ : Shape) w) (u : (⟨2, ![E, F]⟩ : Shape).Idx → EReal) (n : Fin N) (f : Fin F) :
    Ideal.hostScatterAdd (rowScatterDims N E F wf) x idx u (ix2 n f)
      = x (ix2 n f) + ∑ e ∈ rowsAt idx n, u (ix2 e f) := by
  unfold Ideal.hostScatterAdd
  refine congrArg (x (ix2 n f) + ·) ?_
  symm
  refine Finset.sum_bij (fun e _ => ix2 e f) ?_ ?_ ?_ ?_
  · intro e he
    have he' := (Finset.mem_filter.mp he).2
    exact Finset.mem_filter.mpr ⟨Finset.mem_univ _, (rowScatter_lands_iff wf idx e f n f).mpr ⟨he', rfl⟩⟩
  · intro e _ e' _ h
    exact congrFun h 0
  · intro j hj
    have hj' := (Finset.mem_filter.mp hj).2
    rw [eq_ix2 j] at hj'
    obtain ⟨h0, h1⟩ := (rowScatter_lands_iff wf idx (j 0) (j 1) n f).mp hj'
    refine ⟨j 0, Finset.mem_filter.mpr ⟨Finset.mem_univ _, h0⟩, ?_⟩
    rw [eq_ix2 j]
    exact congrArg (ix2 (j 0)) h1.symm
  · intro e _
    rfl

end Cert.RowIndexing

end
-- ==== Proof.Spec.lean ====
/-
  Attention pooled over the nodes of each graph, followed by a normalised feed-forward block, entry by entry on the
  extended reals.

  Every node `e` carries a graph id `batch e`.  Its query is row `row e` of `smiles · wq + bq`, its key and value are
  rows `e` of `key · wk + bk` and `value · wv + bv`, its weight is `ex e = exp (⟨q e, k e⟩ · s)` with `s` the inverse of
  the scale.  A graph `n` collects the nodes of `seg n`: `den n` is the sum of their weights, and the pooled value is
  the weighted mean of their values.  The mean can be taken in two arrangements — each weight divided by `den` before the
  sum (`pooledEach`), or the sum divided once by `den`, with `1` standing in for an empty graph's `0` (`pooledOnce`).
  The pooled value is added to `smiles` and passed, row by row, through `tailRow`: a layer normalisation, a two-layer
  perceptron with a residual connection, and a second layer normalisation.
-/
import Idealize.ShloMosaic.PureOps.Ideal
import Idealize.ShloMosaic.Lib.ValueIdx
import proofs.«181518_j33663953666886_2_alg».proof.Proof.LibRowGather
import proofs.«181518_j33663953666886_2_alg».proof.Proof.LibRowScatterSum

noncomputable section

namespace Cert.Attn

open Idealize.ShloMosaic Idealize.ShloMosaic.ValueIdx Cert.RowIndexing

/-- A matrix and a vector of extended reals over literal extents. -/
abbrev Mat (a b : Nat) := (⟨2, ![a, b]⟩ : Shape).Idx → EReal
abbrev Vc (a : Nat) := (⟨1, ![a]⟩ : Shape).Idx → EReal

/-- `A · W + b` at `(r, o)`. -/
def affine {R n k : Nat} (A : Mat R n) (W : Mat n k) (b : Vc k) (r : Fin R) (o : Fin k) : EReal :=
  (∑ c : Fin n, A (ix2 r c) * W (ix2 c o)) + b (ix1 o)

/-- The graph ids as a column, as the segment sums read them. -/
def rawCol (batch : IVec (⟨1, ![204800]⟩ : Shape) 32) : IVec (⟨2, ![204800, 1]⟩ : Shape) 32 :=
  fun i => batch (ix1 (i 0))

/-- The graph ids as a column, as the row look-ups read them: a negative id counts from the end. -/
def wrapCol (batch : IVec (⟨1, ![204800]⟩ : Shape) 32) : IVec (⟨2, ![204800, 1]⟩ : Shape) 32 :=
  fun i => Scalar.select (IntOp.cmpi .slt (batch (ix1 (i 0))) 0#32) (IntOp.addi (batch (ix1 (i 0))) 4096#32)
    (batch (ix1 (i 0)))

/-- The graph whose row node `e` looks up. -/
def row (batch : IVec (⟨1, ![204800]⟩ : Shape) 32) (e : Fin 204800) : Fin 4096 :=
  clampRow (N := 4096) (by decide) (wrapCol batch) e

/-- The nodes a graph collects. -/
def seg (batch : IVec (⟨1, ![204800]⟩ : Shape) 32) (n : Fin 4096) : Finset (Fin 204800) :=
  rowsAt (rawCol batch) n

/-- The inverse of the scale, `2097152 / 11863283`. -/
def invScale : EReal := ((2097152 / 11863283 : ℝ) : EReal)

section Pool

variable (smiles : Mat 4096 256) (key value : Mat 204800 256) (batch : IVec (⟨1, ![204800]⟩ : Shape) 32)
  (wq : Mat 256 256) (bq : Vc 256) (wk : Mat 256 256) (bk : Vc 256) (wv : Mat 256 256) (bv : Vc 256)

/-- Node `e`'s query meets its key. -/
def score (e : Fin 204800) : EReal :=
  ∑ f : Fin 256, affine smiles wq bq (row batch e) f * affine key wk bk e f

/-- Node `e`'s weight. -/
def ex (e : Fin 204800) : EReal := Ideal.exp (score smiles key batch wq bq wk bk e * invScale)

/-- The weights a graph collects, summed. -/
def den (n : Fin 4096) : EReal := ∑ e ∈ seg batch n, ex smiles key batch wq bq wk bk e

/-- Node `e`'s share of the graph it looks up. -/
def att (e : Fin 204800) : EReal :=
  Ideal.div (ex smiles key batch wq bq wk bk e) (den smiles key batch wq bq wk bk (row batch e))

/-- The pooled value with every weight divided by the graph's total first. -/
def pooledEach (n : Fin 4096) (f : Fin 256) : EReal :=
  ∑ e ∈ seg batch n, att smiles key batch wq bq wk bk e * affine value wv bv e f

/-- A total that is not positive is replaced by `1`. -/
def safe (d : EReal) : EReal := if 0 < d then d else 1

/-- The pooled value with the sum divided once by the graph's total. -/
def pooledOnce (n : Fin 4096) (f : Fin 256) : EReal :=
  Ideal.div (∑ e ∈ seg batch n, ex smiles key batch wq bq wk bk e * affine value wv bv e f)
    (safe (den smiles key batch wq bq wk bk n))

end Pool

section Tail

/-- `256` and the variance's offset, as their patterns. -/
def c256 : EReal := Ideal.ofBits .f32 0x43800000#32
def lnEps : EReal := Ideal.ofBits .f32 0x3727C5AC#32

/-- A row's mean. -/
def rowMean (x : Fin 256 → EReal) : EReal := Ideal.div (∑ k : Fin 256, x k) c256

/-- A row's variance about its mean. -/
def rowVar (x : Fin 256 → EReal) : EReal :=
  Ideal.div (∑ k : Fin 256, (x k - rowMean x) * (x k - rowMean x)) c256

/-- Layer normalisation of a row with gain `g` and offset `b`. -/
def lnRow (x : Fin 256 → EReal) (g b : Fin 256 → EReal) (f : Fin 256) : EReal :=
  (x f - rowMean x) * Ideal.rsqrt (rowVar x + lnEps) * g f + b f

/-- The two-layer perceptron on a row. -/
def ffnRow (y : Fin 256 → EReal) (w1 : Fin 256 → Fin 1024 → EReal) (c1 : Fin 1024 → EReal)
    (w2 : Fin 1024 → Fin 256 → EReal) (c2 : Fin 256 → EReal) (f : Fin 256) : EReal :=
  (∑ j : Fin 1024, max ((∑ k : Fin 256, y k * w1 k j) + c1 j) 0 * w2 j f) + c2 f

/-- The block after the pooling, on one row. -/
def tailRow (x : Fin 256 → EReal) (g0 b0 g1 b1 : Fin 256 → EReal) (w1 : Fin 256 → Fin 1024 → EReal)
    (c1 : Fin 1024 → EReal) (w2 : Fin 1024 → Fin 256 → EReal) (c2 : Fin 256 → EReal) (f : Fin 256) : EReal :=
  lnRow (fun f' => lnRow x g0 b0 f' + ffnRow (lnRow x g0 b0) w1 c1 w2 c2 f') g1 b1 f

end Tail

end Cert.Attn

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibPlainHostDot.lean ====
/-
  A plain matrix product on the host, read at an index.

  The host's `dot_general` of an `R × n` matrix with an `n × k` matrix, contracting the shared axis and nothing batched,
  is at `(q, o)` the sum over the shared axis of the products of the entries, on the extended reals.
-/
import proofs.«181518_j33663953666886_2_alg».proof.Proof.LibPlainMatmul

noncomputable section

namespace Cert.PointConv

open Idealize.ShloMosaic Idealize.ShloMosaic.ValueIdx

/-- A host product of an `R × n` by an `n × k` matrix, at `(q, o)`: the sum over the shared axis. -/
theorem plainHostDot_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    Host.dotGeneral (plainDims R n k wf) prec A B (ix2 q o) = ∑ c : Fin n, A (ix2 q c) * B (ix2 c o) := by
  simp only [Host.dotGeneral]
  rw [Ideal.dotGeneral_apply, ← Equiv.sum_comp (plainContr wf).symm]
  refine Finset.sum_congr rfl fun c _ => ?_
  rw [plainDims_lhsIdx, plainDims_rhsIdx]

end Cert.PointConv

end
-- ==== Proof.HostPre.lean ====
/-
  What the scoring call finds in its arrays.

  Before the call the host forms the queries of the 4096 graphs, `smiles · wq + bq`, and looks up, for every node, the row
  of its graph (a negative id counted from the end, the result cut to the range); it lays the two bias vectors out as
  rows.  The other arrays the call reads are arguments, untouched.
-/
import proofs.«181518_j33663953666886_2_alg».proof.Proof.Gen.KernelIdeal.Frame
import proofs.«181518_j33663953666886_2_alg».proof.Proof.Spec
import proofs.«181518_j33663953666886_2_alg».proof.Proof.LibPlainHostDot
import Idealize.ShloMosaic.Lib.StableHlo.Run
import Idealize.ShloMosaic.Lib.Pipeline.Value

set_option maxRecDepth 16384

noncomputable section

namespace Cert.Attn.HostPre

open Cert.KernelIdeal Cert.KernelIdeal.Gen Cert.Attn Cert.RowIndexing Cert.PointConv
open Idealize.ShloMosaic Idealize.ShloMosaic.ValueIdx Idealize.ShloMosaic.TcCoe Idealize.ShloMosaic.StableHlo Idealize.SL.Sem

variable (m : (ℓ : Loc nD τ sig) → Buf (Elt Ideal) ℓ) (ρ : Dev nD → PrngReg) (c : Dev nD)

/-- The look-up column as the host computes it is the graph ids with a negative id counted from the end. -/
theorem wrapped_col (batch : IVec S204800 32) :
    broadcastInDim S204800x1 ![0] bcast_S204800_S204800x1_0
        (select (cmpi .slt batch (broadcastInDim S204800 ![] bcast_S_S204800 (constantI S_ 32 0#32)))
          (addi batch (broadcastInDim S204800 ![] bcast_S_S204800 (constantI S_ 32 4096#32))) batch)
      = wrapCol batch := by
  funext i
  refine (broadcastInDim_apply _ bcast_S204800_S204800x1_0 _ i (ix1 (i 0)) ?_).trans ?_
  · intro a
    match a with
    | ⟨0, _⟩ => show (i 0).val = if (204800 : Nat) = 1 then 0 else (i 0).val; rw [if_neg (by decide)]
  · rfl

/-- The raw column as the host lays it out. -/
theorem raw_col (batch : IVec S204800 32) :
    broadcastInDim S204800x1 ![0] bcast_S204800_S204800x1_0 batch = rawCol batch := by
  funext i
  refine (broadcastInDim_apply _ bcast_S204800_S204800x1_0 _ i (ix1 (i 0)) ?_).trans rfl
  intro a
  match a with
  | ⟨0, _⟩ => show (i 0).val = if (204800 : Nat) = 1 then 0 else (i 0).val; rw [if_neg (by decide)]

/-- The query array the call reads: node `e`'s row is its graph's query. -/
theorem query_apply (e : Fin 204800) (f : Fin 256) :
    V1 m ρ c main_v11 (ix2 e f)
      = affine (m ((c : Thread nD τ).loc main_arg0)) (m ((c : Thread nD τ).loc main_arg4))
          (m ((c : Thread nD τ).loc main_arg5)) (row (m ((c : Thread nD τ).loc main_arg3)) e) f := by
  show StableHlo.after hostOps0 (W0 m ρ c) (Proc.devRef .tc main_v11) (ix2 e f) = _
  after_results
  rw [wrapped_col]
  refine (rowGather_apply (N := 4096) (E := 204800) (F := 256) (by decide)
    gather_S4096x256_S204800x1_S204800x256_1_0_n_n_0_1_1256_wf _ (wrapCol (W0 m ρ c (Proc.devRef .tc main_arg3))) e f).trans ?_
  unfold affine
  refine (addf_apply _ _ _).trans ?_
  congr 1
  · exact plainHostDot_apply dot_S4096x256_S256x256_S4096x256_1_0_0_1_n_n_wf none _ _ _ f
  · refine (broadcastInDim_apply _ bcast_S1x256_S4096x256_0_1 _ _ (ix2 (0 : Fin 1) f) ?_).trans
      (broadcastInDim_apply _ bcast_S256_S1x256_1 _ _ (ix1 f) ?_)
    · intro a
      match a with
      | ⟨0, _⟩ => rfl
      | ⟨1, _⟩ => show f.val = if (256 : Nat) = 1 then 0 else f.val; rw [if_neg (by decide)]
    · intro a
      match a with
      | ⟨0, _⟩ => show f.val = if (256 : Nat) = 1 then 0 else f.val; rw [if_neg (by decide)]

/-- The arguments the call reads are as launched. -/
theorem V1_arg1 : V1 m ρ c main_arg1 = m ((c : Thread nD τ).loc main_arg1) := by
  show StableHlo.after hostOps0 (W0 m ρ c) (Proc.devRef .tc main_arg1) = _
  after_results

theorem V1_arg2 : V1 m ρ c main_arg2 = m ((c : Thread nD τ).loc main_arg2) := by
  show StableHlo.after hostOps0 (W0 m ρ c) (Proc.devRef .tc main_arg2) = _
  after_results

theorem V1_arg6 : V1 m ρ c main_arg6 = m ((c : Thread nD τ).loc main_arg6) := by
  show StableHlo.after hostOps0 (W0 m ρ c) (Proc.devRef .tc main_arg6) = _
  after_results

theorem V1_arg8 : V1 m ρ c main_arg8 = m ((c : Thread nD τ).loc main_arg8) := by
  show StableHlo.after hostOps0 (W0 m ρ c) (Proc.devRef .tc main_arg8) = _
  after_results

/-- The key bias laid out as a row. -/
theorem V1_v12 (f : Fin 256) :
    V1 m ρ c main_v12 (ix2 (0 : Fin 1) f) = m ((c : Thread nD τ).loc main_arg7) (ix1 f) := by
  show StableHlo.after hostOps0 (W0 m ρ c) (Proc.devRef .tc main_v12) (ix2 (0 : Fin 1) f) = _
  after_results
  refine (shapeCast_addUnit_apply ![256] (W0 m ρ c (Proc.devRef .tc main_arg7)) shapeCasts_S256_S1x256
    (ix2 (0 : Fin 1) f)).trans ?_
  exact congrArg (m ((c : Thread nD τ).loc main_arg7)) (funext fun a => match a with | ⟨0, _⟩ => rfl)

/-- The value bias laid out as a row. -/
theorem V1_v13 (f : Fin 256) :
    V1 m ρ c main_v13 (ix2 (0 : Fin 1) f) = m ((c : Thread nD τ).loc main_arg9) (ix1 f) := by
  show StableHlo.after hostOps0 (W0 m ρ c) (Proc.devRef .tc main_v13) (ix2 (0 : Fin 1) f) = _
  after_results
  refine (shapeCast_addUnit_apply ![256] (W0 m ρ c (Proc.devRef .tc main_arg9)) shapeCasts_S256_S1x256
    (ix2 (0 : Fin 1) f)).trans ?_
  exact congrArg (m ((c : Thread nD τ).loc main_arg9)) (funext fun a => match a with | ⟨0, _⟩ => rfl)

/-- The graph ids are as launched when the first stretch ends. -/
theorem W1_arg3 : W1 m ρ c (Proc.devRef .tc main_arg3) = m ((c : Thread nD τ).loc main_arg3) := by
  show StableHlo.after hostOps0 (W0 m ρ c) (Proc.devRef .tc main_arg3) = _
  after_results

end Cert.Attn.HostPre

end
-- ==== Proof.LibRowOps.lean ====
/-
  Row-wise reductions and the "keepdims" layouts around them, read at an index.

  A reduction of an `a × b` matrix along its second axis gives one value per row, and a kernel then puts that value back
  beside every entry of the row: the `[a]` vector of row values is cast to a column `[a, 1]` and the column is broadcast
  to `[a, b]`. Read at `(p, c)` the result is the row value of row `p`. This file states each step at an index built by
  `ValueIdx.ix1` / `ix2`, for any extents:
  * the cast `[a] → [a, 1]` and the broadcast `[a, 1] → [a, b]`;
  * the source index a one-axis reduction inserts on the dropped axis, `(p, k)`;
  * on the extended reals, a row's maximum as the fold of `max` over the row and a row's sum as the sum over the row —
    for a vector unit's `multi_reduction` and for a host `reduce` alike, so that the two meet in one expression.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along its second axis: the source index over row `p` with `k` inserted is `(p, k)`. -/
theorem lift_ix1 {a b : ℕ} (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- A vector unit's maximum along the rows' axis, at row `p`, on the extended reals: the fold of `max` over the row,
    from the accumulator's value. -/
theorem multiReduction_max_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ v acc h hφ hacc (ix1 p)
      = (Finset.univ : Finset (Fin b)).fold max (Ideal.ofBits .f32 acc) (fun k => v (ix2 p k)) := by
  refine (Ideal.multiReduction_maximumf_single v acc h hφ hacc (ix1 p)).trans ?_
  have e : (v ∘ h.lift (ix1 p)) = fun k : Fin b => v (ix2 p k) := funext fun k => congrArg v (lift_ix1 h p k)
  exact congrArg (fun f : Fin b → EReal => (Finset.univ : Finset (Fin b)).fold max (Ideal.ofBits .f32 acc) f) e

/-- A vector unit's sum along the rows' axis, at row `p`, on the extended reals: the sum over the row. -/
theorem multiReduction_add_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ v acc h hφ hacc (ix1 p) = ∑ k : Fin b, v (ix2 p k) :=
  (Ideal.multiReduction_add_single v acc h hφ hacc (ix1 p)).trans
    (Finset.sum_congr rfl fun k _ => congrArg v (lift_ix1 h p k))

/-- A host `reduce` by `max` along the rows' axis, at row `p`, on the extended reals: the fold of `max` over the row,
    from the initial value. -/
theorem hostReduce_max_row {a b : ℕ} {u : Shape} (x : (⟨2, ![a, b]⟩ : Shape).Idx → EReal) (init : u.Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  refine (Host.reduce_eq_fold_single (FloatOps.maximumf (F := Ideal) (φ := .f32)) x init h' h hu (ix1 p)).trans ?_
  have e : (x ∘ h.lift (ix1 p)) = fun k : Fin b => x (ix2 p k) := funext fun k => congrArg x (lift_ix1 h p k)
  exact congrArg (fun f : Fin b → EReal => (Finset.univ : Finset (Fin b)).fold max (init (Shape.Idx.first hu)) f) e

/-- A host sum along the rows' axis, at row `p`, on the extended reals: the initial value plus the sum over the row. -/
theorem hostReduceAdd_row {a b : ℕ} (x : (⟨2, ![a, b]⟩ : Shape).Idx → EReal) (init : EReal)
    (h' : (⟨2, ![a, b]⟩ : Shape).ReducesTo [(1 : Fin 2)] ⟨1, ![a]⟩)
    (h : (⟨2, ![a, b]⟩ : Shape).Reduces [(1 : Fin 2)] ⟨1, ![a]⟩) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_ix1 h p k)))

end Cert.RowOps

end
-- ==== Proof.Score.lean ====
/-
  The scoring call's body at an index.

  On a block of 2048 nodes the body forms the keys `kin · wk + bk` and the values `vin · wv + bv`, meets each node's
  query with its key, scales the sum by the inverse of the scale and exponentiates: that is the node's weight, the
  first output's only column.  The second output is the weight times the node's value, column by column.
-/
import proofs.«181518_j33663953666886_2_alg».proof.Proof.Gen.KernelIdeal.Frame
import proofs.«181518_j33663953666886_2_alg».proof.Proof.Spec
import proofs.«181518_j33663953666886_2_alg».proof.Proof.LibPlainMatmul
import proofs.«181518_j33663953666886_2_alg».proof.Proof.LibRowOps
import Idealize.ShloMosaic.Lib.Pipeline.Value
import Idealize.ShloMosaic.PureOps.IdealRules

noncomputable section

namespace Cert.Attn.Score

open Cert.KernelIdeal Cert.KernelIdeal.Gen Cert.Attn Idealize.ShloMosaic Idealize.ShloMosaic.ValueIdx
open Cert.PointConv Cert.RowOps

/-- The named scale constant is the inverse of the scale. -/
theorem named_invScale : Named.named (F := Ideal) κ "inv_scale" (φ := .f32) 0x3E3504F3#32 = invScale :=
  IdealRules.named_const.ideal_named_scalar _ _ _ _ rfl

/-- A `[1, 256]` row broadcast down 2048 rows reads, at `(p, f)`, the row's entry `f`. -/
theorem bcastRow_apply (v : Vec Ideal S1x256 .f32) (p : Fin 2048) (f : Fin 256) :
    broadcastTo S2048x256 (shapeCast S1x256 v shapeCasts_S1x256_S1x256) broadcasts_S1x256_S2048x256 (ix2 p f)
      = v (ix2 (0 : Fin 1) f) := by
  rw [shapeCast_self]
  refine broadcastTo_apply v broadcasts_S1x256_S2048x256 (ix2 p f) (ix2 (0 : Fin 1) f) ?_
  intro a
  match a with
  | ⟨0, _⟩ => rfl
  | ⟨1, _⟩ => rfl

/-- A block's product with a weight matrix plus a bias row, at `(p, f)`. -/
theorem proj_apply (x : Vec Ideal S2048x256 .f32) (w : Vec Ideal S256x256 .f32) (b : Vec Ideal S1x256 .f32)
    (p : Fin 2048) (f : Fin 256) :
    addf (matmul dot_S2048x256_S256x256_S2048x256_1_0_0_1_n_n none (truncf .bf16 x bitsLt_bf16_f32)
        (truncf .bf16 w bitsLt_bf16_f32) (constant (F := Ideal) S2048x256 .f32 0x00000000#32))
      (broadcastTo S2048x256 (shapeCast S1x256 b shapeCasts_S1x256_S1x256) broadcasts_S1x256_S2048x256) (ix2 p f)
      = (∑ c : Fin 256, x (ix2 p c) * w (ix2 c f)) + b (ix2 (0 : Fin 1) f) := by
  rw [addf_apply, bcastRow_apply]
  refine congrArg (· + b (ix2 (0 : Fin 1) f)) ?_
  exact plainMatmul_zero_apply (R := 2048) (n := 256) (k := 256) dot_S2048x256_S256x256_S2048x256_1_0_0_1_n_n_wf none
    (truncf .bf16 x bitsLt_bf16_f32) (truncf .bf16 w bitsLt_bf16_f32) p f

/-- The first payload at `(p, u)`: the node's weight. -/
theorem pay1_apply (v0 : Vec Ideal S2048x256 .bf16) (v3 : Vec Ideal S2048x256 .f32) (v7 : Vec Ideal S256x256 .f32)
    (v12 : Vec Ideal S1x256 .f32) (p : Fin 2048) (u : Fin 1) :
    k0_pay1 (F := Ideal) v0 v3 v7 v12 (ix2 p u)
      = Ideal.exp ((∑ f : Fin 256, v0 (ix2 p f) * ((∑ c : Fin 256, v3 (ix2 p c) * v7 (ix2 c f)) + v12 (ix2 (0 : Fin 1) f)))
          * invScale) := by
  unfold k0_pay1
  show Ideal.exp (_ * _) = _
  refine congrArg Ideal.exp ?_
  rw [broadcast_apply, named_invScale]
  refine congrArg (· * invScale) ?_
  refine (shapeCast_a_a1_apply _ shapeCasts_S2048_S2048x1 p u).trans ?_
  refine (multiReduction_add_row _ _ reduces_S2048x256_S2048 (.inl rfl) rfl p).trans ?_
  refine Finset.sum_congr rfl fun f _ => ?_
  rw [mulf_apply, proj_apply, shapeCast_self]
  rfl

/-- The second payload at `(p, f)`: the node's weight times its value's entry `f`. -/
theorem pay2_apply (v0 : Vec Ideal S2048x256 .bf16) (v3 v5 : Vec Ideal S2048x256 .f32) (v7 v9 : Vec Ideal S256x256 .f32)
    (v12 v17 : Vec Ideal S1x256 .f32) (p : Fin 2048) (f : Fin 256) :
    k0_pay2 (F := Ideal) v0 v3 v5 v7 v9 v12 v17 (ix2 p f)
      = k0_pay1 (F := Ideal) v0 v3 v7 v12 (ix2 p (0 : Fin 1))
          * ((∑ c : Fin 256, v5 (ix2 p c) * v9 (ix2 c f)) + v17 (ix2 (0 : Fin 1) f)) := by
  unfold k0_pay2
  show (_ : EReal) * (_ : EReal) = _
  rw [proj_apply]
  refine congrArg (· * _) ?_
  exact broadcastTo_a1_ab_apply _ broadcasts_S2048x1_S2048x256 p f

end Cert.Attn.Score

end
-- ==== Proof.ScoreArray.lean ====
/-
  The scoring call's two output arrays as whole-array functions.

  Grid point `t` reads rows `2048 t … 2048 t + 2047` of the query, key and value arrays and the whole of the two weight
  matrices and bias rows, and writes the same rows of the two outputs.  The hundred blocks tile the 204800 rows, so after
  the call row `e` of the first output is node `e`'s weight and row `e` of the second is the weight times the node's value.
-/
import proofs.«181518_j33663953666886_2_alg».proof.Proof.Gen.KernelIdeal.Frame
import proofs.«181518_j33663953666886_2_alg».proof.Proof.Score

set_option maxRecDepth 16384

noncomputable section

namespace Cert.Attn.ScoreArray

open Cert.KernelIdeal Cert.KernelIdeal.Gen Cert.Attn Cert.Attn.Score
open Idealize.ShloMosaic Idealize.ShloMosaic.ValueIdx Idealize.ShloMosaic.TcCoe Idealize.SL.Sem
open Idealize.ShloMosaic.Pipeline (Dat)

/-- The row and the column of a matrix index. -/
abbrev rowOf {a b : Nat} (i : (⟨2, ![a, b]⟩ : Shape).Idx) : Fin a := ⟨(i 0).val, (i 0).isLt⟩
abbrev colOf {a b : Nat} (i : (⟨2, ![a, b]⟩ : Shape).Idx) : Fin b := ⟨(i 1).val, (i 1).isLt⟩

theorem hz : (![0, 0] : Fin 2 → Nat) = fun _ => 0 := funext fun a => by fin_cases a <;> rfl

/-- Node `e`'s weight from the arrays the call reads. -/
def weightOf (q : Vec Ideal S204800x256 .bf16) (kin : Vec Ideal S204800x256 .f32) (wk : Vec Ideal S256x256 .f32)
    (bk : Vec Ideal S1x256 .f32) (e : Fin 204800) : EReal :=
  Ideal.exp ((∑ f : Fin 256, q (ix2 e f) * ((∑ c : Fin 256, kin (ix2 e c) * wk (ix2 c f)) + bk (ix2 (0 : Fin 1) f)))
    * invScale)

/-- Node `e`'s value, entry `f`. -/
def valueOf (vin : Vec Ideal S204800x256 .f32) (wv : Vec Ideal S256x256 .f32) (bv : Vec Ideal S1x256 .f32)
    (e : Fin 204800) (f : Fin 256) : EReal :=
  (∑ c : Fin 256, vin (ix2 e c) * wv (ix2 c f)) + bv (ix2 (0 : Fin 1) f)

/-- The first output: the weights, one column. -/
def weights (q : Vec Ideal S204800x256 .bf16) (kin : Vec Ideal S204800x256 .f32) (wk : Vec Ideal S256x256 .f32)
    (bk : Vec Ideal S1x256 .f32) : Vec Ideal S204800x1 .f32 := fun i => weightOf q kin wk bk (rowOf i)

/-- The second output: weight times value. -/
def weighted (q : Vec Ideal S204800x256 .bf16) (kin vin : Vec Ideal S204800x256 .f32) (wk : Vec Ideal S256x256 .f32)
    (bk : Vec Ideal S1x256 .f32) (wv : Vec Ideal S256x256 .f32) (bv : Vec Ideal S1x256 .f32) :
    Vec Ideal S204800x256 .bf16 :=
  fun i => weightOf q kin wk bk (rowOf i) * valueOf vin wv bv (rowOf i) (colOf i)

/-- One point's weight, from blocks that are the arrays' rows. -/
theorem point_weight (q : Vec Ideal S204800x256 .bf16) (kin : Vec Ideal S204800x256 .f32) (wk : Vec Ideal S256x256 .f32)
    (bk : Vec Ideal S1x256 .f32) (x0 : Vec Ideal S2048x256 .bf16) (x1 : Vec Ideal S2048x256 .f32)
    (x3 : Vec Ideal S256x256 .f32) (x4 : Vec Ideal S1x256 .f32) (p : Fin 2048) (u : Fin 1) (e : Fin 204800)
    (h0 : ∀ f : Fin 256, x0 (ix2 p f) = q (ix2 e f)) (h1 : ∀ c : Fin 256, x1 (ix2 p c) = kin (ix2 e c))
    (h3 : x3 = wk) (h4 : x4 = bk) :
    k0_pay1 (F := Ideal) x0 x1 x3 x4 (ix2 p u) = weightOf q kin wk bk e := by
  subst h3 h4
  rw [pay1_apply]
  unfold weightOf
  simp only [h0, h1]

/-- One point's weighted value. -/
theorem point_weighted (q : Vec Ideal S204800x256 .bf16) (kin vin : Vec Ideal S204800x256 .f32)
    (wk : Vec Ideal S256x256 .f32) (bk : Vec Ideal S1x256 .f32) (wv : Vec Ideal S256x256 .f32) (bv : Vec Ideal S1x256 .f32)
    (x0 : Vec Ideal S2048x256 .bf16) (x1 x2 : Vec Ideal S2048x256 .f32) (x3 : Vec Ideal S256x256 .f32)
    (x4 : Vec Ideal S1x256 .f32) (x5 : Vec Ideal S256x256 .f32) (x6 : Vec Ideal S1x256 .f32)
    (p : Fin 2048) (f : Fin 256) (e : Fin 204800)
    (h0 : ∀ f : Fin 256, x0 (ix2 p f) = q (ix2 e f)) (h1 : ∀ c : Fin 256, x1 (ix2 p c) = kin (ix2 e c))
    (h2 : ∀ c : Fin 256, x2 (ix2 p c) = vin (ix2 e c))
    (h3 : x3 = wk) (h4 : x4 = bk) (h5 : x5 = wv) (h6 : x6 = bv) :
    k0_pay2 (F := Ideal) x0 x1 x2 x3 x5 x4 x6 (ix2 p f) = weightOf q kin wk bk e * valueOf vin wv bv e f := by
  rw [pay2_apply, point_weight q kin wk bk x0 x1 x3 x4 p 0 e h0 h1 h3 h4]
  subst h5 h6
  unfold valueOf
  simp only [h2]

/-- The printed index maps over the grid: the row-blocked windows sit at block `t`, the others at block `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

section Arrays

variable (V : (c : Dev nD) → (b : Ref sig .tc) → Buf (Elt Ideal) ((c : Thread nD τ).loc b))

/-- The array row that row `p` of point `t`'s block is. -/
def rowAt (t : Fin cfg0.N) (p : Fin 2048) : Fin 204800 :=
  ⟨t.val * 2048 + p.val, by have h1 : t.val < grid0.N := t.isLt; have h2 := N_0; have := p.isLt; omega⟩

/-- The three row-blocked inputs' blocks are the arrays' rows. -/
theorem blk0 (c : Dev nD) (t : Fin cfg0.N) (p : Fin 2048) (f : Fin 256) :
    iblk0 V c 0 t (ix2 p f) = V c main_v11 (ix2 (rowAt t p) f) := by
  obtain ⟨e00, e01, -⟩ := idx_facts t
  show V c main_v11 (((cfg0.win 0).blk t).view.emb (ix2 p f)) = _
  refine congrArg (V c main_v11) (funext fun a => Fin.ext ?_)
  match a with
  | ⟨0, _⟩ => show win0_0.index t (0 : Fin 2) * 2048 + 1 * p.val = t.val * 2048 + p.val; omega
  | ⟨1, _⟩ => show win0_0.index t (1 : Fin 2) * 256 + 1 * f.val = f.val; omega

theorem blk1 (c : Dev nD) (t : Fin cfg0.N) (p : Fin 2048) (f : Fin 256) :
    iblk0 V c 1 t (ix2 p f) = V c main_arg1 (ix2 (rowAt t p) f) := by
  obtain ⟨-, -, e10, e11, -⟩ := idx_facts t
  show V c main_arg1 (((cfg0.win 1).blk t).view.emb (ix2 p f)) = _
  refine congrArg (V c main_arg1) (funext fun a => Fin.ext ?_)
  match a with
  | ⟨0, _⟩ => show win0_1.index t (0 : Fin 2) * 2048 + 1 * p.val = t.val * 2048 + p.val; omega
  | ⟨1, _⟩ => show win0_1.index t (1 : Fin 2) * 256 + 1 * f.val = f.val; omega

theorem blk2 (c : Dev nD) (t : Fin cfg0.N) (p : Fin 2048) (f : Fin 256) :
    iblk0 V c 2 t (ix2 p f) = V c main_arg2 (ix2 (rowAt t p) f) := by
  obtain ⟨-, -, -, -, e20, e21, -⟩ := idx_facts t
  show V c main_arg2 (((cfg0.win 2).blk t).view.emb (ix2 p f)) = _
  refine congrArg (V c main_arg2) (funext fun a => Fin.ext ?_)
  match a with
  | ⟨0, _⟩ => show win0_2.index t (0 : Fin 2) * 2048 + 1 * p.val = t.val * 2048 + p.val; omega
  | ⟨1, _⟩ => show win0_2.index t (1 : Fin 2) * 256 + 1 * f.val = f.val; omega

/-- The weight matrices and bias rows are fetched whole. -/
theorem blk3 (c : Dev nD) (t : Fin cfg0.N) : iblk0 V c 3 t = V c main_arg6 := by
  obtain ⟨-, -, -, -, -, -, e30, e31, -⟩ := idx_facts t
  funext y
  show V c main_arg6 (((cfg0.win 3).blk t).view.emb y) = V c main_arg6 y
  refine congrArg (V c main_arg6) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem blk4 (c : Dev nD) (t : Fin cfg0.N) : iblk0 V c 4 t = V c main_v12 := by
  obtain ⟨-, -, -, -, -, -, -, -, e40, e41, -⟩ := idx_facts t
  funext y
  show V c main_v12 (((cfg0.win 4).blk t).view.emb y) = V c main_v12 y
  refine congrArg (V c main_v12) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem blk5 (c : Dev nD) (t : Fin cfg0.N) : iblk0 V c 5 t = V c main_arg8 := by
  obtain ⟨-, -, -, -, -, -, -, -, -, -, e50, e51, -⟩ := idx_facts t
  funext y
  show V c main_arg8 (((cfg0.win 5).blk t).view.emb y) = V c main_arg8 y
  refine congrArg (V c main_arg8) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem blk6 (c : Dev nD) (t : Fin cfg0.N) : iblk0 V c 6 t = V c main_v13 := by
  obtain ⟨-, -, -, -, -, -, -, -, -, -, -, -, e60, e61, -⟩ := idx_facts t
  funext y
  show V c main_v13 (((cfg0.win 6).blk t).view.emb y) = V c main_v13 y
  refine congrArg (V c main_v13) (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- What point `t` writes back to the first output is block `t` of the weights. -/
theorem flushed7_eq (c : Dev nD) (t : Fin cfg0.N) :
    (dat0 V c).flushed 7 t = ((cfg0.win 7).blk t).view.read (Elt Ideal)
      (weights (V c main_v11) (V c main_arg1) (V c main_arg6) (V c main_v12)) := by
  show (cfg0.win 7).cut (grid0.coords t) ((dat0 V c).after 7 t) = _
  rw [after0_7]
  unfold out0_7
  rw [View.canon_unit_zero hz]
  simp only [View.ld_unit_zero (S := S2048x256) hz, View.ld_unit_zero (S := S256x256) hz, View.ld_unit_zero (S := S1x256) hz]
  obtain ⟨-, -, -, -, -, -, -, -, -, -, -, -, -, -, e70, e71, -⟩ := idx_facts t
  funext j
  have hj0 : (j 0).val < 2048 := (j 0).isLt
  have hj1 : (j 1).val < 1 := (j 1).isLt
  show k0_pay1 (F := Ideal) (iblk0 V c 0 t) (iblk0 V c 1 t) (iblk0 V c 3 t) (iblk0 V c 4 t) (ix2 (⟨(j 0).val, hj0⟩ : Fin 2048) (⟨(j 1).val, hj1⟩ : Fin 1))
    = weightOf (V c main_v11) (V c main_arg1) (V c main_arg6) (V c main_v12) (rowOf (((cfg0.win 7).blk t).view.emb j))
  have hrow : rowOf (((cfg0.win 7).blk t).view.emb j) = rowAt t ⟨(j 0).val, hj0⟩ := by
    apply Fin.ext
    show win0_7.index t (0 : Fin 2) * 2048 + 1 * (j 0).val = t.val * 2048 + (j 0).val
    omega
  rw [hrow]
  exact point_weight (V c main_v11) (V c main_arg1) (V c main_arg6) (V c main_v12) (iblk0 V c 0 t) (iblk0 V c 1 t)
    (iblk0 V c 3 t) (iblk0 V c 4 t) ⟨(j 0).val, hj0⟩ ⟨(j 1).val, hj1⟩ (rowAt t ⟨(j 0).val, hj0⟩)
    (fun f => blk0 V c t ⟨(j 0).val, hj0⟩ f) (fun f => blk1 V c t ⟨(j 0).val, hj0⟩ f) (blk3 V c t) (blk4 V c t)

/-- An index of the first output lies in point `t`'s block iff each coordinate is in the block's range. -/
theorem mem_blk7 (t : Fin cfg0.N) (i : S204800x1.Idx) :
    i ∈ ((cfg0.win 7).blk t).view.set ↔ ∀ a : Fin 2, win0_7.index t a * S2048x1.size a ≤ (i a).val ∧ (i a).val < win0_7.index t a * S2048x1.size a + S2048x1.size a := by
  show i ∈ ((View.whole main_v14_0).slice (win0_7.rect t)).set ↔ _
  rw [View.set_slice_whole, Rect.mem_set_unit]
  exact Iff.rfl

theorem mem_blk8 (t : Fin cfg0.N) (i : S204800x256.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v14_1).slice (win0_8.rect t)).set ↔ _
  rw [View.set_slice_whole, Rect.mem_set_unit]
  exact Iff.rfl

/-- The point whose block holds row `r`. -/
def pointOf (r : Nat) (h : r < 204800) : Fin cfg0.N := ⟨r / 2048, by show r / 2048 < grid0.N; rw [N_0]; omega⟩

/-- Every index of the first output is in some point's block. -/
theorem cover7 (i : S204800x1.Idx) : ∃ t : Fin cfg0.N, (cfg0.win 7).flush t = true ∧ i ∈ ((cfg0.win 7).blk t).view.set := by
  have hi0 : (i 0).val < 204800 := (i 0).isLt
  have hi1 : (i 1).val < 1 := (i 1).isLt
  refine ⟨pointOf (i 0).val hi0, flush0_7 _, ?_⟩
  rw [mem_blk7]
  obtain ⟨-, -, -, -, -, -, -, -, -, -, -, -, -, -, e70, e71, -⟩ := idx_facts (pointOf (i 0).val hi0)
  have hp : (pointOf (i 0).val hi0).val = (i 0).val / 2048 := rfl
  intro a
  match a with
  | ⟨0, _⟩ => show win0_7.index _ (0 : Fin 2) * 2048 ≤ (i 0).val ∧ (i 0).val < win0_7.index _ (0 : Fin 2) * 2048 + 2048; omega
  | ⟨1, _⟩ => show win0_7.index _ (1 : Fin 2) * 1 ≤ (i 1).val ∧ (i 1).val < win0_7.index _ (1 : Fin 2) * 1 + 1; omega

theorem cover8 (i : S204800x256.Idx) : ∃ t : Fin cfg0.N, (cfg0.win 8).flush t = true ∧ i ∈ ((cfg0.win 8).blk t).view.set := by
  have hi0 : (i 0).val < 204800 := (i 0).isLt
  have hi1 : (i 1).val < 256 := (i 1).isLt
  refine ⟨pointOf (i 0).val hi0, flush0_8 _, ?_⟩
  rw [mem_blk8]
  obtain ⟨-, -, -, -, -, -, -, -, -, -, -, -, -, -, -, -, e80, e81⟩ := idx_facts (pointOf (i 0).val hi0)
  have hp : (pointOf (i 0).val hi0).val = (i 0).val / 2048 := rfl
  intro a
  match a with
  | ⟨0, _⟩ => show win0_8.index _ (0 : Fin 2) * 2048 ≤ (i 0).val ∧ (i 0).val < win0_8.index _ (0 : Fin 2) * 2048 + 2048; omega
  | ⟨1, _⟩ => show win0_8.index _ (1 : Fin 2) * 256 ≤ (i 1).val ∧ (i 1).val < win0_8.index _ (1 : Fin 2) * 256 + 256; omega

/-- After the call the first output holds every node's weight. -/
theorem final7 (c : Dev nD) : (dat0 V c).arrAt 7 cfg0.N
    = weights (V c main_v11) (V c main_arg1) (V c main_arg6) (V c main_v12) :=
  (dat0 V c).arrAt_eq_of_cover 7 _ (fun t _ => flushed7_eq V c t) cover7

end Arrays

end Cert.Attn.ScoreArray

end
-- ==== Proof.ScoreArray8.lean ====
/-
  The scoring call's second output as a whole-array function: row `e` is node `e`'s weight times its value.
-/
import proofs.«181518_j33663953666886_2_alg».proof.Proof.ScoreArray

set_option maxRecDepth 16384

noncomputable section

namespace Cert.Attn.ScoreArray

open Cert.KernelIdeal Cert.KernelIdeal.Gen Cert.Attn Cert.Attn.Score
open Idealize.ShloMosaic Idealize.ShloMosaic.ValueIdx Idealize.ShloMosaic.TcCoe Idealize.SL.Sem
open Idealize.ShloMosaic.Pipeline (Dat)

section Arrays

variable (V : (c : Dev nD) → (b : Ref sig .tc) → Buf (Elt Ideal) ((c : Thread nD τ).loc b))

/-- What point `t` writes back to the second output is block `t` of the weighted values. -/
theorem flushed8_eq (c : Dev nD) (t : Fin cfg0.N) :
    (dat0 V c).flushed 8 t = ((cfg0.win 8).blk t).view.read (Elt Ideal)
      (weighted (V c main_v11) (V c main_arg1) (V c main_arg2) (V c main_arg6) (V c main_v12) (V c main_arg8) (V c main_v13)) := by
  show (cfg0.win 8).cut (grid0.coords t) ((dat0 V c).after 8 t) = _
  rw [after0_8]
  unfold out0_8
  rw [View.canon_unit_zero hz]
  simp only [View.ld_unit_zero (S := S2048x256) hz, View.ld_unit_zero (S := S256x256) hz, View.ld_unit_zero (S := S1x256) hz]
  obtain ⟨-, -, -, -, -, -, -, -, -, -, -, -, -, -, -, -, e80, e81⟩ := idx_facts t
  funext j
  have hj0 : (j 0).val < 2048 := (j 0).isLt
  have hj1 : (j 1).val < 256 := (j 1).isLt
  show k0_pay2 (F := Ideal) (iblk0 V c 0 t) (iblk0 V c 1 t) (iblk0 V c 2 t) (iblk0 V c 3 t) (iblk0 V c 5 t) (iblk0 V c 4 t) (iblk0 V c 6 t) j
    = weighted (V c main_v11) (V c main_arg1) (V c main_arg2) (V c main_arg6) (V c main_v12) (V c main_arg8) (V c main_v13)
        (((cfg0.win 8).blk t).view.emb j)
  have hj : (j : S2048x256.Idx) = ix2 (⟨(j 0).val, hj0⟩ : Fin 2048) (⟨(j 1).val, hj1⟩ : Fin 256) :=
    funext fun a => match a with | ⟨0, _⟩ => rfl | ⟨1, _⟩ => rfl
  refine (congrArg (k0_pay2 (F := Ideal) (iblk0 V c 0 t) (iblk0 V c 1 t) (iblk0 V c 2 t) (iblk0 V c 3 t) (iblk0 V c 5 t)
    (iblk0 V c 4 t) (iblk0 V c 6 t)) hj).trans ?_
  unfold weighted
  have hrow : rowOf (((cfg0.win 8).blk t).view.emb j) = rowAt t ⟨(j 0).val, hj0⟩ := by
    apply Fin.ext
    show win0_8.index t (0 : Fin 2) * 2048 + 1 * (j 0).val = t.val * 2048 + (j 0).val
    omega
  have hcol : colOf (((cfg0.win 8).blk t).view.emb j) = (⟨(j 1).val, hj1⟩ : Fin 256) := by
    apply Fin.ext
    show win0_8.index t (1 : Fin 2) * 256 + 1 * (j 1).val = (j 1).val
    omega
  rw [hrow, hcol]
  exact point_weighted (V c main_v11) (V c main_arg1) (V c main_arg2) (V c main_arg6) (V c main_v12) (V c main_arg8)
    (V c main_v13) (iblk0 V c 0 t) (iblk0 V c 1 t) (iblk0 V c 2 t) (iblk0 V c 3 t) (iblk0 V c 4 t) (iblk0 V c 5 t)
    (iblk0 V c 6 t) ⟨(j 0).val, hj0⟩ ⟨(j 1).val, hj1⟩ (rowAt t ⟨(j 0).val, hj0⟩)
    (fun f => blk0 V c t ⟨(j 0).val, hj0⟩ f) (fun f => blk1 V c t ⟨(j 0).val, hj0⟩ f)
    (fun f => blk2 V c t ⟨(j 0).val, hj0⟩ f) (blk3 V c t) (blk4 V c t) (blk5 V c t) (blk6 V c t)

/-- After the call the second output holds every node's weight times its value. -/
theorem final8 (c : Dev nD) : (dat0 V c).arrAt 8 cfg0.N
    = weighted (V c main_v11) (V c main_arg1) (V c main_arg2) (V c main_arg6) (V c main_v12) (V c main_arg8) (V c main_v13) :=
  (dat0 V c).arrAt_eq_of_cover 8 _ (fun t _ => flushed8_eq V c t) cover8

end Arrays

end Cert.Attn.ScoreArray

end
-- ==== Proof.LibVecScatterSum.lean ====
/-
  A scatter-add of a vector read at an entry, over the extended reals.

  A scatter of updates `u : [E]` into `[N]` at a column of integers `idx : [E, 1]` sends update `e` to entry `idx e`
  when `0 ≤ idx e < N` and drops it otherwise: nothing is clamped.  So the updates that land on `n` are exactly those
  whose index, read signed, is `n`: the same set of rows as for a scatter of rows at the same column.  With the host's
  accumulating scatter the result at `n` is the operand there plus the sum of `u e` over those rows.
-/
import proofs.«181518_j33663953666886_2_alg».proof.Proof.LibRowScatterSum
import Idealize.ShloMosaic.PureOps.Ideal

noncomputable section

namespace Cert.RowIndexing

open Idealize.ShloMosaic Idealize.ShloMosaic.ValueIdx

/-- The dimension numbers of a scatter of a vector `[E]` into `[N]` at a column of indices `[E, 1]`. -/
abbrev vecScatterDims (N E : Nat)
    (wf : ScatterDims.WF (⟨1, ![N]⟩ : Shape) ⟨2, ![E, 1]⟩ ⟨1, ![E]⟩ [] [0] [0] 1) :
    ScatterDims (⟨1, ![N]⟩ : Shape) ⟨2, ![E, 1]⟩ ⟨1, ![E]⟩ where
  updateWindowDims := []
  insertedWindowDims := [0]
  scatterDimsToOperandDims := [0]
  indexVectorDim := 1
  wf := wf

/-- Update `e` lands on `n` exactly when row `e` of the index column names `n`. -/
theorem vecScatter_lands_iff {N E w : Nat} (wf) (idx : IVec (⟨2, ![E, 1]⟩ : Shape) w)
    (e : Fin E) (n : Fin N) :
    (vecScatterDims N E wf).resultIdx? (ix1 e) idx = some (ix1 n)
      ↔ (idx (ix2 e (0 : Fin 1))).toInt = ((n.val : Nat) : Int) := by
  have hw0 : (vecScatterDims N E wf).window (ix1 e) 0 = 0 := by
    unfold ScatterDims.window
    rw [dif_neg (fun hk => by
      have hk' : (0 : Fin 1) ∈ (List.finRange 1).filter (fun a : Fin 1 => a ∉ [(0 : Fin 1)]) := hk
      revert hk'; decide)]
  have hs0 : (vecScatterDims N E wf).start (ix1 e) idx 0 = (idx (ix2 e (0 : Fin 1))).toInt := by
    unfold ScatterDims.start
    rw [dif_pos (show (0 : Fin 1) ∈ (vecScatterDims N E wf).scatterDimsToOperandDims from List.mem_singleton.mpr rfl)]
    congr 2
    funext b; refine Fin.ext ?_
    match b with
    | ⟨0, _⟩ => rfl
    | ⟨1, _⟩ => rfl
  unfold ScatterDims.resultIdx?
  constructor
  · intro h
    split at h
    · rename_i hall
      have hi := Option.some.inj h
      have h0 := congrArg (fun k : (⟨1, ![N]⟩ : Shape).Idx => (k 0).val) hi
      simp only at h0
      have r0 := hall 0
      rw [hs0, hw0] at r0 h0
      have : ((ix1 n : (⟨1, ![N]⟩ : Shape).Idx) 0).val = n.val := rfl
      omega
    · exact absurd h (by simp)
  · intro hn
    have hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      obtain rfl : a = 0 := Subsingleton.elim _ _
      show 0 ≤ (vecScatterDims N E wf).start (ix1 e) idx 0 + (vecScatterDims N E wf).window (ix1 e) 0
        ∧ (vecScatterDims N E wf).start (ix1 e) idx 0 + (vecScatterDims N E wf).window (ix1 e) 0 < (N : Int)
      rw [hs0, hw0, hn]; have := n.isLt; omega
    rw [dif_pos hall]
    refine congrArg some ?_
    funext a; refine Fin.ext ?_
    obtain rfl : a = 0 := Subsingleton.elim _ _
    show ((vecScatterDims N E wf).start (ix1 e) idx 0 + (vecScatterDims N E wf).window (ix1 e) 0).toNat = n.val
    rw [hs0, hw0, hn]; omega

/-- The host's accumulating scatter of a vector at `n`: the operand there plus the sum of the updates of the rows
    naming `n`. -/
theorem vecScatterAdd_apply {N E w : Nat} (wf) (x : (⟨1, ![N]⟩ : Shape).Idx → EReal)
    (idx : IVec (⟨2, ![E, 1]⟩ : Shape) w) (u : (⟨1, ![E]⟩ : Shape).Idx → EReal) (n : Fin N) :
    Ideal.hostScatterAdd (vecScatterDims N E wf) x idx u (ix1 n)
      = x (ix1 n) + ∑ e ∈ rowsAt idx n, u (ix1 e) := by
  unfold Ideal.hostScatterAdd
  refine congrArg (x (ix1 n) + ·) ?_
  symm
  refine Finset.sum_bij (fun e _ => ix1 e) ?_ ?_ ?_ ?_
  · intro e he
    have he' := (Finset.mem_filter.mp he).2
    exact Finset.mem_filter.mpr ⟨Finset.mem_univ _, (vecScatter_lands_iff wf idx e n).mpr he'⟩
  · intro e _ e' _ h
    exact congrFun h 0
  · intro j hj
    have hj' := (Finset.mem_filter.mp hj).2
    have hje : j = ix1 (j 0) := by
      funext a
      obtain rfl : a = 0 := Subsingleton.elim _ _
      rfl
    rw [hje] at hj'
    have h0 := (vecScatter_lands_iff wf idx (j 0) n).mp hj'
    exact ⟨j 0, Finset.mem_filter.mpr ⟨Finset.mem_univ _, h0⟩, hje.symm⟩
  · intro e _
    rfl

end Cert.RowIndexing

end
-- ==== Proof.LibColumnAsVector.lean ====
/-
  A column recast as a vector, read at an index.

  An `[a, 1]` array cast to `[a]` reads, at `i`, the column's entry of row `i`: the two positions are the same in row-major
  order.
-/
import Idealize.ShloMosaic.Lib.Pipeline.Value
import Idealize.ShloMosaic.Lib.ValueIdx

noncomputable section

namespace Cert.ColumnAsVector

open Idealize.ShloMosaic Idealize.ShloMosaic.ValueIdx

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.ColumnAsVector

end
-- ==== Proof.HostMid.lean ====
/-
  What the feed-forward call finds in its arrays, and the attention result.

  After the scoring call the host sums every graph's weights (the total) and weighted values (the numerator) over the
  nodes whose id is the graph, divides every node's weight by the total of the graph it looks up — the attention
  result — and lays the totals out as a column and the gains, offsets and biases as rows.
-/
import proofs.«181518_j33663953666886_2_alg».proof.Proof.Gen.KernelIdeal.Frame
import proofs.«181518_j33663953666886_2_alg».proof.Proof.HostPre
import proofs.«181518_j33663953666886_2_alg».proof.Proof.ScoreArray8
import proofs.«181518_j33663953666886_2_alg».proof.Proof.LibVecScatterSum
import proofs.«181518_j33663953666886_2_alg».proof.Proof.LibRowOps
import proofs.«181518_j33663953666886_2_alg».proof.Proof.LibColumnAsVector

set_option maxRecDepth 16384

noncomputable section

namespace Cert.Attn.HostMid

open Cert.KernelIdeal Cert.KernelIdeal.Gen Cert.Attn Cert.RowIndexing Cert.PointConv Cert.RowOps Cert.ColumnAsVector
open Cert.Attn.HostPre Cert.Attn.ScoreArray
open Idealize.ShloMosaic Idealize.ShloMosaic.ValueIdx Idealize.ShloMosaic.TcCoe Idealize.ShloMosaic.StableHlo Idealize.SL.Sem

variable (m : (ℓ : Loc nD τ sig) → Buf (Elt Ideal) ℓ) (ρ : Dev nD → PrngReg) (c : Dev nD)

/-- A buffer that neither the first stretch nor the scoring call writes is as launched when the second stretch starts. -/
theorem W2_arg (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem W2_arg3 : W2 m ρ c (Proc.devRef .tc main_arg3) = m ((c : Thread nD τ).loc main_arg3) :=
  W2_arg m ρ c main_arg3 (by decide) (W1_arg3 m ρ c)

/-- The scoring call's outputs when the second stretch starts. -/
theorem W2_weights : W2 m ρ c (Proc.devRef .tc main_v14_0) = weights (V1 m ρ c main_v11) (V1 m ρ c main_arg1) (V1 m ρ c main_arg6) (V1 m ρ c main_v12) :=
  (W2_arr m ρ c 7).trans (final7 (V1 m ρ) c)

theorem W2_weighted : W2 m ρ c (Proc.devRef .tc main_v14_1)
    = weighted (V1 m ρ c main_v11) (V1 m ρ c main_arg1) (V1 m ρ c main_arg2) (V1 m ρ c main_arg6) (V1 m ρ c main_v12)
        (V1 m ρ c main_arg8) (V1 m ρ c main_v13) :=
  (W2_arr m ρ c 8).trans (final8 (V1 m ρ) c)

/-- The weight the scoring call computes for node `e` is the node's weight. -/
theorem weightOf_eq (e : Fin 204800) :
    weightOf (V1 m ρ c main_v11) (V1 m ρ c main_arg1) (V1 m ρ c main_arg6) (V1 m ρ c main_v12) e = ex (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) e := by
  unfold weightOf ex score
  refine congrArg (fun s => Ideal.exp (s * invScale)) (Finset.sum_congr rfl fun f _ => ?_)
  rw [query_apply, V1_arg1, V1_arg6, V1_v12]
  rfl

/-- The value it computes is the node's value. -/
theorem valueOf_eq (e : Fin 204800) (f : Fin 256) :
    valueOf (V1 m ρ c main_arg2) (V1 m ρ c main_arg8) (V1 m ρ c main_v13) e f = affine (m ((c : Thread nD τ).loc main_arg2)) (m ((c : Thread nD τ).loc main_arg8)) (m ((c : Thread nD τ).loc main_arg9)) e f := by
  unfold valueOf affine
  rw [V1_arg2, V1_arg8, V1_v13]

/-- The numerators the second call reads. -/
theorem numer_apply (n : Fin 4096) (f : Fin 256) :
    V3 m ρ c main_v22 (ix2 n f)
      = ∑ e ∈ seg (m ((c : Thread nD τ).loc main_arg3)) n, ex (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) e * affine (m ((c : Thread nD τ).loc main_arg2)) (m ((c : Thread nD τ).loc main_arg8)) (m ((c : Thread nD τ).loc main_arg9)) e f := by
  show StableHlo.after hostOps1 (W2 m ρ c) (Proc.devRef .tc main_v22) (ix2 n f) = _
  after_results
  rw [W2_arg3, raw_col, W2_weighted]
  refine (rowScatterAdd_apply (N := 4096) (E := 204800) (F := 256) scatter_S4096x256_S204800x1_S204800x256_1_0_0_1_wf _
    (rawCol (m ((c : Thread nD τ).loc main_arg3))) _ n f).trans ?_
  have h0 : broadcastInDim S4096x256 ![] bcast_S_S4096x256 (constant (F := Ideal) S_ .f32 0#32) (ix2 n f) = 0 :=
    Ideal.ofBits_zero_f32
  rw [h0, zero_add]
  refine Finset.sum_congr rfl fun e _ => ?_
  show weightOf (V1 m ρ c main_v11) (V1 m ρ c main_arg1) (V1 m ρ c main_arg6) (V1 m ρ c main_v12) e * valueOf (V1 m ρ c main_arg2) (V1 m ρ c main_arg8) (V1 m ρ c main_v13) e f = _
  rw [weightOf_eq, valueOf_eq]

/-- The totals as the host sums them. -/
theorem total_vec (n : Fin 4096) :
    Host.scatterAdd scatter_S4096_S204800x1_S204800_n_0_0_1
        (broadcastInDim S4096 ![] bcast_S_S4096 (constant (F := Ideal) S_ .f32 0#32))
        (rawCol (m ((c : Thread nD τ).loc main_arg3)))
        (shapeCast S204800 (weights (V1 m ρ c main_v11) (V1 m ρ c main_arg1) (V1 m ρ c main_arg6) (V1 m ρ c main_v12)) shapeCasts_S204800x1_S204800) (ix1 n)
      = den (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) n := by
  refine (vecScatterAdd_apply (N := 4096) (E := 204800) scatter_S4096_S204800x1_S204800_n_0_0_1_wf _
    (rawCol (m ((c : Thread nD τ).loc main_arg3))) _ n).trans ?_
  have h0 : broadcastInDim S4096 ![] bcast_S_S4096 (constant (F := Ideal) S_ .f32 0#32) (ix1 n) = 0 :=
    Ideal.ofBits_zero_f32
  rw [h0, zero_add]
  unfold den
  refine Finset.sum_congr rfl fun e _ => ?_
  refine (shapeCast_a1_a_apply _ shapeCasts_S204800x1_S204800 e).trans ?_
  exact weightOf_eq m ρ c e

/-- The totals the second call reads, one column. -/
theorem total_apply (n : Fin 4096) :
    V3 m ρ c main_v32 (ix2 n (0 : Fin 1)) = den (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) n := by
  show StableHlo.after hostOps1 (W2 m ρ c) (Proc.devRef .tc main_v32) (ix2 n (0 : Fin 1)) = _
  after_results
  rw [W2_arg3, raw_col, W2_weights]
  refine (shapeCast_a_a1_apply _ shapeCasts_S4096_S4096x1 n 0).trans ?_
  exact total_vec m ρ c n

theorem V3_arg0 : V3 m ρ c main_arg0 = m ((c : Thread nD τ).loc main_arg0) := by
  show StableHlo.after hostOps1 (W2 m ρ c) (Proc.devRef .tc main_arg0) = _
  after_results
  exact W2_arg m ρ c main_arg0 (by decide) (by after_results)

theorem V3_arg14 : V3 m ρ c main_arg14 = m ((c : Thread nD τ).loc main_arg14) := by
  show StableHlo.after hostOps1 (W2 m ρ c) (Proc.devRef .tc main_arg14) = _
  after_results
  exact W2_arg m ρ c main_arg14 (by decide) (by after_results)

theorem V3_arg16 : V3 m ρ c main_arg16 = m ((c : Thread nD τ).loc main_arg16) := by
  show StableHlo.after hostOps1 (W2 m ρ c) (Proc.devRef .tc main_arg16) = _
  after_results
  exact W2_arg m ρ c main_arg16 (by decide) (by after_results)

theorem V3_v33 (j : Fin 256) :
    V3 m ρ c main_v33 (ix2 (0 : Fin 1) j) = m ((c : Thread nD τ).loc main_arg10) (ix1 j) := by
  show StableHlo.after hostOps1 (W2 m ρ c) (Proc.devRef .tc main_v33) (ix2 (0 : Fin 1) j) = _
  after_results
  rw [W2_arg m ρ c main_arg10 (by decide) (by after_results)]
  refine (shapeCast_addUnit_apply ![256] (m ((c : Thread nD τ).loc main_arg10)) shapeCasts_S256_S1x256
    (ix2 (0 : Fin 1) j)).trans ?_
  exact congrArg (m ((c : Thread nD τ).loc main_arg10)) (funext fun a => match a with | ⟨0, _⟩ => rfl)

theorem V3_v34 (j : Fin 256) :
    V3 m ρ c main_v34 (ix2 (0 : Fin 1) j) = m ((c : Thread nD τ).loc main_arg11) (ix1 j) := by
  show StableHlo.after hostOps1 (W2 m ρ c) (Proc.devRef .tc main_v34) (ix2 (0 : Fin 1) j) = _
  after_results
  rw [W2_arg m ρ c main_arg11 (by decide) (by after_results)]
  refine (shapeCast_addUnit_apply ![256] (m ((c : Thread nD τ).loc main_arg11)) shapeCasts_S256_S1x256
    (ix2 (0 : Fin 1) j)).trans ?_
  exact congrArg (m ((c : Thread nD τ).loc main_arg11)) (funext fun a => match a with | ⟨0, _⟩ => rfl)

theorem V3_v35 (j : Fin 256) :
    V3 m ρ c main_v35 (ix2 (0 : Fin 1) j) = m ((c : Thread nD τ).loc main_arg12) (ix1 j) := by
  show StableHlo.after hostOps1 (W2 m ρ c) (Proc.devRef .tc main_v35) (ix2 (0 : Fin 1) j) = _
  after_results
  rw [W2_arg m ρ c main_arg12 (by decide) (by after_results)]
  refine (shapeCast_addUnit_apply ![256] (m ((c : Thread nD τ).loc main_arg12)) shapeCasts_S256_S1x256
    (ix2 (0 : Fin 1) j)).trans ?_
  exact congrArg (m ((c : Thread nD τ).loc main_arg12)) (funext fun a => match a with | ⟨0, _⟩ => rfl)

theorem V3_v36 (j : Fin 256) :
    V3 m ρ c main_v36 (ix2 (0 : Fin 1) j) = m ((c : Thread nD τ).loc main_arg13) (ix1 j) := by
  show StableHlo.after hostOps1 (W2 m ρ c) (Proc.devRef .tc main_v36) (ix2 (0 : Fin 1) j) = _
  after_results
  rw [W2_arg m ρ c main_arg13 (by decide) (by after_results)]
  refine (shapeCast_addUnit_apply ![256] (m ((c : Thread nD τ).loc main_arg13)) shapeCasts_S256_S1x256
    (ix2 (0 : Fin 1) j)).trans ?_
  exact congrArg (m ((c : Thread nD τ).loc main_arg13)) (funext fun a => match a with | ⟨0, _⟩ => rfl)

theorem V3_v37 (j : Fin 1024) :
    V3 m ρ c main_v37 (ix2 (0 : Fin 1) j) = m ((c : Thread nD τ).loc main_arg15) (ix1 j) := by
  show StableHlo.after hostOps1 (W2 m ρ c) (Proc.devRef .tc main_v37) (ix2 (0 : Fin 1) j) = _
  after_results
  rw [W2_arg m ρ c main_arg15 (by decide) (by after_results)]
  refine (shapeCast_addUnit_apply ![1024] (m ((c : Thread nD τ).loc main_arg15)) shapeCasts_S1024_S1x1024
    (ix2 (0 : Fin 1) j)).trans ?_
  exact congrArg (m ((c : Thread nD τ).loc main_arg15)) (funext fun a => match a with | ⟨0, _⟩ => rfl)

theorem V3_v38 (j : Fin 256) :
    V3 m ρ c main_v38 (ix2 (0 : Fin 1) j) = m ((c : Thread nD τ).loc main_arg17) (ix1 j) := by
  show StableHlo.after hostOps1 (W2 m ρ c) (Proc.devRef .tc main_v38) (ix2 (0 : Fin 1) j) = _
  after_results
  rw [W2_arg m ρ c main_arg17 (by decide) (by after_results)]
  refine (shapeCast_addUnit_apply ![256] (m ((c : Thread nD τ).loc main_arg17)) shapeCasts_S256_S1x256
    (ix2 (0 : Fin 1) j)).trans ?_
  exact congrArg (m ((c : Thread nD τ).loc main_arg17)) (funext fun a => match a with | ⟨0, _⟩ => rfl)

end Cert.Attn.HostMid

end
-- ==== Proof.HostAtt.lean ====
/-
  The attention column the host forms between the two calls: every node's weight over the total of the graph it looks up.
-/
import proofs.«181518_j33663953666886_2_alg».proof.Proof.HostMid

set_option maxRecDepth 16384

noncomputable section

namespace Cert.Attn.HostMid

open Cert.KernelIdeal Cert.KernelIdeal.Gen Cert.Attn Cert.RowIndexing Cert.PointConv Cert.RowOps Cert.ColumnAsVector
open Cert.Attn.HostPre Cert.Attn.ScoreArray
open Idealize.ShloMosaic Idealize.ShloMosaic.ValueIdx Idealize.ShloMosaic.TcCoe Idealize.ShloMosaic.StableHlo Idealize.SL.Sem

variable (m : (ℓ : Loc nD τ sig) → Buf (Elt Ideal) ℓ) (ρ : Dev nD → PrngReg) (c : Dev nD)

/-- A host division read at an index. -/
theorem hostDivf_apply {s : Shape} (a b : FVec Ideal s .f32) (i : s.Idx) : Host.divf a b i = Ideal.div (a i) (b i) := rfl

set_option maxHeartbeats 1000000 in
/-- The attention column at node `e`. -/
theorem att_apply (e : Fin 204800) (u : Fin 1) :
    V3 m ρ c main_v31 (ix2 e u) = att (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) e := by
  show StableHlo.after hostOps1 (W2 m ρ c) (Proc.devRef .tc main_v31) (ix2 e u) = _
  after_results_simp
  rw [W2_arg3, raw_col, wrapped_col, W2_weights]
  refine (broadcastInDim_apply _ bcast_S204800_S204800x1_0 _ (ix2 e u) (ix1 e) ?_).trans ?_
  · intro a
    match a with
    | ⟨0, _⟩ => show e.val = if (204800 : Nat) = 1 then 0 else e.val; rw [if_neg (by decide)]
  rw [hostDivf_apply]
  unfold att
  refine congrArg₂ Ideal.div ?_ ?_
  · exact (shapeCast_a1_a_apply _ shapeCasts_S204800x1_S204800 e).trans (weightOf_eq m ρ c e)
  · refine (vecGather_apply (N := 4096) (E := 204800) (by decide) gather_S4096_S204800x1_S204800_n_0_n_n_0_1_1_wf _
      (wrapCol (m ((c : Thread nD τ).loc main_arg3))) e).trans ?_
    exact total_vec m ρ c (row (m ((c : Thread nD τ).loc main_arg3)) e)

end Cert.Attn.HostMid

end
-- ==== Proof.TailKernel.lean ====
/-
  The body of the normalised feed-forward kernel, read entry by entry on the extended reals.

  One block holds 512 rows of 256 entries. The body forms `x = x0 + x1 / safe x2` row by row (the pooled sum divided by
  the graph's guarded total, added to the residual), normalises each row (mean and variance over the 256 entries, the
  variance offset under the reciprocal square root, a gain row and an offset row), passes the result through a
  two-layer perceptron with a clip at zero between the layers, adds the perceptron's output back, and normalises again.
  Every step is either entry-wise, a lane sum put back beside its row, a row laid over all rows, or a matrix product
  into the zero matrix; changes of float format are the identity on the extended reals. Read at row `p` and column
  `f`, what the body stores is `tailRow` of row `p`.

  The file first reads the building blocks at an index — the column of row means, the centred matrix, the column of
  reciprocal standard deviations, a normalisation up to its gain, the two layers — each as a function of a matrix
  variable, then shows that the body's payloads are these functions composed, and composes the readings.
-/
import proofs.«181518_j33663953666886_2_alg».proof.Proof.Gen.KernelIdeal.Frame
import proofs.«181518_j33663953666886_2_alg».proof.Proof.Spec
import proofs.«181518_j33663953666886_2_alg».proof.Proof.LibRowOps
import proofs.«181518_j33663953666886_2_alg».proof.Proof.LibPlainMatmul
import Idealize.ShloMosaic.Lib.ValueLayout

noncomputable section

namespace Cert.Attn.TailKernel

open Cert.KernelIdeal Cert.KernelIdeal.Gen Cert.Attn Idealize.ShloMosaic Idealize.ShloMosaic.ValueIdx
open Cert.RowOps Cert.PointConv

/-- The pattern of `1.0` denotes `1`. -/
theorem ofBits_one : Ideal.ofBits .f32 0x3F800000#32 = 1 := by
  simp [Ideal.ofBits, Ideal.ieee, -EReal.coe_mul]; norm_num

/-- Choosing `d` where `d > 0` and `1.0` elsewhere is `safe d`. -/
theorem select_safe (d : EReal) :
    Scalar.select (Ideal.cmp .ogt d (Ideal.ofBits .f32 0x00000000#32)) d (Ideal.ofBits .f32 0x3F800000#32) = safe d := by
  rw [Ideal.ofBits_zero_f32, ofBits_one]
  unfold safe Ideal.cmp Scalar.select
  by_cases h : (0 : EReal) < d
  · simp [h]
  · simp [h]

/-- The column of row means of a matrix, as the vector unit forms it: lane sums, cast to a column, divided by `256`. -/
def meanCol (v : FVec Ideal S512x256 .f32) : FVec Ideal S512x1 .f32 :=
  divf (shapeCast S512x1 (multiReduction .add [1] S512 v 0x00000000#32 reduces_S512x256_S512 (.inl rfl) rfl) shapeCasts_S512_S512x1)
    (broadcast S512x1 (Scalar.ofBits .f32 0x43800000#32))

/-- At row `p` that column holds the row's mean. -/
theorem meanCol_apply (v : FVec Ideal S512x256 .f32) (p : Fin 512) (u : Fin 1) :
    meanCol v (ix2 p u) = rowMean (fun k => v (ix2 p k)) := by
  unfold meanCol rowMean
  rw [divf_apply, broadcast_apply, shapeCast_a_a1_apply]
  exact congrArg₂ Ideal.div (multiReduction_add_row v _ _ _ _ p) rfl

/-- A matrix minus its row means. -/
def centred (v : FVec Ideal S512x256 .f32) : FVec Ideal S512x256 .f32 :=
  subf v (broadcastTo S512x256 (meanCol v) broadcasts_S512x1_S512x256)

theorem centred_apply (v : FVec Ideal S512x256 .f32) (p : Fin 512) (f : Fin 256) :
    centred v (ix2 p f) = v (ix2 p f) - rowMean (fun k => v (ix2 p k)) := by
  unfold centred
  rw [subf_apply, broadcastTo_a1_ab_apply, meanCol_apply]

/-- `rsqrt` acts entry by entry. -/
theorem rsqrt_apply {s : Shape} {φ : FTy} (a : FVec Ideal s φ) (i : s.Idx) : rsqrt a i = Ideal.rsqrt (a i) := rfl

/-- The column of reciprocal standard deviations: the mean of the squared deviations, offset, under `rsqrt`. -/
def rstdCol (v : FVec Ideal S512x256 .f32) : FVec Ideal S512x1 .f32 :=
  rsqrt (addf (meanCol (mulf (centred v) (centred v))) (broadcast S512x1 (Scalar.ofBits .f32 0x3727C5AC#32)))

theorem rstdCol_apply (v : FVec Ideal S512x256 .f32) (p : Fin 512) (u : Fin 1) :
    rstdCol v (ix2 p u) = Ideal.rsqrt (rowVar (fun k => v (ix2 p k)) + lnEps) := by
  unfold rstdCol
  rw [rsqrt_apply, addf_apply, broadcast_apply, meanCol_apply]
  unfold rowVar
  simp only [mulf_apply, centred_apply]
  rfl

/-- Layer normalisation up to its gain: centred, scaled by the reciprocal standard deviation, times the gain row. -/
def lnGain (v : FVec Ideal S512x256 .f32) (g : Vec Ideal S1x256 .f32) : FVec Ideal S512x256 .f32 :=
  mulf (mulf (centred v) (broadcastTo S512x256 (rstdCol v) broadcasts_S512x1_S512x256))
    (broadcastTo S512x256 (shapeCast S1x256 g shapeCasts_S1x256_S1x256) broadcasts_S1x256_S512x256)

theorem lnGain_apply (v : FVec Ideal S512x256 .f32) (g : Vec Ideal S1x256 .f32) (p : Fin 512) (f : Fin 256) :
    lnGain v g (ix2 p f)
      = (v (ix2 p f) - rowMean (fun k => v (ix2 p k))) * Ideal.rsqrt (rowVar (fun k => v (ix2 p k)) + lnEps)
          * g (ix2 (0 : Fin 1) f) := by
  unfold lnGain
  rw [mulf_apply, mulf_apply, centred_apply, broadcastTo_a1_ab_apply, rstdCol_apply, broadcastTo_1b_ab_apply, shapeCast_self]

/-- A row `[1, 256]` laid over the 512 rows. -/
def rowOver (b : Vec Ideal S1x256 .f32) : FVec Ideal S512x256 .f32 :=
  broadcastTo S512x256 (shapeCast S1x256 b shapeCasts_S1x256_S1x256) broadcasts_S1x256_S512x256

theorem rowOver_apply (b : Vec Ideal S1x256 .f32) (p : Fin 512) (f : Fin 256) :
    rowOver b (ix2 p f) = b (ix2 (0 : Fin 1) f) := by
  unfold rowOver
  rw [broadcastTo_1b_ab_apply, shapeCast_self]

/-- The input of the block: the residual plus the pooled sum divided by the guarded total. -/
def xinVec (x0 x1 : Vec Ideal S512x256 .f32) (x2 : Vec Ideal S512x1 .f32) : FVec Ideal S512x256 .f32 :=
  have v1 : FVec Ideal S512x1 .f32 := shapeCast S512x1 x2 shapeCasts_S512x1_S512x1
  have v7 : FVec Ideal S512x256 .f32 := shapeCast S512x256 x1 shapeCasts_S512x256_S512x256
  have one : FVec Ideal S512x1 .f32 := broadcast S512x1 (Scalar.ofBits .f32 0x3F800000#32)
  addf x0 (divf v7
    (broadcastTo S512x256 (select (cmpf .ogt v1 (broadcast S512x1 (Scalar.ofBits .f32 0x00000000#32))) v1 one)
      broadcasts_S512x1_S512x256))

theorem xinVec_apply (x0 x1 : Vec Ideal S512x256 .f32) (x2 : Vec Ideal S512x1 .f32) (p : Fin 512) (k : Fin 256) :
    xinVec x0 x1 x2 (ix2 p k) = x0 (ix2 p k) + Ideal.div (x1 (ix2 p k)) (safe (x2 (ix2 p (0 : Fin 1)))) := by
  unfold xinVec
  rw [addf_apply, divf_apply, broadcastTo_a1_ab_apply, select_apply, cmpf_apply, broadcast_apply, broadcast_apply,
    shapeCast_self, shapeCast_self]
  exact congrArg (fun t => x0 (ix2 p k) + Ideal.div (x1 (ix2 p k)) t) (select_safe _)

/-- The first payload is the first layer normalisation of the block's input. -/
theorem pay2_eq (x0 x1 : Vec Ideal S512x256 .f32) (x2 : Vec Ideal S512x1 .f32) (x3 x4 : Vec Ideal S1x256 .f32) :
    k1_pay2 (F := Ideal) x2 x1 x0 x3 x4 = addf (lnGain (xinVec x0 x1 x2) x3) (rowOver x4) := rfl

theorem pay2_apply (x0 x1 : Vec Ideal S512x256 .f32) (x2 : Vec Ideal S512x1 .f32) (x3 x4 : Vec Ideal S1x256 .f32)
    (p : Fin 512) (f : Fin 256) :
    k1_pay2 (F := Ideal) x2 x1 x0 x3 x4 (ix2 p f)
      = lnRow (fun k => x0 (ix2 p k) + Ideal.div (x1 (ix2 p k)) (safe (x2 (ix2 p (0 : Fin 1)))))
          (fun j => x3 (ix2 (0 : Fin 1) j)) (fun j => x4 (ix2 (0 : Fin 1) j)) f := by
  rw [pay2_eq, addf_apply, lnGain_apply, rowOver_apply]
  simp only [xinVec_apply]
  rfl

/-- The rounded copy of the first payload holds the same values. -/
theorem pay3_apply (x0 x1 : Vec Ideal S512x256 .f32) (x2 : Vec Ideal S512x1 .f32) (x3 x4 : Vec Ideal S1x256 .f32)
    (i : S512x256.Idx) :
    k1_pay3 (F := Ideal) x2 x1 x0 x3 x4 i = k1_pay2 (F := Ideal) x2 x1 x0 x3 x4 i := rfl

/-- The hidden layer: a product into the zero matrix, plus the offset row, clipped below at `0`. -/
def hidVec (a : FVec Ideal S512x256 .bf16) (x7 : Vec Ideal S256x1024 .f32) (x8 : Vec Ideal S1x1024 .f32) :
    FVec Ideal S512x1024 .f32 :=
  have w : FVec Ideal S256x1024 .bf16 := truncf .bf16 x7 bitsLt_bf16_f32
  have z : FVec Ideal S512x1024 .f32 := constant S512x1024 .f32 0x00000000#32
  have c : FVec Ideal S1x1024 .f32 := shapeCast S1x1024 x8 shapeCasts_S1x1024_S1x1024
  maximumf (addf (matmul dot_S512x256_S256x1024_S512x1024_1_0_0_1_n_n none a w z)
      (broadcastTo S512x1024 c broadcasts_S1x1024_S512x1024))
    (broadcast S512x1024 (Scalar.ofBits .f32 0x00000000#32))

theorem hidVec_apply (a : FVec Ideal S512x256 .bf16) (x7 : Vec Ideal S256x1024 .f32) (x8 : Vec Ideal S1x1024 .f32)
    (p : Fin 512) (j : Fin 1024) :
    hidVec a x7 x8 (ix2 p j) = max ((∑ k : Fin 256, a (ix2 p k) * x7 (ix2 k j)) + x8 (ix2 (0 : Fin 1) j)) 0 := by
  unfold hidVec
  rw [maximumf_apply, addf_apply, broadcast_apply, broadcastTo_1b_ab_apply, shapeCast_self]
  refine congrArg₂ max (congrArg₂ (· + ·) ?_ rfl) Ideal.ofBits_zero_f32
  exact plainMatmul_zero_apply dot_S512x256_S256x1024_S512x1024_1_0_0_1_n_n_wf none a
    (truncf .bf16 x7 bitsLt_bf16_f32 : FVec Ideal S256x1024 .bf16) p j

/-- The output layer: a product into the zero matrix plus the offset row. -/
def outVec (h : FVec Ideal S512x1024 .f32) (x9 : Vec Ideal S1024x256 .f32) (x10 : Vec Ideal S1x256 .f32) :
    FVec Ideal S512x256 .f32 :=
  have hb : FVec Ideal S512x1024 .bf16 := truncf .bf16 h bitsLt_bf16_f32
  have w : FVec Ideal S1024x256 .bf16 := truncf .bf16 x9 bitsLt_bf16_f32
  have z : FVec Ideal S512x256 .f32 := constant S512x256 .f32 0x00000000#32
  addf (matmul dot_S512x1024_S1024x256_S512x256_1_0_0_1_n_n none hb w z) (rowOver x10)

theorem outVec_apply (h : FVec Ideal S512x1024 .f32) (x9 : Vec Ideal S1024x256 .f32) (x10 : Vec Ideal S1x256 .f32)
    (p : Fin 512) (f : Fin 256) :
    outVec h x9 x10 (ix2 p f) = (∑ j : Fin 1024, h (ix2 p j) * x9 (ix2 j f)) + x10 (ix2 (0 : Fin 1) f) := by
  unfold outVec
  rw [addf_apply, rowOver_apply]
  refine congrArg₂ (· + ·) ?_ rfl
  exact plainMatmul_zero_apply dot_S512x1024_S1024x256_S512x256_1_0_0_1_n_n_wf none
    (truncf .bf16 h bitsLt_bf16_f32 : FVec Ideal S512x1024 .bf16)
    (truncf .bf16 x9 bitsLt_bf16_f32 : FVec Ideal S1024x256 .bf16) p f

/-- The fourth payload is the second layer normalisation, up to its gain, of the residual sum. -/
theorem pay4_eq (a : FVec Ideal S512x256 .f32) (ab : FVec Ideal S512x256 .bf16) (x7 : Vec Ideal S256x1024 .f32)
    (x8 : Vec Ideal S1x1024 .f32) (x9 : Vec Ideal S1024x256 .f32) (x10 x5 : Vec Ideal S1x256 .f32) :
    k1_pay4 (F := Ideal) a ab x7 x8 x9 x10 x5 = lnGain (addf a (outVec (hidVec ab x7 x8) x9 x10)) x5 := rfl

theorem pay4_apply (a : FVec Ideal S512x256 .f32) (ab : FVec Ideal S512x256 .bf16) (x7 : Vec Ideal S256x1024 .f32)
    (x8 : Vec Ideal S1x1024 .f32) (x9 : Vec Ideal S1024x256 .f32) (x10 x5 : Vec Ideal S1x256 .f32)
    (x6v : EReal) (p : Fin 512) (f : Fin 256) :
    k1_pay4 (F := Ideal) a ab x7 x8 x9 x10 x5 (ix2 p f) + x6v
      = lnRow (fun f' => a (ix2 p f') + ffnRow (fun k => ab (ix2 p k)) (fun k j => x7 (ix2 k j))
            (fun j => x8 (ix2 (0 : Fin 1) j)) (fun j k => x9 (ix2 j k)) (fun j => x10 (ix2 (0 : Fin 1) j)) f')
          (fun j => x5 (ix2 (0 : Fin 1) j)) (fun _ => x6v) f := by
  rw [pay4_eq, lnGain_apply]
  simp only [addf_apply, outVec_apply, hidVec_apply]
  rfl

/-- The fifth payload is the second offset row laid over the rows. -/
theorem pay5_apply (x6 : Vec Ideal S1x256 .f32) (p : Fin 512) (f : Fin 256) :
    k1_pay5 (F := Ideal) x6 (ix2 p f) = x6 (ix2 (0 : Fin 1) f) :=
  rowOver_apply x6 p f

/-- What the body leaves in the output block is its one whole-block store. -/
theorem out1_11_eq (x0 x1 : Vec Ideal S512x256 .f32) (x2 : Vec Ideal S512x1 .f32) (x3 x4 x5 x6 : Vec Ideal S1x256 .f32)
    (x7 : Vec Ideal S256x1024 .f32) (x8 : Vec Ideal S1x1024 .f32) (x9 : Vec Ideal S1024x256 .f32)
    (x10 : Vec Ideal S1x256 .f32) :
    out1_11 (F := Ideal) x0 x1 x2 x3 x4 x5 x6 x7 x8 x9 x10
      = k1_pay1 (k1_pay4 (k1_pay2 x2 x1 x0 x3 x4) (k1_pay3 x2 x1 x0 x3 x4) x7 x8 x9 x10 x5) (k1_pay5 x6) := by
  have hz : (![0, 0] : Fin 2 → Nat) = fun _ => 0 := by funext a; match a with | ⟨0, _⟩ => rfl | ⟨1, _⟩ => rfl
  unfold out1_11
  rw [View.canon_unit_zero hz]
  simp only [View.ld_unit_zero (S := S512x256) hz, View.ld_unit_zero (S := S512x1) hz, View.ld_unit_zero (S := S1x256) hz,
    View.ld_unit_zero (S := S256x1024) hz, View.ld_unit_zero (S := S1x1024) hz, View.ld_unit_zero (S := S1024x256) hz]

/-- The output block at row `p`, column `f`: the block after the pooling applied to the row
    `x0 + x1 / safe x2`, with the first normalisation's gain and offset `x3`, `x4`, the perceptron's weights
    `x7`, `x8`, `x9`, `x10`, and the second normalisation's gain and offset `x5`, `x6`. -/
theorem out1_11_apply (x0 x1 : Vec Ideal S512x256 .f32) (x2 : Vec Ideal S512x1 .f32) (x3 x4 x5 x6 : Vec Ideal S1x256 .f32)
    (x7 : Vec Ideal S256x1024 .f32) (x8 : Vec Ideal S1x1024 .f32) (x9 : Vec Ideal S1024x256 .f32)
    (x10 : Vec Ideal S1x256 .f32) (p : Fin 512) (f : Fin 256) :
    out1_11 (F := Ideal) x0 x1 x2 x3 x4 x5 x6 x7 x8 x9 x10 (ix2 p f)
      = tailRow (fun k => x0 (ix2 p k) + Ideal.div (x1 (ix2 p k)) (safe (x2 (ix2 p (0 : Fin 1)))))
          (fun j => x3 (ix2 (0 : Fin 1) j)) (fun j => x4 (ix2 (0 : Fin 1) j)) (fun j => x5 (ix2 (0 : Fin 1) j))
          (fun j => x6 (ix2 (0 : Fin 1) j)) (fun k j => x7 (ix2 k j)) (fun j => x8 (ix2 (0 : Fin 1) j))
          (fun j k => x9 (ix2 j k)) (fun j => x10 (ix2 (0 : Fin 1) j)) f := by
  rw [out1_11_eq]
  show k1_pay4 (F := Ideal) _ _ x7 x8 x9 x10 x5 (ix2 p f) + k1_pay5 (F := Ideal) x6 (ix2 p f) = _
  rw [pay5_apply, pay4_apply]
  simp only [pay3_apply, pay2_apply]
  rfl

end Cert.Attn.TailKernel
end
-- ==== Proof.FfnArray.lean ====
/-
  The feed-forward call's output array as a whole-array function.

  Grid point `t` reads rows `512 t … 512 t + 511` of `smiles`, of the pooled numerators and of the totals, and the whole of
  the gains, offsets, weight matrices and bias rows; it writes the same rows of the output.  The eight blocks tile the
  4096 rows, so after the call row `n` of the output is the block after the pooling applied to row `n` of
  `smiles + numerator / total`, a total that is not positive replaced by `1`.
-/
import proofs.«181518_j33663953666886_2_alg».proof.Proof.Gen.KernelIdeal.Frame
import proofs.«181518_j33663953666886_2_alg».proof.Proof.TailKernel
import proofs.«181518_j33663953666886_2_alg».proof.Proof.ScoreArray

set_option maxRecDepth 16384

noncomputable section

namespace Cert.Attn.FfnArray

open Cert.KernelIdeal Cert.KernelIdeal.Gen Cert.Attn Cert.Attn.TailKernel Cert.Attn.ScoreArray
open Idealize.ShloMosaic Idealize.ShloMosaic.ValueIdx Idealize.ShloMosaic.TcCoe Idealize.SL.Sem
open Idealize.ShloMosaic.Pipeline (Dat)

/-- Row `n` of the output from the arrays the call reads. -/
def outRow (a0 a1 : Vec Ideal S4096x256 .f32) (a2 : Vec Ideal S4096x1 .f32) (a3 a4 a5 a6 : Vec Ideal S1x256 .f32)
    (a7 : Vec Ideal S256x1024 .f32) (a8 : Vec Ideal S1x1024 .f32) (a9 : Vec Ideal S1024x256 .f32)
    (a10 : Vec Ideal S1x256 .f32) (n : Fin 4096) (f : Fin 256) : EReal :=
  tailRow (fun k => a0 (ix2 n k) + Ideal.div (a1 (ix2 n k)) (safe (a2 (ix2 n (0 : Fin 1)))))
    (fun j => a3 (ix2 (0 : Fin 1) j)) (fun j => a4 (ix2 (0 : Fin 1) j)) (fun j => a5 (ix2 (0 : Fin 1) j))
    (fun j => a6 (ix2 (0 : Fin 1) j)) (fun k j => a7 (ix2 k j)) (fun j => a8 (ix2 (0 : Fin 1) j))
    (fun j k => a9 (ix2 j k)) (fun j => a10 (ix2 (0 : Fin 1) j)) f

/-- The output array. -/
def outArr (a0 a1 : Vec Ideal S4096x256 .f32) (a2 : Vec Ideal S4096x1 .f32) (a3 a4 a5 a6 : Vec Ideal S1x256 .f32)
    (a7 : Vec Ideal S256x1024 .f32) (a8 : Vec Ideal S1x1024 .f32) (a9 : Vec Ideal S1024x256 .f32)
    (a10 : Vec Ideal S1x256 .f32) : Vec Ideal S4096x256 .f32 :=
  fun i => outRow a0 a1 a2 a3 a4 a5 a6 a7 a8 a9 a10 (rowOf i) (colOf i)

/-- One point's output entry, from blocks that are the arrays' rows. -/
theorem point_out (a0 a1 : Vec Ideal S4096x256 .f32) (a2 : Vec Ideal S4096x1 .f32) (a3 a4 a5 a6 : Vec Ideal S1x256 .f32)
    (a7 : Vec Ideal S256x1024 .f32) (a8 : Vec Ideal S1x1024 .f32) (a9 : Vec Ideal S1024x256 .f32)
    (a10 : Vec Ideal S1x256 .f32)
    (x0 x1 : Vec Ideal S512x256 .f32) (x2 : Vec Ideal S512x1 .f32) (x3 x4 x5 x6 : Vec Ideal S1x256 .f32)
    (x7 : Vec Ideal S256x1024 .f32) (x8 : Vec Ideal S1x1024 .f32) (x9 : Vec Ideal S1024x256 .f32)
    (x10 : Vec Ideal S1x256 .f32) (p : Fin 512) (f : Fin 256) (n : Fin 4096)
    (h0 : ∀ k : Fin 256, x0 (ix2 p k) = a0 (ix2 n k)) (h1 : ∀ k : Fin 256, x1 (ix2 p k) = a1 (ix2 n k))
    (h2 : x2 (ix2 p (0 : Fin 1)) = a2 (ix2 n (0 : Fin 1)))
    (h3 : x3 = a3) (h4 : x4 = a4) (h5 : x5 = a5) (h6 : x6 = a6) (h7 : x7 = a7) (h8 : x8 = a8) (h9 : x9 = a9)
    (h10 : x10 = a10) :
    out1_11 (F := Ideal) x0 x1 x2 x3 x4 x5 x6 x7 x8 x9 x10 (ix2 p f) = outRow a0 a1 a2 a3 a4 a5 a6 a7 a8 a9 a10 n f := by
  subst h3 h4 h5 h6 h7 h8 h9 h10
  rw [out1_11_apply]
  unfold outRow
  simp only [h0, h1, h2]

/-- The printed index maps over the grid: the row-blocked windows sit at block `t`, the others at block `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0 :=
  (by decide +kernel : ∀ t : Fin grid1.N, _)

section Arrays

variable (V : (c : Dev nD) → (b : Ref sig .tc) → Buf (Elt Ideal) ((c : Thread nD τ).loc b))

/-- The array row that row `p` of point `t`'s block is. -/
def rowAt (t : Fin cfg1.N) (p : Fin 512) : Fin 4096 :=
  ⟨t.val * 512 + p.val, by have h1 : t.val < grid1.N := t.isLt; have h2 := N_1; have := p.isLt; omega⟩

theorem blk0 (c : Dev nD) (t : Fin cfg1.N) (p : Fin 512) (f : Fin 256) :
    iblk1 V c 0 t (ix2 p f) = V c main_arg0 (ix2 (rowAt t p) f) := by
  obtain ⟨e0, e1, -⟩ := idx_facts t
  show V c main_arg0 (((cfg1.win 0).blk t).view.emb (ix2 p f)) = _
  refine congrArg (V c main_arg0) (funext fun a => Fin.ext ?_)
  match a with
  | ⟨0, _⟩ => show win1_0.index t (0 : Fin 2) * 512 + 1 * p.val = t.val * 512 + p.val; omega
  | ⟨1, _⟩ => show win1_0.index t (1 : Fin 2) * 256 + 1 * f.val = f.val; omega

theorem blk1 (c : Dev nD) (t : Fin cfg1.N) (p : Fin 512) (f : Fin 256) :
    iblk1 V c 1 t (ix2 p f) = V c main_v22 (ix2 (rowAt t p) f) := by
  obtain ⟨-, -, e0, e1, -⟩ := idx_facts t
  show V c main_v22 (((cfg1.win 1).blk t).view.emb (ix2 p f)) = _
  refine congrArg (V c main_v22) (funext fun a => Fin.ext ?_)
  match a with
  | ⟨0, _⟩ => show win1_1.index t (0 : Fin 2) * 512 + 1 * p.val = t.val * 512 + p.val; omega
  | ⟨1, _⟩ => show win1_1.index t (1 : Fin 2) * 256 + 1 * f.val = f.val; omega

theorem blk2 (c : Dev nD) (t : Fin cfg1.N) (p : Fin 512) :
    iblk1 V c 2 t (ix2 p (0 : Fin 1)) = V c main_v32 (ix2 (rowAt t p) (0 : Fin 1)) := by
  obtain ⟨-, -, -, -, e0, e1, -⟩ := idx_facts t
  show V c main_v32 (((cfg1.win 2).blk t).view.emb (ix2 p (0 : Fin 1))) = _
  refine congrArg (V c main_v32) (funext fun a => Fin.ext ?_)
  match a with
  | ⟨0, _⟩ => show win1_2.index t (0 : Fin 2) * 512 + 1 * p.val = t.val * 512 + p.val; omega
  | ⟨1, _⟩ => show win1_2.index t (1 : Fin 2) * 1 + 1 * 0 = 0; omega

theorem blk3 (c : Dev nD) (t : Fin cfg1.N) : iblk1 V c 3 t = V c main_v33 := by
  obtain ⟨-, -, -, -, -, -, e0, e1, -⟩ := idx_facts t
  funext y
  show V c main_v33 (((cfg1.win 3).blk t).view.emb y) = V c main_v33 y
  refine congrArg (V c main_v33) (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

theorem blk4 (c : Dev nD) (t : Fin cfg1.N) : iblk1 V c 4 t = V c main_v34 := by
  obtain ⟨-, -, -, -, -, -, -, -, e0, e1, -⟩ := idx_facts t
  funext y
  show V c main_v34 (((cfg1.win 4).blk t).view.emb y) = V c main_v34 y
  refine congrArg (V c main_v34) (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

theorem blk5 (c : Dev nD) (t : Fin cfg1.N) : iblk1 V c 5 t = V c main_v35 := by
  obtain ⟨-, -, -, -, -, -, -, -, -, -, e0, e1, -⟩ := idx_facts t
  funext y
  show V c main_v35 (((cfg1.win 5).blk t).view.emb y) = V c main_v35 y
  refine congrArg (V c main_v35) (funext fun a => Fin.ext ?_)
  match a with
  | ⟨0, _⟩ => show win1_5.index t (0 : Fin 2) * 1 + 1 * (y 0).val = (y 0).val; omega
  | ⟨1, _⟩ => show win1_5.index t (1 : Fin 2) * 256 + 1 * (y 1).val = (y 1).val; omega

theorem blk6 (c : Dev nD) (t : Fin cfg1.N) : iblk1 V c 6 t = V c main_v36 := by
  obtain ⟨-, -, -, -, -, -, -, -, -, -, -, -, e0, e1, -⟩ := idx_facts t
  funext y
  show V c main_v36 (((cfg1.win 6).blk t).view.emb y) = V c main_v36 y
  refine congrArg (V c main_v36) (funext fun a => Fin.ext ?_)
  match a with
  | ⟨0, _⟩ => show win1_6.index t (0 : Fin 2) * 1 + 1 * (y 0).val = (y 0).val; omega
  | ⟨1, _⟩ => show win1_6.index t (1 : Fin 2) * 256 + 1 * (y 1).val = (y 1).val; omega

theorem blk7 (c : Dev nD) (t : Fin cfg1.N) : iblk1 V c 7 t = V c main_arg14 := by
  obtain ⟨-, -, -, -, -, -, -, -, -, -, -, -, -, -, e0, e1, -⟩ := idx_facts t
  funext y
  show V c main_arg14 (((cfg1.win 7).blk t).view.emb y) = V c main_arg14 y
  refine congrArg (V c main_arg14) (funext fun a => Fin.ext ?_)
  match a with
  | ⟨0, _⟩ => show win1_7.index t (0 : Fin 2) * 256 + 1 * (y 0).val = (y 0).val; omega
  | ⟨1, _⟩ => show win1_7.index t (1 : Fin 2) * 1024 + 1 * (y 1).val = (y 1).val; omega

theorem blk8 (c : Dev nD) (t : Fin cfg1.N) : iblk1 V c 8 t = V c main_v37 := by
  obtain ⟨-, -, -, -, -, -, -, -, -, -, -, -, -, -, -, -, e0, e1, -⟩ := idx_facts t
  funext y
  show V c main_v37 (((cfg1.win 8).blk t).view.emb y) = V c main_v37 y
  refine congrArg (V c main_v37) (funext fun a => Fin.ext ?_)
  match a with
  | ⟨0, _⟩ => show win1_8.index t (0 : Fin 2) * 1 + 1 * (y 0).val = (y 0).val; omega
  | ⟨1, _⟩ => show win1_8.index t (1 : Fin 2) * 1024 + 1 * (y 1).val = (y 1).val; omega

theorem blk9 (c : Dev nD) (t : Fin cfg1.N) : iblk1 V c 9 t = V c main_arg16 := by
  obtain ⟨-, -, -, -, -, -, -, -, -, -, -, -, -, -, -, -, -, -, e0, e1, -⟩ := idx_facts t
  funext y
  show V c main_arg16 (((cfg1.win 9).blk t).view.emb y) = V c main_arg16 y
  refine congrArg (V c main_arg16) (funext fun a => Fin.ext ?_)
  match a with
  | ⟨0, _⟩ => show win1_9.index t (0 : Fin 2) * 1024 + 1 * (y 0).val = (y 0).val; omega
  | ⟨1, _⟩ => show win1_9.index t (1 : Fin 2) * 256 + 1 * (y 1).val = (y 1).val; omega

theorem blk10 (c : Dev nD) (t : Fin cfg1.N) : iblk1 V c 10 t = V c main_v38 := by
  obtain ⟨-, -, -, -, -, -, -, -, -, -, -, -, -, -, -, -, -, -, -, -, e0, e1, -⟩ := idx_facts t
  funext y
  show V c main_v38 (((cfg1.win 10).blk t).view.emb y) = V c main_v38 y
  refine congrArg (V c main_v38) (funext fun a => Fin.ext ?_)
  match a with
  | ⟨0, _⟩ => show win1_10.index t (0 : Fin 2) * 1 + 1 * (y 0).val = (y 0).val; omega
  | ⟨1, _⟩ => show win1_10.index t (1 : Fin 2) * 256 + 1 * (y 1).val = (y 1).val; omega

/-- What point `t` writes back is block `t` of the output array. -/
theorem flushed11_eq (c : Dev nD) (t : Fin cfg1.N) :
    (dat1 V c).flushed 11 t = ((cfg1.win 11).blk t).view.read (Elt Ideal)
      (outArr (V c main_arg0) (V c main_v22) (V c main_v32) (V c main_v33) (V c main_v34) (V c main_v35) (V c main_v36)
        (V c main_arg14) (V c main_v37) (V c main_arg16) (V c main_v38)) := by
  show (cfg1.win 11).cut (grid1.coords t) ((dat1 V c).after 11 t) = _
  rw [after1_11]
  obtain ⟨-, -, -, -, -, -, -, -, -, -, -, -, -, -, -, -, -, -, -, -, -, -, e0, e1⟩ := idx_facts t
  funext j
  have hj0 : (j 0).val < 512 := (j 0).isLt
  have hj1 : (j 1).val < 256 := (j 1).isLt
  show out1_11 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) j
    = outArr (V c main_arg0) (V c main_v22) (V c main_v32) (V c main_v33) (V c main_v34) (V c main_v35) (V c main_v36)
        (V c main_arg14) (V c main_v37) (V c main_arg16) (V c main_v38) (((cfg1.win 11).blk t).view.emb j)
  have hj : (j : S512x256.Idx) = ix2 (⟨(j 0).val, hj0⟩ : Fin 512) (⟨(j 1).val, hj1⟩ : Fin 256) :=
    funext fun a => match a with | ⟨0, _⟩ => rfl | ⟨1, _⟩ => rfl
  refine (congrArg (out1_11 (F := Ideal) (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) (iblk1 V c 10 t)) hj).trans ?_
  unfold outArr
  have hrow : rowOf (((cfg1.win 11).blk t).view.emb j) = rowAt t ⟨(j 0).val, hj0⟩ := by
    apply Fin.ext
    show win1_11.index t (0 : Fin 2) * 512 + 1 * (j 0).val = t.val * 512 + (j 0).val
    omega
  have hcol : colOf (((cfg1.win 11).blk t).view.emb j) = (⟨(j 1).val, hj1⟩ : Fin 256) := by
    apply Fin.ext
    show win1_11.index t (1 : Fin 2) * 256 + 1 * (j 1).val = (j 1).val
    omega
  rw [hrow, hcol]
  exact point_out (V c main_arg0) (V c main_v22) (V c main_v32) (V c main_v33) (V c main_v34) (V c main_v35) (V c main_v36)
    (V c main_arg14) (V c main_v37) (V c main_arg16) (V c main_v38)
    (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) ⟨(j 0).val, hj0⟩ ⟨(j 1).val, hj1⟩ (rowAt t ⟨(j 0).val, hj0⟩)
    (fun k => blk0 V c t ⟨(j 0).val, hj0⟩ k) (fun k => blk1 V c t ⟨(j 0).val, hj0⟩ k) (blk2 V c t ⟨(j 0).val, hj0⟩)
    (blk3 V c t) (blk4 V c t) (blk5 V c t) (blk6 V c t) (blk7 V c t) (blk8 V c t) (blk9 V c t) (blk10 V c t)

/-- An index of the output lies in point `t`'s block iff each coordinate is in the block's range. -/
theorem mem_blk11 (t : Fin cfg1.N) (i : S4096x256.Idx) :
    i ∈ ((cfg1.win 11).blk t).view.set ↔ ∀ a : Fin 2, win1_11.index t a * S512x256.size a ≤ (i a).val ∧ (i a).val < win1_11.index t a * S512x256.size a + S512x256.size a := by
  show i ∈ ((View.whole main_v39).slice (win1_11.rect t)).set ↔ _
  rw [View.set_slice_whole, Rect.mem_set_unit]
  exact Iff.rfl

/-- The point whose block holds row `r`. -/
def pointOf (r : Nat) (h : r < 4096) : Fin cfg1.N := ⟨r / 512, by show r / 512 < grid1.N; rw [N_1]; omega⟩

/-- Every index of the output is in some point's block. -/
theorem cover11 (i : S4096x256.Idx) : ∃ t : Fin cfg1.N, (cfg1.win 11).flush t = true ∧ i ∈ ((cfg1.win 11).blk t).view.set := by
  have hi0 : (i 0).val < 4096 := (i 0).isLt
  have hi1 : (i 1).val < 256 := (i 1).isLt
  refine ⟨pointOf (i 0).val hi0, flush1_11 _, ?_⟩
  rw [mem_blk11]
  obtain ⟨-, -, -, -, -, -, -, -, -, -, -, -, -, -, -, -, -, -, -, -, -, -, e0, e1⟩ := idx_facts (pointOf (i 0).val hi0)
  have hp : (pointOf (i 0).val hi0).val = (i 0).val / 512 := rfl
  intro a
  match a with
  | ⟨0, _⟩ => show win1_11.index _ (0 : Fin 2) * 512 ≤ (i 0).val ∧ (i 0).val < win1_11.index _ (0 : Fin 2) * 512 + 512; omega
  | ⟨1, _⟩ => show win1_11.index _ (1 : Fin 2) * 256 ≤ (i 1).val ∧ (i 1).val < win1_11.index _ (1 : Fin 2) * 256 + 256; omega

/-- After the call the output holds the block after the pooling, row by row. -/
theorem final11 (c : Dev nD) : (dat1 V c).arrAt 11 cfg1.N
    = outArr (V c main_arg0) (V c main_v22) (V c main_v32) (V c main_v33) (V c main_v34) (V c main_v35) (V c main_v36)
        (V c main_arg14) (V c main_v37) (V c main_arg16) (V c main_v38) :=
  (dat1 V c).arrAt_eq_of_cover 11 _ (fun t _ => flushed11_eq V c t) cover11

end Arrays

end Cert.Attn.FfnArray

end
-- ==== Proof.Final.lean ====
/-
  The two results as whole arrays.

  The first result is, row by row, the block after the pooling applied to `smiles` plus a pooled value; the second is
  every node's share of the graph it looks up, as one column.
-/
import proofs.«181518_j33663953666886_2_alg».proof.Proof.Spec

noncomputable section

namespace Cert.Attn

open Idealize.ShloMosaic Idealize.ShloMosaic.ValueIdx

/-- The row and the column of a matrix index. -/
abbrev rowIx {a b : Nat} (i : (⟨2, ![a, b]⟩ : Shape).Idx) : Fin a := ⟨(i 0).val, (i 0).isLt⟩
abbrev colIx {a b : Nat} (i : (⟨2, ![a, b]⟩ : Shape).Idx) : Fin b := ⟨(i 1).val, (i 1).isLt⟩

/-- An index is its row and its column. -/
theorem eq_rowcol {a b : Nat} (i : (⟨2, ![a, b]⟩ : Shape).Idx) : i = ix2 (rowIx i) (colIx i) :=
  funext fun d => match d with | ⟨0, _⟩ => rfl | ⟨1, _⟩ => rfl

/-- The first result from a pooled value `pool`. -/
def smilesOut (pool : Fin 4096 → Fin 256 → EReal) (smiles : Mat 4096 256) (g0 b0 g1 b1 : Vc 256) (w1 : Mat 256 1024)
    (c1 : Vc 1024) (w2 : Mat 1024 256) (c2 : Vc 256) : Mat 4096 256 :=
  fun i => tailRow (fun k => smiles (ix2 (rowIx i) k) + pool (rowIx i) k)
    (fun j => g0 (ix1 j)) (fun j => b0 (ix1 j)) (fun j => g1 (ix1 j)) (fun j => b1 (ix1 j))
    (fun k j => w1 (ix2 k j)) (fun j => c1 (ix1 j)) (fun j k => w2 (ix2 j k)) (fun j => c2 (ix1 j)) (colIx i)

/-- The second result. -/
def attOut (smiles : Mat 4096 256) (key : Mat 204800 256) (batch : IVec (⟨1, ![204800]⟩ : Shape) 32)
    (wq : Mat 256 256) (bq : Vc 256) (wk : Mat 256 256) (bk : Vc 256) : Mat 204800 1 :=
  fun i => att smiles key batch wq bq wk bk (rowIx i)

end Cert.Attn

end
-- ==== Proof.KernelFinal.lean ====
/-
  The kernel's two results as whole arrays.

  The first result is the feed-forward call's output: row by row, the block after the pooling applied to `smiles` plus
  the numerator divided once by the total.  The second is the attention column the host forms between the two calls,
  which the second call leaves alone.
-/
import proofs.«181518_j33663953666886_2_alg».proof.Proof.HostMid
import proofs.«181518_j33663953666886_2_alg».proof.Proof.HostAtt
import proofs.«181518_j33663953666886_2_alg».proof.Proof.FfnArray
import proofs.«181518_j33663953666886_2_alg».proof.Proof.Final

set_option maxRecDepth 16384

noncomputable section

namespace Cert.Attn.KernelFinal

open Cert.KernelIdeal Cert.KernelIdeal.Gen Cert.Attn Cert.Attn.HostPre Cert.Attn.HostMid Cert.Attn.FfnArray Cert.Attn.ScoreArray
open Idealize.ShloMosaic Idealize.ShloMosaic.ValueIdx Idealize.ShloMosaic.TcCoe Idealize.ShloMosaic.StableHlo Idealize.SL.Sem

variable (m : (ℓ : Loc nD τ sig) → Buf (Elt Ideal) ℓ) (ρ : Dev nD → PrngReg) (c : Dev nD)

/-- The output row is the block after the pooling of any row it agrees with, entry by entry. -/
theorem outRow_congr (a0 a1 : Vec Ideal S4096x256 .f32) (a2 : Vec Ideal S4096x1 .f32) (a3 a4 a5 a6 : Vec Ideal S1x256 .f32)
    (a7 : Vec Ideal S256x1024 .f32) (a8 : Vec Ideal S1x1024 .f32) (a9 : Vec Ideal S1024x256 .f32)
    (a10 : Vec Ideal S1x256 .f32) (smiles : Mat 4096 256) (pool : Fin 4096 → Fin 256 → EReal) (g0 b0 g1 b1 : Vc 256)
    (w1 : Mat 256 1024) (c1 : Vc 1024) (w2 : Mat 1024 256) (c2 : Vc 256) (n : Fin 4096) (f : Fin 256)
    (hx : ∀ k : Fin 256, a0 (ix2 n k) + Ideal.div (a1 (ix2 n k)) (safe (a2 (ix2 n (0 : Fin 1)))) = smiles (ix2 n k) + pool n k)
    (h3 : ∀ j : Fin 256, a3 (ix2 (0 : Fin 1) j) = g0 (ix1 j)) (h4 : ∀ j : Fin 256, a4 (ix2 (0 : Fin 1) j) = b0 (ix1 j))
    (h5 : ∀ j : Fin 256, a5 (ix2 (0 : Fin 1) j) = g1 (ix1 j)) (h6 : ∀ j : Fin 256, a6 (ix2 (0 : Fin 1) j) = b1 (ix1 j))
    (h7 : ∀ (k : Fin 256) (j : Fin 1024), a7 (ix2 k j) = w1 (ix2 k j)) (h8 : ∀ j : Fin 1024, a8 (ix2 (0 : Fin 1) j) = c1 (ix1 j))
    (h9 : ∀ (j : Fin 1024) (k : Fin 256), a9 (ix2 j k) = w2 (ix2 j k)) (h10 : ∀ j : Fin 256, a10 (ix2 (0 : Fin 1) j) = c2 (ix1 j)) :
    outRow a0 a1 a2 a3 a4 a5 a6 a7 a8 a9 a10 n f
      = tailRow (fun k => smiles (ix2 n k) + pool n k) (fun j => g0 (ix1 j)) (fun j => b0 (ix1 j)) (fun j => g1 (ix1 j))
          (fun j => b1 (ix1 j)) (fun k j => w1 (ix2 k j)) (fun j => c1 (ix1 j)) (fun j k => w2 (ix2 j k))
          (fun j => c2 (ix1 j)) f := by
  unfold outRow
  simp only [hx, h3, h4, h5, h6, h7, h8, h9, h10]

/-- The first result. -/
theorem W4_smiles : W4 m ρ c (Proc.devRef .tc main_v39)
    = smilesOut (pooledOnce (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg0)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W4_arr m ρ c 11).trans ((final11 (V3 m ρ) c).trans ?_)
  funext i
  exact outRow_congr (V3 m ρ c main_arg0) (V3 m ρ c main_v22) (V3 m ρ c main_v32) (V3 m ρ c main_v33) (V3 m ρ c main_v34)
    (V3 m ρ c main_v35) (V3 m ρ c main_v36) (V3 m ρ c main_arg14) (V3 m ρ c main_v37) (V3 m ρ c main_arg16)
    (V3 m ρ c main_v38) (m ((c : Thread nD τ).loc main_arg0)) (pooledOnce (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    (rowOf i) (colOf i)
    (fun k => by rw [V3_arg0, numer_apply, total_apply]; rfl)
    (V3_v33 m ρ c) (V3_v34 m ρ c) (V3_v35 m ρ c) (V3_v36 m ρ c) (fun k j => by rw [V3_arg14]) (V3_v37 m ρ c)
    (fun j k => by rw [V3_arg16]) (V3_v38 m ρ c)

/-- The second result. -/
theorem W4_att : W4 m ρ c (Proc.devRef .tc main_v31) = attOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_of_ne m ρ c main_v31 (by decide)).trans ?_
  funext i
  show V3 m ρ c main_v31 i = _
  refine (congrArg (V3 m ρ c main_v31) (eq_rowcol i)).trans ?_
  exact att_apply m ρ c (rowIx i) (colIx i)

end Cert.Attn.KernelFinal

end
-- ==== Proof.TailRef.lean ====
/-
  The reference's block after the pooling, read entry by entry on the extended reals.

  After the pooled value has been added to the residual, the reference normalises each of the 4096 rows (mean and
  variance over the 256 entries by a sum along the row from `0` divided by `256`, the variance offset under the
  reciprocal square root, a gain and an offset vector laid over the rows), applies a two-layer perceptron with a clip
  at zero between the layers, adds the perceptron's output back, and normalises again. Every operation is entry-wise,
  a row sum put back beside its row, a vector or a scalar laid over a larger shape, or an ordinary matrix product.
  Read at row `n` and column `f` the result is `tailRow` of row `n` of the pooled-and-added matrix.

  The file first reads the layouts at an index, then the normalisation and the two layers as functions of a matrix
  variable, then shows that the reference's stages are these functions applied to the pooled-and-added matrix (which is
  never opened), and composes the readings.
-/
import proofs.«181518_j33663953666886_2_alg».proof.Proof.Gen.ReferenceIdeal.Read
import proofs.«181518_j33663953666886_2_alg».proof.Proof.Spec
import proofs.«181518_j33663953666886_2_alg».proof.Proof.LibRowOps
import proofs.«181518_j33663953666886_2_alg».proof.Proof.LibPlainMatmul

noncomputable section

namespace Cert.Attn.TailRef

open Cert.ReferenceIdeal Cert.ReferenceIdeal.Gen Cert.ReferenceIdeal.Read Cert.Attn Idealize.ShloMosaic Idealize.ShloMosaic.ValueIdx
open Cert.RowOps Cert.PointConv

/-! ## Layouts read at an index -/

/-- A scalar laid over any shape reads the scalar everywhere. -/
theorem bcScalar_apply {t : Shape} (dims : Fin S_.rank → Fin t.rank) (h : S_.BroadcastsInDim t dims) (y : S_.Idx → EReal)
    (i : t.Idx) (j : S_.Idx) : broadcastInDim t dims h y i = y j :=
  broadcastInDim_apply _ h y i j (fun a => a.elim0)

/-- A vector of row values as a column. -/
theorem bcVecCol_apply (y : FVec Ideal S4096 .f32) (n : Fin 4096) (u : Fin 1) :
    broadcastInDim S4096x1 ![0] bcast_S4096_S4096x1_0 y (ix2 n u) = y (ix1 n) :=
  broadcastInDim_apply _ bcast_S4096_S4096x1_0 y (ix2 n u) (ix1 n) (fun a => match a with
    | ⟨0, _⟩ => by show n.val = if (4096 : Nat) = 1 then 0 else n.val; rw [if_neg (by decide)])

/-- A column laid over the columns of a matrix. -/
theorem bcCol_apply (y : FVec Ideal S4096x1 .f32) (n : Fin 4096) (f : Fin 256) :
    broadcastInDim S4096x256 ![0, 1] bcast_S4096x1_S4096x256_0_1 y (ix2 n f) = y (ix2 n (0 : Fin 1)) :=
  broadcastInDim_apply _ bcast_S4096x1_S4096x256_0_1 y (ix2 n f) (ix2 n (0 : Fin 1)) (fun a => match a with
    | ⟨0, _⟩ => by show n.val = if (4096 : Nat) = 1 then 0 else n.val; rw [if_neg (by decide)]
    | ⟨1, _⟩ => by show 0 = if (1 : Nat) = 1 then 0 else f.val; rw [if_pos rfl])

/-- A vector of 256 entries laid over the rows of a matrix. -/
def hRow (g : FVec Ideal S256 .f32) : FVec Ideal S4096x256 .f32 :=
  broadcastInDim S4096x256 ![0, 1] bcast_S1x256_S4096x256_0_1 (broadcastInDim S1x256 ![1] bcast_S256_S1x256_1 g)

theorem hRow_apply (g : FVec Ideal S256 .f32) (n : Fin 4096) (f : Fin 256) : hRow g (ix2 n f) = g (ix1 f) := by
  unfold hRow
  refine (broadcastInDim_apply _ bcast_S1x256_S4096x256_0_1 _ (ix2 n f) (ix2 (0 : Fin 1) f) (fun a => match a with
    | ⟨0, _⟩ => by show 0 = if (1 : Nat) = 1 then 0 else n.val; rw [if_pos rfl]
    | ⟨1, _⟩ => by show f.val = if (256 : Nat) = 1 then 0 else f.val; rw [if_neg (by decide)])).trans ?_
  exact broadcastInDim_apply _ bcast_S256_S1x256_1 g (ix2 (0 : Fin 1) f) (ix1 f) (fun a => match a with
    | ⟨0, _⟩ => by show f.val = if (256 : Nat) = 1 then 0 else f.val; rw [if_neg (by decide)])

/-- A vector of 1024 entries laid over the rows of a matrix. -/
def hRowWide (g : FVec Ideal S1024 .f32) : FVec Ideal S4096x1024 .f32 :=
  broadcastInDim S4096x1024 ![0, 1] bcast_S1x1024_S4096x1024_0_1 (broadcastInDim S1x1024 ![1] bcast_S1024_S1x1024_1 g)

theorem hRowWide_apply (g : FVec Ideal S1024 .f32) (n : Fin 4096) (j : Fin 1024) : hRowWide g (ix2 n j) = g (ix1 j) := by
  unfold hRowWide
  refine (broadcastInDim_apply _ bcast_S1x1024_S4096x1024_0_1 _ (ix2 n j) (ix2 (0 : Fin 1) j) (fun a => match a with
    | ⟨0, _⟩ => by show 0 = if (1 : Nat) = 1 then 0 else n.val; rw [if_pos rfl]
    | ⟨1, _⟩ => by show j.val = if (1024 : Nat) = 1 then 0 else j.val; rw [if_neg (by decide)])).trans ?_
  exact broadcastInDim_apply _ bcast_S1024_S1x1024_1 g (ix2 (0 : Fin 1) j) (ix1 j) (fun a => match a with
    | ⟨0, _⟩ => by show j.val = if (1024 : Nat) = 1 then 0 else j.val; rw [if_neg (by decide)])

/-- The host's division and reciprocal square root act entry by entry. -/
theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl

/-- An ordinary matrix product on the host, at `(q, o)`: the sum over the shared axis. -/
theorem plainDot_apply {R n k : Nat} (wf) (prec : Option ContractPrecision)
    (A : FVec Ideal (⟨2, ![R, n]⟩ : Shape) .f32) (B : FVec Ideal (⟨2, ![n, k]⟩ : Shape) .f32) (q : Fin R) (o : Fin k) :
    FloatOps.dotGeneral (plainDims R n k wf) prec .single A B (ix2 q o) = ∑ c : Fin n, A (ix2 q c) * B (ix2 c o) := by
  rw [Ideal.dotGeneral_apply, ← Equiv.sum_comp (plainContr wf).symm]
  refine Finset.sum_congr rfl fun c _ => ?_
  rw [plainDims_lhsIdx, plainDims_rhsIdx]

/-! ## The normalisation and the perceptron as functions of a matrix -/

/-- The column of row means: the host's sum along the rows from `0`, as a column, divided by `256`. -/
def hMean (y : FVec Ideal S4096x256 .f32) : FVec Ideal S4096x1 .f32 :=
  Host.divf (broadcastInDim S4096x1 ![0] bcast_S4096_S4096x1_0
      (Host.reduceAdd y (constant (F := Ideal) S_ .f32 0x00000000#32) reducesTo_S4096x256_S4096_d1 h_S_))
    (broadcastInDim S4096x1 ![] bcast_S_S4096x1 (constant (F := Ideal) S_ .f32 0x43800000#32))

theorem hMean_apply (y : FVec Ideal S4096x256 .f32) (n : Fin 4096) (u : Fin 1) :
    hMean y (ix2 n u) = rowMean (fun k => y (ix2 n k)) := by
  unfold hMean rowMean
  rw [hostDivf_apply, bcVecCol_apply, bcScalar_apply _ _ _ _ ix0, constant_apply]
  refine congrArg₂ Ideal.div ?_ rfl
  refine (hostReduceAdd_row y _ reducesTo_S4096x256_S4096_d1 (by decide) n).trans ?_
  show Ideal.ofBits .f32 0x00000000#32 + _ = _
  rw [Ideal.ofBits_zero_f32, zero_add]

/-- A matrix minus its row means. -/
def hCentred (y : FVec Ideal S4096x256 .f32) : FVec Ideal S4096x256 .f32 :=
  subf y (broadcastInDim S4096x256 ![0, 1] bcast_S4096x1_S4096x256_0_1 (hMean y))

theorem hCentred_apply (y : FVec Ideal S4096x256 .f32) (n : Fin 4096) (f : Fin 256) :
    hCentred y (ix2 n f) = y (ix2 n f) - rowMean (fun k => y (ix2 n k)) := by
  unfold hCentred
  rw [subf_apply, bcCol_apply, hMean_apply]

/-- The column of reciprocal standard deviations. -/
def hRstd (y : FVec Ideal S4096x256 .f32) : FVec Ideal S4096x1 .f32 :=
  Host.rsqrt (addf (hMean (mulf (hCentred y) (hCentred y)))
    (broadcastInDim S4096x1 ![] bcast_S_S4096x1 (constant (F := Ideal) S_ .f32 0x3727C5AC#32)))

theorem hRstd_apply (y : FVec Ideal S4096x256 .f32) (n : Fin 4096) (u : Fin 1) :
    hRstd y (ix2 n u) = Ideal.rsqrt (rowVar (fun k => y (ix2 n k)) + lnEps) := by
  unfold hRstd
  rw [hostRsqrt_apply, addf_apply, bcScalar_apply _ _ _ _ ix0, constant_apply, hMean_apply]
  unfold rowVar
  simp only [mulf_apply, hCentred_apply]
  rfl

/-- Layer normalisation up to its offset. -/
def hLnGain (y : FVec Ideal S4096x256 .f32) (g : FVec Ideal S256 .f32) : FVec Ideal S4096x256 .f32 :=
  mulf (mulf (hCentred y) (broadcastInDim S4096x256 ![0, 1] bcast_S4096x1_S4096x256_0_1 (hRstd y))) (hRow g)

theorem hLnGain_apply (y : FVec Ideal S4096x256 .f32) (g : FVec Ideal S256 .f32) (n : Fin 4096) (f : Fin 256) :
    hLnGain y g (ix2 n f)
      = (y (ix2 n f) - rowMean (fun k => y (ix2 n k))) * Ideal.rsqrt (rowVar (fun k => y (ix2 n k)) + lnEps) * g (ix1 f) := by
  unfold hLnGain
  rw [mulf_apply, mulf_apply, hCentred_apply, bcCol_apply, hRstd_apply, hRow_apply]

/-- The hidden layer: a product, an offset row, a clip below at `0`. -/
def hHid (a : FVec Ideal S4096x256 .f32) (w1 : FVec Ideal S256x1024 .f32) (c1 : FVec Ideal S1024 .f32) :
    FVec Ideal S4096x1024 .f32 :=
  maximumf (addf (Host.dotGeneral dot_S4096x256_S256x1024_S4096x1024_1_0_0_1_n_n none a w1) (hRowWide c1))
    (broadcastInDim S4096x1024 ![] bcast_S_S4096x1024 (constant (F := Ideal) S_ .f32 0x00000000#32))

theorem hHid_apply (a : FVec Ideal S4096x256 .f32) (w1 : FVec Ideal S256x1024 .f32) (c1 : FVec Ideal S1024 .f32)
    (n : Fin 4096) (j : Fin 1024) :
    hHid a w1 c1 (ix2 n j) = max ((∑ k : Fin 256, a (ix2 n k) * w1 (ix2 k j)) + c1 (ix1 j)) 0 := by
  unfold hHid
  rw [maximumf_apply, addf_apply, hRowWide_apply, bcScalar_apply _ _ _ _ ix0, constant_apply]
  refine congrArg₂ max (congrArg₂ (· + ·) ?_ rfl) Ideal.ofBits_zero_f32
  exact plainDot_apply dot_S4096x256_S256x1024_S4096x1024_1_0_0_1_n_n_wf none a w1 n j

/-- The output layer: a product and an offset row. -/
def hOut (h : FVec Ideal S4096x1024 .f32) (w2 : FVec Ideal S1024x256 .f32) (c2 : FVec Ideal S256 .f32) :
    FVec Ideal S4096x256 .f32 :=
  addf (Host.dotGeneral dot_S4096x1024_S1024x256_S4096x256_1_0_0_1_n_n none h w2) (hRow c2)

theorem hOut_apply (h : FVec Ideal S4096x1024 .f32) (w2 : FVec Ideal S1024x256 .f32) (c2 : FVec Ideal S256 .f32)
    (n : Fin 4096) (f : Fin 256) :
    hOut h w2 c2 (ix2 n f) = (∑ j : Fin 1024, h (ix2 n j) * w2 (ix2 j f)) + c2 (ix1 f) := by
  unfold hOut
  rw [addf_apply, hRow_apply]
  refine congrArg₂ (· + ·) ?_ rfl
  exact plainDot_apply dot_S4096x1024_S1024x256_S4096x256_1_0_0_1_n_n_wf none h w2 n f

/-! ## The reference's stages -/

variable (x0 : (⟨S4096x256, .f32⟩ : BufTy).Contents (Elt Ideal)) (x1 x2 : (⟨S204800x256, .f32⟩ : BufTy).Contents (Elt Ideal)) (x3 : (⟨S204800, .i32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 x10 x11 x12 x13 : (⟨S256, .f32⟩ : BufTy).Contents (Elt Ideal)) (x14 : (⟨S256x1024, .f32⟩ : BufTy).Contents (Elt Ideal)) (x15 : (⟨S1024, .f32⟩ : BufTy).Contents (Elt Ideal)) (x16 : (⟨S1024x256, .f32⟩ : BufTy).Contents (Elt Ideal)) (x17 : (⟨S256, .f32⟩ : BufTy).Contents (Elt Ideal))

/-- The first normalisation of the pooled-and-added matrix. -/
theorem v65_eq : val_main_v65 (F := Ideal) x0 x1 x2 x3 x4 x5 x6 x7 x8 x9 x10 x11 = addf (hLnGain (val_main_v41 (F := Ideal) x0 x1 x2 x3 x4 x5 x6 x7 x8 x9) x10) (hRow x11) := rfl

theorem v65_at (n : Fin 4096) (f : Fin 256) :
    val_main_v65 (F := Ideal) x0 x1 x2 x3 x4 x5 x6 x7 x8 x9 x10 x11 (ix2 n f)
      = lnRow (fun k => val_main_v41 (F := Ideal) x0 x1 x2 x3 x4 x5 x6 x7 x8 x9 (ix2 n k)) (fun j => x10 (ix1 j)) (fun j => x11 (ix1 j)) f := by
  rw [v65_eq, addf_apply, hLnGain_apply, hRow_apply]
  rfl

/-- The perceptron's output added back. -/
theorem v75_eq : val_main_v75 (F := Ideal) x0 x1 x2 x3 x4 x5 x6 x7 x8 x9 x10 x11 x14 x15 x16 x17
    = addf (val_main_v65 (F := Ideal) x0 x1 x2 x3 x4 x5 x6 x7 x8 x9 x10 x11) (hOut (hHid (val_main_v65 (F := Ideal) x0 x1 x2 x3 x4 x5 x6 x7 x8 x9 x10 x11) x14 x15) x16 x17) := rfl

theorem v75_at (n : Fin 4096) (f : Fin 256) :
    val_main_v75 (F := Ideal) x0 x1 x2 x3 x4 x5 x6 x7 x8 x9 x10 x11 x14 x15 x16 x17 (ix2 n f)
      = val_main_v65 (F := Ideal) x0 x1 x2 x3 x4 x5 x6 x7 x8 x9 x10 x11 (ix2 n f)
        + ffnRow (fun k => val_main_v65 (F := Ideal) x0 x1 x2 x3 x4 x5 x6 x7 x8 x9 x10 x11 (ix2 n k)) (fun k j => x14 (ix2 k j)) (fun j => x15 (ix1 j))
            (fun j k => x16 (ix2 j k)) (fun j => x17 (ix1 j)) f := by
  rw [v75_eq, addf_apply, hOut_apply]
  simp only [hHid_apply]
  rfl

/-- The second normalisation. -/
theorem v99_eq : val_main_v99 (F := Ideal) x0 x1 x2 x3 x4 x5 x6 x7 x8 x9 x10 x11 x12 x13 x14 x15 x16 x17 = addf (hLnGain (val_main_v75 (F := Ideal) x0 x1 x2 x3 x4 x5 x6 x7 x8 x9 x10 x11 x14 x15 x16 x17) x12) (hRow x13) := rfl

/-- The reference's result at row `n`, column `f`: the block after the pooling applied to row `n` of the
    pooled-and-added matrix. -/
theorem v99_apply (n : Fin 4096) (f : Fin 256) :
    val_main_v99 (F := Ideal) x0 x1 x2 x3 x4 x5 x6 x7 x8 x9 x10 x11 x12 x13 x14 x15 x16 x17 (ix2 n f)
      = tailRow (fun k => val_main_v41 (F := Ideal) x0 x1 x2 x3 x4 x5 x6 x7 x8 x9 (ix2 n k))
          (fun j => x10 (ix1 j)) (fun j => x11 (ix1 j)) (fun j => x12 (ix1 j)) (fun j => x13 (ix1 j))
          (fun k j => x14 (ix2 k j)) (fun j => x15 (ix1 j)) (fun j k => x16 (ix2 j k)) (fun j => x17 (ix1 j)) f := by
  rw [v99_eq, addf_apply, hLnGain_apply, hRow_apply]
  simp only [v75_at, v65_at]
  rfl

end Cert.Attn.TailRef
end
-- ==== Proof.RefHead.lean ====
/-
  The reference's attention pooling, read entry by entry on the extended reals.

  Every node `e` looks up a row of the first argument at its graph id (a negative id counted from the end, the result
  cut to the valid rows); the looked-up row times the query matrix plus the query offset is the node's query, and
  the node's own key and value rows go through their matrices and offsets in the same way. The node's score is the sum
  over the 256 features of query times key; divided by the scale and exponentiated it is the node's weight. A
  scatter-add at the raw graph ids, from zero, collects each graph's total weight; a look-up of the totals at the wrapped
  ids brings a node its graph's total; weight over total is the node's share. The shares times the value rows,
  scatter-added at the raw ids from zero and added to the first argument, are the pooled-and-added matrix.

  The file reads the layouts at an index, identifies the two integer columns the program builds with the wrapped and the
  raw column of the specification, and then reads the stages in order: look-up, query, key, value, score, weight, total,
  total at a node's graph, share, weighted value, pooled sum.
-/
import proofs.«181518_j33663953666886_2_alg».proof.Proof.Gen.ReferenceIdeal.Read
import proofs.«181518_j33663953666886_2_alg».proof.Proof.Spec
import proofs.«181518_j33663953666886_2_alg».proof.Proof.LibRowGather
import proofs.«181518_j33663953666886_2_alg».proof.Proof.LibRowScatterSum
import proofs.«181518_j33663953666886_2_alg».proof.Proof.LibVecScatterSum
import proofs.«181518_j33663953666886_2_alg».proof.Proof.LibRowOps
import proofs.«181518_j33663953666886_2_alg».proof.Proof.LibPlainMatmul

noncomputable section

namespace Cert.Attn.RefHead

open Cert.ReferenceIdeal Cert.ReferenceIdeal.Gen Cert.ReferenceIdeal.Read Cert.Attn Idealize.ShloMosaic Idealize.ShloMosaic.ValueIdx
open Cert.RowOps Cert.PointConv Cert.RowIndexing

/-! ## Layouts read at an index -/

/-- A scalar laid over any shape reads the scalar everywhere. -/
theorem scalarOver_apply {α : Type} {t : Shape} (dims : Fin S_.rank → Fin t.rank) (h : S_.BroadcastsInDim t dims)
    (y : S_.Idx → α) (i : t.Idx) (j : S_.Idx) : broadcastInDim t dims h y i = y j :=
  broadcastInDim_apply _ h y i j (fun a => a.elim0)

/-- A vector over the nodes as a column. -/
theorem colOfVec_apply {α : Type} (y : S204800.Idx → α) (e : Fin 204800) (u : Fin 1) :
    broadcastInDim S204800x1 ![0] bcast_S204800_S204800x1_0 y (ix2 e u) = y (ix1 e) :=
  broadcastInDim_apply _ bcast_S204800_S204800x1_0 y (ix2 e u) (ix1 e) (fun a => match a with
    | ⟨0, _⟩ => by show e.val = if (204800 : Nat) = 1 then 0 else e.val; rw [if_neg (by decide)])

/-- A column over the nodes laid over the 256 columns. -/
theorem colOver_apply {α : Type} (y : S204800x1.Idx → α) (e : Fin 204800) (f : Fin 256) :
    broadcastInDim S204800x256 ![0, 1] bcast_S204800x1_S204800x256_0_1 y (ix2 e f) = y (ix2 e (0 : Fin 1)) :=
  broadcastInDim_apply _ bcast_S204800x1_S204800x256_0_1 y (ix2 e f) (ix2 e (0 : Fin 1)) (fun a => match a with
    | ⟨0, _⟩ => by show e.val = if (204800 : Nat) = 1 then 0 else e.val; rw [if_neg (by decide)]
    | ⟨1, _⟩ => by show 0 = if (1 : Nat) = 1 then 0 else f.val; rw [if_pos rfl])

/-- A vector of 256 entries laid over the nodes' rows. -/
def rowOverNodes (b : FVec Ideal S256 .f32) : FVec Ideal S204800x256 .f32 :=
  broadcastInDim S204800x256 ![0, 1] bcast_S1x256_S204800x256_0_1 (broadcastInDim S1x256 ![1] bcast_S256_S1x256_1 b)

theorem rowOverNodes_apply (b : FVec Ideal S256 .f32) (e : Fin 204800) (f : Fin 256) :
    rowOverNodes b (ix2 e f) = b (ix1 f) := by
  unfold rowOverNodes
  refine (broadcastInDim_apply _ bcast_S1x256_S204800x256_0_1 _ (ix2 e f) (ix2 (0 : Fin 1) f) (fun a => match a with
    | ⟨0, _⟩ => by show 0 = if (1 : Nat) = 1 then 0 else e.val; rw [if_pos rfl]
    | ⟨1, _⟩ => by show f.val = if (256 : Nat) = 1 then 0 else f.val; rw [if_neg (by decide)])).trans ?_
  exact broadcastInDim_apply _ bcast_S256_S1x256_1 b (ix2 (0 : Fin 1) f) (ix1 f) (fun a => match a with
    | ⟨0, _⟩ => by show f.val = if (256 : Nat) = 1 then 0 else f.val; rw [if_neg (by decide)])

/-- An ordinary matrix product on the host, at `(q, o)`: the sum over the shared axis. -/
theorem hostProduct_apply {R n k : Nat} (wf) (prec : Option ContractPrecision)
    (A : FVec Ideal (⟨2, ![R, n]⟩ : Shape) .f32) (B : FVec Ideal (⟨2, ![n, k]⟩ : Shape) .f32) (q : Fin R) (o : Fin k) :
    FloatOps.dotGeneral (plainDims R n k wf) prec .single A B (ix2 q o) = ∑ c : Fin n, A (ix2 q c) * B (ix2 c o) := by
  rw [Ideal.dotGeneral_apply, ← Equiv.sum_comp (plainContr wf).symm]
  refine Finset.sum_congr rfl fun c _ => ?_
  rw [plainDims_lhsIdx, plainDims_rhsIdx]

/-- A product with a 256 × 256 matrix plus an offset vector, over the nodes. -/
def nodeAffine (A : FVec Ideal S204800x256 .f32) (W : FVec Ideal S256x256 .f32) (b : FVec Ideal S256 .f32) :
    FVec Ideal S204800x256 .f32 :=
  addf (Host.dotGeneral dot_S204800x256_S256x256_S204800x256_1_0_0_1_n_n none A W) (rowOverNodes b)

theorem nodeAffine_apply (A : FVec Ideal S204800x256 .f32) (W : FVec Ideal S256x256 .f32) (b : FVec Ideal S256 .f32)
    (e : Fin 204800) (f : Fin 256) :
    nodeAffine A W b (ix2 e f) = (∑ c : Fin 256, A (ix2 e c) * W (ix2 c f)) + b (ix1 f) := by
  unfold nodeAffine
  rw [addf_apply, rowOverNodes_apply]
  refine congrArg₂ (· + ·) ?_ rfl
  exact hostProduct_apply dot_S204800x256_S256x256_S204800x256_1_0_0_1_n_n_wf none A W e f

/-! ## The scale -/

/-- The divisor of the scores denotes `11863283 / 2097152`. -/
theorem ofBits_scale : Ideal.ofBits .f32 0x40B504F3#32 = ((11863283 / 2097152 : ℝ) : EReal) := by
  simp [Ideal.ofBits, Ideal.ieee, -EReal.coe_mul]; norm_num

/-- Dividing by it is multiplying by the inverse of the scale. -/
theorem div_scale (x : EReal) : Ideal.div x (Ideal.ofBits .f32 0x40B504F3#32) = x * invScale := by
  rw [ofBits_scale, Ideal.div_coe (by norm_num)]
  unfold invScale
  refine congrArg (fun r : ℝ => x * (r : EReal)) ?_
  norm_num

/-! ## The graph ids as columns -/

variable (x0 : (⟨S4096x256, .f32⟩ : BufTy).Contents (Elt Ideal)) (x1 x2 : (⟨S204800x256, .f32⟩ : BufTy).Contents (Elt Ideal)) (x3 : (⟨S204800, .i32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal))

/-- The column the look-ups read is the wrapped one. -/
theorem wrap_eq : val_main_v5 (F := Ideal) x3 = wrapCol x3 := by
  funext i
  obtain ⟨a, b, rfl⟩ : ∃ (a : Fin 204800) (b : Fin 1), i = ix2 a b := ⟨i 0, i 1, eq_ix2 i⟩
  exact (colOfVec_apply (val_main_v4 (F := Ideal) x3) a b).trans rfl

theorem wrap_eq' : val_main_v32 (F := Ideal) x3 = wrapCol x3 := by
  funext i
  obtain ⟨a, b, rfl⟩ : ∃ (a : Fin 204800) (b : Fin 1), i = ix2 a b := ⟨i 0, i 1, eq_ix2 i⟩
  exact (colOfVec_apply (val_main_v31 (F := Ideal) x3) a b).trans rfl

/-- The column the segment sums read is the raw one. -/
theorem raw_eq : val_main_v25 (F := Ideal) x3 = rawCol x3 := by
  funext i
  obtain ⟨a, b, rfl⟩ : ∃ (a : Fin 204800) (b : Fin 1), i = ix2 a b := ⟨i 0, i 1, eq_ix2 i⟩
  exact colOfVec_apply x3 a b

theorem raw_eq' : val_main_v39 (F := Ideal) x3 = rawCol x3 := by
  funext i
  obtain ⟨a, b, rfl⟩ : ∃ (a : Fin 204800) (b : Fin 1), i = ix2 a b := ⟨i 0, i 1, eq_ix2 i⟩
  exact colOfVec_apply x3 a b

/-! ## Queries, keys, values -/

/-- Node `e` looks up row `row batch e` of the first argument. -/
theorem lookup_at (e : Fin 204800) (c : Fin 256) : val_main_v6 (F := Ideal) x0 x3 (ix2 e c) = x0 (ix2 (row x3 e) c) := by
  refine (rowGather_apply (N := 4096) (E := 204800) (F := 256) (by decide)
    gather_S4096x256_S204800x1_S204800x256_1_0_n_n_0_1_1256_wf x0 (val_main_v5 (F := Ideal) x3) e c).trans ?_
  rw [wrap_eq]
  rfl

theorem q_at (e : Fin 204800) (f : Fin 256) : val_main_v10 (F := Ideal) x0 x3 x4 x5 (ix2 e f) = affine x0 x4 x5 (row x3 e) f := by
  refine (nodeAffine_apply (val_main_v6 (F := Ideal) x0 x3) x4 x5 e f).trans ?_
  unfold affine
  simp only [lookup_at]

theorem k_at (e : Fin 204800) (f : Fin 256) : val_main_v14 (F := Ideal) x1 x6 x7 (ix2 e f) = affine x1 x6 x7 e f :=
  nodeAffine_apply x1 x6 x7 e f

theorem v_at (e : Fin 204800) (f : Fin 256) : val_main_v18 (F := Ideal) x2 x8 x9 (ix2 e f) = affine x2 x8 x9 e f :=
  nodeAffine_apply x2 x8 x9 e f

/-! ## Scores, weights, totals -/

theorem score_at (e : Fin 204800) : val_main_v20 (F := Ideal) x0 x1 x3 x4 x5 x6 x7 (ix1 e) = score x0 x1 x3 x4 x5 x6 x7 e := by
  refine (hostReduceAdd_row (val_main_v19 (F := Ideal) x0 x1 x3 x4 x5 x6 x7) _ reducesTo_S204800x256_S204800_d1 (by decide) e).trans ?_
  show Ideal.ofBits .f32 0x00000000#32 + _ = _
  rw [Ideal.ofBits_zero_f32, zero_add]
  unfold score
  refine Finset.sum_congr rfl fun f _ => ?_
  rw [val_main_v19_apply, Ideal.mulf_def, q_at, k_at]

theorem ex_at (e : Fin 204800) : val_main_v23 (F := Ideal) x0 x1 x3 x4 x5 x6 x7 (ix1 e) = ex x0 x1 x3 x4 x5 x6 x7 e := by
  have h21 : val_main_v21 (F := Ideal) (ix1 e) = Ideal.ofBits .f32 0x40B504F3#32 :=
    (scalarOver_apply _ bcast_S_S204800 (val_main_cst_1 (F := Ideal)) (ix1 e) ix0).trans rfl
  rw [val_main_v23_apply, val_main_v22_apply, Ideal.hostUnary_exp_def, Ideal.hostDivf_def, h21, score_at, div_scale]
  rfl

theorem den_at (n : Fin 4096) : val_main_v26 (F := Ideal) x0 x1 x3 x4 x5 x6 x7 (ix1 n) = den x0 x1 x3 x4 x5 x6 x7 n := by
  have h24 : val_main_v24 (F := Ideal) (ix1 n) = 0 :=
    (scalarOver_apply _ bcast_S_S4096 (val_main_cst_2 (F := Ideal)) (ix1 n) ix0).trans Ideal.ofBits_zero_f32
  refine (vecScatterAdd_apply (N := 4096) (E := 204800) scatter_S4096_S204800x1_S204800_n_0_0_1_wf (val_main_v24 (F := Ideal))
    (val_main_v25 (F := Ideal) x3) (val_main_v23 (F := Ideal) x0 x1 x3 x4 x5 x6 x7) n).trans ?_
  rw [raw_eq, h24, zero_add]
  unfold den seg
  exact Finset.sum_congr rfl fun e _ => ex_at x0 x1 x3 x4 x5 x6 x7 e

theorem denAtRow_at (e : Fin 204800) : val_main_v33 (F := Ideal) x0 x1 x3 x4 x5 x6 x7 (ix1 e) = den x0 x1 x3 x4 x5 x6 x7 (row x3 e) := by
  refine (vecGather_apply (N := 4096) (E := 204800) (by decide) gather_S4096_S204800x1_S204800_n_0_n_n_0_1_1_wf
    (val_main_v26 (F := Ideal) x0 x1 x3 x4 x5 x6 x7) (val_main_v32 (F := Ideal) x3) e).trans ?_
  rw [wrap_eq']
  exact den_at x0 x1 x3 x4 x5 x6 x7 (row x3 e)

/-- Node `e`'s share of the graph it looks up, as the reference's column holds it. -/
theorem v35_apply (e : Fin 204800) (u : Fin 1) : val_main_v35 (F := Ideal) x0 x1 x3 x4 x5 x6 x7 (ix2 e u) = att x0 x1 x3 x4 x5 x6 x7 e := by
  refine (colOfVec_apply (val_main_v34 (F := Ideal) x0 x1 x3 x4 x5 x6 x7) e u).trans ?_
  rw [val_main_v34_apply, Ideal.hostDivf_def, ex_at, denAtRow_at]
  rfl

/-! ## The pooled value -/

theorem weighted_at (e : Fin 204800) (f : Fin 256) :
    val_main_v37 (F := Ideal) x0 x1 x2 x3 x4 x5 x6 x7 x8 x9 (ix2 e f) = att x0 x1 x3 x4 x5 x6 x7 e * affine x2 x8 x9 e f := by
  have h36 : val_main_v36 (F := Ideal) x0 x1 x3 x4 x5 x6 x7 (ix2 e f) = att x0 x1 x3 x4 x5 x6 x7 e :=
    (colOver_apply (val_main_v35 (F := Ideal) x0 x1 x3 x4 x5 x6 x7) e f).trans (v35_apply x0 x1 x3 x4 x5 x6 x7 e 0)
  rw [val_main_v37_apply, Ideal.mulf_def, h36, v_at]

/-- The pooled-and-added matrix: the first argument plus the pooled value with every weight divided first. -/
theorem v41_apply (n : Fin 4096) (f : Fin 256) :
    val_main_v41 (F := Ideal) x0 x1 x2 x3 x4 x5 x6 x7 x8 x9 (ix2 n f) = x0 (ix2 n f) + pooledEach x0 x1 x2 x3 x4 x5 x6 x7 x8 x9 n f := by
  have h38 : val_main_v38 (F := Ideal) (ix2 n f) = 0 :=
    (scalarOver_apply _ bcast_S_S4096x256 (val_main_cst_5 (F := Ideal)) (ix2 n f) ix0).trans Ideal.ofBits_zero_f32
  rw [val_main_v41_apply, Ideal.addf_def]
  refine congrArg (x0 (ix2 n f) + ·) ?_
  refine (rowScatterAdd_apply (N := 4096) (E := 204800) (F := 256) scatter_S4096x256_S204800x1_S204800x256_1_0_0_1_wf
    (val_main_v38 (F := Ideal)) (val_main_v39 (F := Ideal) x3) (val_main_v37 (F := Ideal) x0 x1 x2 x3 x4 x5 x6 x7 x8 x9) n f).trans ?_
  rw [raw_eq', h38, zero_add]
  unfold pooledEach seg
  exact Finset.sum_congr rfl fun e _ => weighted_at x0 x1 x2 x3 x4 x5 x6 x7 x8 x9 e f

end Cert.Attn.RefHead
end
-- ==== Proof.LibGcnLayer.lean ====
/-
  The algebra of one graph-convolution layer with symmetric normalisation, over the extended reals.

  With `D` the per-node factor (the inverse square root of the degree), `h` the node features after the dense product,
  and an edge list (source row `s e`, destination row `t e`), the reference sums `h (s e) · (D (s e) · D (t e))` over the
  edges that land on node `i` and adds the self loop `h i · (D i · D i)`.  The kernel scales the features once,
  `hs = h · D`, sums `hs (s e)` over the same edges, adds `hs i`, and multiplies the total by `D i`.  The two agree because
  every edge in the sum has `D (t e) = D i`, multiplication distributes over a finite sum of REAL numbers, and products
  of reals commute; on the extended reals distributivity can fail at the infinities, so every quantity is first shown
  to be a real number.
-/
import Idealize.ShloMosaic.PureOps.Ideal

noncomputable section

namespace Cert.GcnAlgebra

open Idealize.ShloMosaic

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.max {x y : EReal} (hx : IsFin x) (hy : IsFin y) : IsFin (max x y) := by
  rcases max_choice x y with h | h <;> rw [h] <;> assumption

/-- A finite sum of coerced reals is the coerced sum. -/
theorem coe_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

theorem IsFin.sum {ι : Type} (s : Finset ι) (f : ι → EReal) (h : ∀ j, IsFin (f j)) : IsFin (∑ j ∈ s, f j) := by
  choose g hg using h
  exact ⟨∑ j ∈ s, g j, by rw [← coe_sum]; exact Finset.sum_congr rfl fun j _ => hg j⟩

/-- The inverse square root of a positive real is a real. -/
theorem IsFin.rsqrt_of_pos {r : ℝ} (hr : 0 < r) : IsFin (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- THE LAYER IDENTITY on one output entry.  `S` is the set of (edge, column) slots landing on the entry; `a j` the
    feature the slot gathers, `p j` the source node's factor, `q j` the destination node's factor as the reference
    gathers it, which on `S` is the entry's own factor `D`; `H` the entry's own feature. -/
theorem fold_scale {T : Type} (S : Finset T) (a p q : T → EReal) (H D : EReal)
    (ha : ∀ j, IsFin (a j)) (hp : ∀ j, IsFin (p j)) (hH : IsFin H) (hD : IsFin D)
    (hq : ∀ j ∈ S, q j = D) :
    D * ((0 + ∑ j ∈ S, a j * p j) + H * D) = (0 + ∑ j ∈ S, a j * (p j * q j)) + H * (D * D) := by
  obtain ⟨d, rfl⟩ := hD
  obtain ⟨h, rfl⟩ := hH
  choose a' ha' using ha
  choose p' hp' using hp
  have e1 : ∑ j ∈ S, a j * (p j * q j) = ∑ j ∈ S, ((a' j * (p' j * d) : ℝ) : EReal) :=
    Finset.sum_congr rfl fun j hj => by rw [hq j hj, ha', hp', EReal.coe_mul, EReal.coe_mul]
  have e2 : ∑ j ∈ S, a j * p j = ∑ j ∈ S, ((a' j * p' j : ℝ) : EReal) :=
    Finset.sum_congr rfl fun j _ => by rw [ha', hp', EReal.coe_mul]
  rw [e1, e2, coe_sum, coe_sum, zero_add, zero_add, ← EReal.coe_mul, ← EReal.coe_add, ← EReal.coe_mul,
    ← EReal.coe_mul, ← EReal.coe_mul, ← EReal.coe_add]
  refine congrArg _ ?_
  rw [mul_add, Finset.mul_sum]
  congr 1
  · exact Finset.sum_congr rfl fun j _ => by ring
  · ring

end Cert.GcnAlgebra

end
-- ==== Proof.PoolLaw.lean ====
/-
  The pooled value in its two arrangements.

  Over a finite set of nodes with positive real weights `x` and real values `v`, dividing every weight by the total
  before summing gives the same number as summing first and dividing once: `∑ (x / D) · v = (∑ x · v) / D` with
  `D = ∑ x > 0`.  Over the empty set both sides are `0`, the second because the total `0` is replaced by `1`.
-/
import proofs.«181518_j33663953666886_2_alg».proof.Proof.Spec
import proofs.«181518_j33663953666886_2_alg».proof.Proof.LibGcnLayer

noncomputable section

namespace Cert.Attn

open Idealize.ShloMosaic Cert.GcnAlgebra

/-- A positive real total is kept. -/
theorem safe_of_pos {d : ℝ} (h : 0 < d) : safe (d : EReal) = (d : EReal) := by
  unfold safe
  rw [if_pos (EReal.coe_pos.mpr h)]

/-- The total `0` is replaced by `1`. -/
theorem safe_zero : safe ((0 : ℝ) : EReal) = ((1 : ℝ) : EReal) := by
  unfold safe
  rw [if_neg (by simp)]
  rfl

/-- The two arrangements of a weighted mean agree. -/
theorem pooled_eq {ι : Type} (S : Finset ι) (x v : ι → ℝ) (hx : ∀ e ∈ S, 0 < x e) :
    ∑ e ∈ S, Ideal.div ((x e : ℝ) : EReal) ((∑ e' ∈ S, x e' : ℝ) : EReal) * ((v e : ℝ) : EReal)
      = Ideal.div (∑ e ∈ S, ((x e : ℝ) : EReal) * ((v e : ℝ) : EReal)) (safe ((∑ e' ∈ S, x e' : ℝ) : EReal)) := by
  rcases S.eq_empty_or_nonempty with rfl | hne
  · simp only [Finset.sum_empty]
    rw [safe_zero, Ideal.div_coe one_ne_zero]
    simp
  · have hD : 0 < ∑ e' ∈ S, x e' := Finset.sum_pos hx hne
    rw [safe_of_pos hD, Ideal.div_coe hD.ne']
    simp only [Ideal.div_coe hD.ne', ← EReal.coe_mul]
    rw [coe_sum, coe_sum, ← EReal.coe_mul]
    refine congrArg _ ?_
    rw [Finset.sum_mul]
    exact Finset.sum_congr rfl fun e _ => by ring

end Cert.Attn

end
-- ==== Proof.Rows.lean ====
/-
  A node that a graph collects looks that graph up.

  The segment sums read a node's graph id as it is and drop a node whose id is outside `0 … 4095`; the look-ups count a
  negative id from the end and cut the result to `0 … 4095`.  For a node whose id is a graph `n` the id is not negative, so
  it is left as it is, and it is already inside the range: the row looked up is `n`.
-/
import proofs.«181518_j33663953666886_2_alg».proof.Proof.Spec
import Idealize.ShloMosaic.Lib.Affine

noncomputable section

namespace Cert.Attn

open Idealize.ShloMosaic Idealize.ShloMosaic.ValueIdx Cert.RowIndexing

/-- Membership in a graph's segment: the node's id, read signed, is the graph. -/
theorem mem_seg (batch : IVec (⟨1, ![204800]⟩ : Shape) 32) (n : Fin 4096) (e : Fin 204800) :
    e ∈ seg batch n ↔ (batch (ix1 e)).toInt = ((n.val : Nat) : Int) := by
  unfold seg rowsAt
  rw [Finset.mem_filter]
  exact ⟨fun h => h.2, fun h => ⟨Finset.mem_univ _, h⟩⟩

/-- The row a collected node looks up is its graph. -/
theorem row_of_mem_seg (batch : IVec (⟨1, ![204800]⟩ : Shape) 32) (n : Fin 4096) (e : Fin 204800)
    (he : e ∈ seg batch n) : row batch e = n := by
  have hb : (batch (ix1 e)).toInt = ((n.val : Nat) : Int) := (mem_seg batch n e).mp he
  have hnot : ¬ IntOp.cmpi .slt (batch (ix1 e)) 0#32 = 1#1 := by
    rw [IntOp.cmpi_slt, hb]
    simp
  have hw : wrapCol batch (ix2 e (0 : Fin 1)) = batch (ix1 e) := by
    show Scalar.select (IntOp.cmpi .slt (batch (ix1 e)) 0#32) _ (batch (ix1 e)) = _
    unfold Scalar.select
    exact if_neg hnot
  apply Fin.ext
  show min ((wrapCol batch (ix2 e (0 : Fin 1))).toInt.toNat) (4096 - 1) = n.val
  rw [hw, hb]
  have := n.isLt
  simp only [Int.toNat_natCast]
  omega

end Cert.Attn

end
-- ==== Proof.PoolBridge.lean ====
/-
  The pooled value's two arrangements agree on real inputs.

  When every entry of the inputs is a real number, every query, key and value entry is a real (finite sums and products of
  reals), so every score is a real and every weight is the exponential of a real: a positive real. A node that a graph
  collects looks that graph up, so inside a graph's sum every share is the node's weight over the graph's own total, and
  that total is a sum of positive reals. The weighted mean with each weight divided first then equals the sum divided
  once, the total of an empty graph being replaced by `1` on the one side and never used on the other.
-/
import proofs.«181518_j33663953666886_2_alg».proof.Proof.Spec
import proofs.«181518_j33663953666886_2_alg».proof.Proof.PoolLaw
import proofs.«181518_j33663953666886_2_alg».proof.Proof.Rows
import proofs.«181518_j33663953666886_2_alg».proof.Proof.LibGcnLayer

noncomputable section

namespace Cert.Attn

open Idealize.ShloMosaic Idealize.ShloMosaic.ValueIdx Cert.GcnAlgebra Cert.RowIndexing

/-- A product with a matrix of reals plus an offset of reals, of a matrix of reals, is a real at every entry. -/
theorem affine_isFin {R n k : Nat} (A : Mat R n) (W : Mat n k) (b : Vc k) (hA : ∀ i, IsFin (A i)) (hW : ∀ i, IsFin (W i))
    (hb : ∀ i, IsFin (b i)) (r : Fin R) (o : Fin k) : IsFin (affine A W b r o) := by
  unfold affine
  exact (IsFin.sum _ _ fun c => (hA _).mul (hW _)).add (hb _)

/-- The inverse of the scale is a real. -/
theorem invScale_isFin : IsFin invScale := ⟨_, rfl⟩

section Pool

variable (smiles : Mat 4096 256) (key value : Mat 204800 256) (batch : IVec (⟨1, ![204800]⟩ : Shape) 32)
  (wq : Mat 256 256) (bq : Vc 256) (wk : Mat 256 256) (bk : Vc 256) (wv : Mat 256 256) (bv : Vc 256)

/-- On real inputs every score is a real. -/
theorem score_isFin (hs : ∀ i, IsFin (smiles i)) (hk : ∀ i, IsFin (key i)) (hwq : ∀ i, IsFin (wq i))
    (hbq : ∀ i, IsFin (bq i)) (hwk : ∀ i, IsFin (wk i)) (hbk : ∀ i, IsFin (bk i)) (e : Fin 204800) :
    IsFin (score smiles key batch wq bq wk bk e) := by
  unfold score
  exact IsFin.sum _ _ fun f =>
    (affine_isFin smiles wq bq hs hwq hbq (row batch e) f).mul (affine_isFin key wk bk hk hwk hbk e f)

/-- On real inputs every weight is a positive real. -/
theorem ex_pos (hs : ∀ i, IsFin (smiles i)) (hk : ∀ i, IsFin (key i)) (hwq : ∀ i, IsFin (wq i))
    (hbq : ∀ i, IsFin (bq i)) (hwk : ∀ i, IsFin (wk i)) (hbk : ∀ i, IsFin (bk i)) (e : Fin 204800) :
    ∃ r : ℝ, 0 < r ∧ ex smiles key batch wq bq wk bk e = (r : EReal) := by
  obtain ⟨s, hs'⟩ := (score_isFin smiles key batch wq bq wk bk hs hk hwq hbq hwk hbk e).mul invScale_isFin
  refine ⟨Real.exp s, Real.exp_pos s, ?_⟩
  unfold ex
  rw [hs']
  rfl

/-- On real inputs, dividing every weight by its graph's total before the sum is dividing the sum once. -/
theorem pooledEach_eq_pooledOnce (hs : ∀ i, IsFin (smiles i)) (hk : ∀ i, IsFin (key i)) (hv : ∀ i, IsFin (value i))
    (hwq : ∀ i, IsFin (wq i)) (hbq : ∀ i, IsFin (bq i)) (hwk : ∀ i, IsFin (wk i)) (hbk : ∀ i, IsFin (bk i))
    (hwv : ∀ i, IsFin (wv i)) (hbv : ∀ i, IsFin (bv i)) (n : Fin 4096) (f : Fin 256) :
    pooledEach smiles key value batch wq bq wk bk wv bv n f = pooledOnce smiles key value batch wq bq wk bk wv bv n f := by
  have hex : ∀ e, ∃ r : ℝ, 0 < r ∧ ex smiles key batch wq bq wk bk e = (r : EReal) :=
    fun e => ex_pos smiles key batch wq bq wk bk hs hk hwq hbq hwk hbk e
  choose x hxpos hx using hex
  have hval : ∀ e, IsFin (affine value wv bv e f) := fun e => affine_isFin value wv bv hv hwv hbv e f
  choose v hv' using hval
  have hden : den smiles key batch wq bq wk bk n = ((∑ e' ∈ seg batch n, x e' : ℝ) : EReal) := by
    unfold den
    rw [← coe_sum]
    exact Finset.sum_congr rfl fun e _ => hx e
  have h1 : ∑ e ∈ seg batch n, att smiles key batch wq bq wk bk e * affine value wv bv e f
      = ∑ e ∈ seg batch n,
          Ideal.div ((x e : ℝ) : EReal) ((∑ e' ∈ seg batch n, x e' : ℝ) : EReal) * ((v e : ℝ) : EReal) :=
    Finset.sum_congr rfl fun e he => by
      unfold att
      rw [row_of_mem_seg batch n e he, hden, hx, hv']
  have h2 : ∑ e ∈ seg batch n, ex smiles key batch wq bq wk bk e * affine value wv bv e f
      = ∑ e ∈ seg batch n, ((x e : ℝ) : EReal) * ((v e : ℝ) : EReal) :=
    Finset.sum_congr rfl fun e _ => by rw [hx, hv']
  unfold pooledEach pooledOnce
  rw [hden, h1, h2]
  exact pooled_eq (seg batch n) x v (fun e _ => hxpos e)

end Pool

end Cert.Attn

end
-- ==== Proof.RefFinal.lean ====
/-
  The reference's two results as whole arrays, and its run stated with them.

  Entry `(n, f)` of the first result is the block after the pooling applied to row `n` of the first argument plus the
  pooled value, column `f`; entry `(e, 0)` of the second is node `e`'s share of the graph it looks up. An index of a
  matrix is its row and its column, so the two entry-wise readings give the two arrays as functions. On real inputs the
  pooled value with every weight divided first is the pooled value with the sum divided once, and the first result can
  be stated with either. The reference's run leaves the two results at these arrays and the arguments unchanged.
-/
import proofs.«181518_j33663953666886_2_alg».proof.Proof.Gen.ReferenceIdeal.Read
import proofs.«181518_j33663953666886_2_alg».proof.Proof.TailRef
import proofs.«181518_j33663953666886_2_alg».proof.Proof.RefHead
import proofs.«181518_j33663953666886_2_alg».proof.Proof.PoolBridge
import proofs.«181518_j33663953666886_2_alg».proof.Proof.Final

noncomputable section

namespace Cert.Attn.RefFinal

open Cert.ReferenceIdeal Cert.ReferenceIdeal.Gen Cert.ReferenceIdeal.Read Cert.Attn
open Idealize.ShloMosaic Idealize.ShloMosaic.ValueIdx Idealize.ShloMosaic.TcCoe Idealize.SL.Sem Cert.GcnAlgebra

section Arrays

variable (x0 : (⟨S4096x256, .f32⟩ : BufTy).Contents (Elt Ideal)) (x1 x2 : (⟨S204800x256, .f32⟩ : BufTy).Contents (Elt Ideal)) (x3 : (⟨S204800, .i32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 x10 x11 x12 x13 : (⟨S256, .f32⟩ : BufTy).Contents (Elt Ideal)) (x14 : (⟨S256x1024, .f32⟩ : BufTy).Contents (Elt Ideal)) (x15 : (⟨S1024, .f32⟩ : BufTy).Contents (Elt Ideal)) (x16 : (⟨S1024x256, .f32⟩ : BufTy).Contents (Elt Ideal)) (x17 : (⟨S256, .f32⟩ : BufTy).Contents (Elt Ideal))

/-- The first result, with every weight divided by its graph's total before the sum. -/
theorem ref_smiles : val_main_v99 (F := Ideal) x0 x1 x2 x3 x4 x5 x6 x7 x8 x9 x10 x11 x12 x13 x14 x15 x16 x17
    = smilesOut (pooledEach x0 x1 x2 x3 x4 x5 x6 x7 x8 x9) x0 x10 x11 x12 x13 x14 x15 x16 x17 := by
  funext i
  refine (congrArg (val_main_v99 (F := Ideal) x0 x1 x2 x3 x4 x5 x6 x7 x8 x9 x10 x11 x12 x13 x14 x15 x16 x17) (eq_rowcol i)).trans ?_
  refine (TailRef.v99_apply x0 x1 x2 x3 x4 x5 x6 x7 x8 x9 x10 x11 x12 x13 x14 x15 x16 x17 (rowIx i) (colIx i)).trans ?_
  simp only [smilesOut, RefHead.v41_apply]

/-- The second result: every node's share, as a column. -/
theorem ref_att : val_main_v35 (F := Ideal) x0 x1 x3 x4 x5 x6 x7 = attOut x0 x1 x3 x4 x5 x6 x7 := by
  funext i
  refine (congrArg (val_main_v35 (F := Ideal) x0 x1 x3 x4 x5 x6 x7) (eq_rowcol i)).trans ?_
  exact RefHead.v35_apply x0 x1 x3 x4 x5 x6 x7 (rowIx i) (colIx i)

/-- On real inputs the first result is the same with the sum divided once. -/
theorem ref_smiles_once (hs : ∀ i, IsFin (x0 i)) (hk : ∀ i, IsFin (x1 i)) (hv : ∀ i, IsFin (x2 i))
    (hwq : ∀ i, IsFin (x4 i)) (hbq : ∀ i, IsFin (x5 i)) (hwk : ∀ i, IsFin (x6 i)) (hbk : ∀ i, IsFin (x7 i))
    (hwv : ∀ i, IsFin (x8 i)) (hbv : ∀ i, IsFin (x9 i)) :
    val_main_v99 (F := Ideal) x0 x1 x2 x3 x4 x5 x6 x7 x8 x9 x10 x11 x12 x13 x14 x15 x16 x17
      = smilesOut (pooledOnce x0 x1 x2 x3 x4 x5 x6 x7 x8 x9) x0 x10 x11 x12 x13 x14 x15 x16 x17 :=
  (ref_smiles x0 x1 x2 x3 x4 x5 x6 x7 x8 x9 x10 x11 x12 x13 x14 x15 x16 x17).trans
    (congrArg (fun pool => smilesOut pool x0 x10 x11 x12 x13 x14 x15 x16 x17)
      (funext fun n => funext fun f =>
        pooledEach_eq_pooledOnce x0 x1 x2 x3 x4 x5 x6 x7 x8 x9 hs hk hv hwq hbq hwk hbk hwv hbv n f))

end Arrays

/-- The reference's run on real inputs: the first result is the block after the pooling applied, row by row, to the
    first argument plus the pooled value with the sum divided once; the second is every node's share; the arguments
    are unchanged. -/
theorem run_final (m' : (ℓ : Loc nD τ sig) → Buf (Elt Ideal) ℓ) (ρ' : Dev nD → PrngReg)
    (hfin : ∀ c : Dev nD,
        (∀ i, IsFin (m' ((c.tc : Thread nD τ).loc main_arg0) i))
        ∧ (∀ i, IsFin (m' ((c.tc : Thread nD τ).loc main_arg1) i))
        ∧ (∀ i, IsFin (m' ((c.tc : Thread nD τ).loc main_arg2) i))
        ∧ (∀ i, IsFin (m' ((c.tc : Thread nD τ).loc main_arg4) i))
        ∧ (∀ i, IsFin (m' ((c.tc : Thread nD τ).loc main_arg5) i))
        ∧ (∀ i, IsFin (m' ((c.tc : Thread nD τ).loc main_arg6) i))
        ∧ (∀ i, IsFin (m' ((c.tc : Thread nD τ).loc main_arg7) i))
        ∧ (∀ i, IsFin (m' ((c.tc : Thread nD τ).loc main_arg8) i))
        ∧ (∀ i, IsFin (m' ((c.tc : Thread nD τ).loc main_arg9) i))) :
    θ_run defs (onTc (τ := τ) (main (F := Ideal))) ⟨m', fun _ => 0, ρ'⟩ fun r => ∀ c : Dev nD,
      r.2.mem ((c.tc : Thread nD τ).loc main_v99)
          = smilesOut (pooledOnce (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)))
              (m' ((c.tc : Thread nD τ).loc main_arg0)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17))
      ∧ r.2.mem ((c.tc : Thread nD τ).loc main_v35)
          = attOut (m' ((c.tc : Thread nD τ).loc main_arg0)) (m' ((c.tc : Thread nD τ).loc main_arg1)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17) :=
  (θ_run defs _ _).mono (fun r h c => by
      obtain ⟨h0, h1, h2, h4, h5, h6, h7, h8, h9⟩ := hfin c
      exact ⟨(h c).1.trans ((val_main_v99_eq (F := Ideal) m' c).trans
          (ref_smiles_once (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) h0 h1 h2 h4 h5 h6 h7 h8 h9)),
        (h c).2.1.trans ((val_main_v35_eq (F := Ideal) (m' ((c.tc : Thread nD τ).loc main_arg0)) (m' ((c.tc : Thread nD τ).loc main_arg1)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))).trans
          (ref_att (m' ((c.tc : Thread nD τ).loc main_arg0)) (m' ((c.tc : Thread nD τ).loc main_arg1)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)))),
        (h c).2.2⟩)
    (Cert.ReferenceIdeal.Value.run (F := Ideal) m' ρ')

end Cert.Attn.RefFinal

end
-- ==== Proof.Finite.lean ====
/-
  The precondition read back: every float input is an array of real numbers.

  The precondition tests each float argument entry by entry, `|x| < +∞`, takes the conjunction over the whole array, and
  takes the conjunction of the seventeen results. If the outcome is `1`, every one of the seventeen tests is `1`, so every
  entry of every tested array passes the entry test; an extended real whose absolute value `max x (-x)` lies below `+∞` is
  neither infinity, that is, it is a real number.
-/
import proofs.«181518_j33663953666886_2_alg».proof.Defs
import proofs.«181518_j33663953666886_2_alg».proof.Proof.Gen.Pre_finite_inputs
import proofs.«181518_j33663953666886_2_alg».proof.Proof.LibGcnLayer
import Idealize.ShloMosaic.Lib.ReduceAll
import Idealize.ShloMosaic.Lib.Pipeline.Value
import Idealize.ShloMosaic.Lib.ValueIdx

noncomputable section

namespace Cert.Attn.Finite

open Idealize.ShloMosaic Idealize.ShloMosaic.TcCoe Idealize.SL.Sem Cert.GcnAlgebra

/-- The pattern of `+∞` denotes the top element. -/
theorem ofBits_inf : Ideal.ofBits .f32 0x7F800000#32 = ⊤ := by
  simp [Ideal.ofBits, Ideal.ieee]

/-- An extended real whose absolute value is below `+∞` is a real number. -/
theorem isFin_of_abs_lt_top (x : EReal) (h : max x (-x) < ⊤) : IsFin x := by
  induction x using EReal.rec with
  | bot => simp at h
  | coe r => exact ⟨r, rfl⟩
  | top => simp at h

/-- The shape with no axis has one index. -/
instance : Subsingleton (⟨0, ![]⟩ : Shape).Idx := ⟨fun a b => funext fun d => d.elim0⟩

/-- A conjunction of two one-bit arrays acts entry by entry. -/
theorem andi_at {s : Shape} {w : Nat} (a b : IVec s w) (i : s.Idx) : andi a b i = IntOp.andi (a i) (b i) := rfl

/-- If the conjunction over a whole array of the test `|x| < +∞` is `1`, every entry of the array is a real number. -/
theorem all_finite {s : Shape} {axes : List (Fin s.rank)} (x : FVec Ideal s .f32)
    (dims : Fin (⟨0, ![]⟩ : Shape).rank → Fin s.rank) (hb : (⟨0, ![]⟩ : Shape).BroadcastsInDim s dims)
    (h' : s.ReducesTo axes ⟨0, ![]⟩) (hu : 0 < (⟨0, ![]⟩ : Shape).numel)
    (e : Host.reduce IntOp.andi
        (cmpf .olt (Host.absf x) (broadcastInDim s dims hb (constant (F := Ideal) ⟨0, ![]⟩ .f32 0x7F800000#32)))
        (constantI ⟨0, ![]⟩ 1 1#1) h' hu ValueIdx.ix0 = 1#1) (i : s.Idx) : IsFin (x i) := by
  have h := Host.reduce_andi_all _ _ h' hu ValueIdx.ix0 e i
  have hb' : broadcastInDim s dims hb (constant (F := Ideal) ⟨0, ![]⟩ .f32 0x7F800000#32) i = ⊤ :=
    (broadcastInDim_apply _ hb _ i ValueIdx.ix0 (fun a => a.elim0)).trans ofBits_inf
  have h2 : Ideal.cmp .olt (max (x i) (-(x i))) ⊤ = 1#1 := by
    rw [← hb']
    exact h
  unfold Ideal.cmp at h2
  have h3 : max (x i) (-(x i)) < ⊤ := by
    by_contra hc
    simp [hc] at h2
  exact isFin_of_abs_lt_top _ h3

section

open Cert.KernelIdeal

variable (m : (ℓ : Loc nD τ sig) → Buf (Elt Ideal) ℓ)

/-- Under the precondition every float input the pooling reads is an array of real numbers. -/
theorem finite_inputs (hpre : Cert.Pre_KernelIdeal m) (c : Dev nD) :
    (∀ i, IsFin (m ((c.tc : Thread nD τ).loc main_arg0) i)) ∧ (∀ i, IsFin (m ((c.tc : Thread nD τ).loc main_arg1) i)) ∧ (∀ i, IsFin (m ((c.tc : Thread nD τ).loc main_arg2) i))
      ∧ (∀ i, IsFin (m ((c.tc : Thread nD τ).loc main_arg4) i)) ∧ (∀ i, IsFin (m ((c.tc : Thread nD τ).loc main_arg5) i)) ∧ (∀ i, IsFin (m ((c.tc : Thread nD τ).loc main_arg6) i))
      ∧ (∀ i, IsFin (m ((c.tc : Thread nD τ).loc main_arg7) i)) ∧ (∀ i, IsFin (m ((c.tc : Thread nD τ).loc main_arg8) i)) ∧ (∀ i, IsFin (m ((c.tc : Thread nD τ).loc main_arg9) i)) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  simp only [andi_at, IntOp.andi_eq_one] at h
  obtain ⟨⟨⟨⟨⟨⟨⟨⟨⟨⟨⟨⟨⟨⟨⟨⟨h0, h1⟩, h2⟩, h4⟩, h5⟩, h6⟩, h7⟩, h8⟩, h9⟩, -⟩, -⟩, -⟩, -⟩, -⟩, -⟩, -⟩, -⟩ := h
  exact ⟨all_finite _ _ _ _ _ h0, all_finite _ _ _ _ _ h1, all_finite _ _ _ _ _ h2, all_finite _ _ _ _ _ h4,
    all_finite _ _ _ _ _ h5, all_finite _ _ _ _ _ h6, all_finite _ _ _ _ _ h7, all_finite _ _ _ _ _ h8,
    all_finite _ _ _ _ _ h9⟩

end

end Cert.Attn.Finite

end
-- ==== Proof.lean ====
/-
  A graph-pooled attention layer with a normalised feed-forward block, written as two device calls among host operations,
  against its plain array-language statement: both results agree on the extended reals whenever every float input is
  finite.

  The scoring call gives every node its weight `exp (⟨query, key⟩ · s)` and its weighted value; between the calls the host
  sums both over the nodes of each graph and forms the attention column, each weight over the total of the graph the
  node looks up; the feed-forward call divides each graph's summed weighted values once by its total — `1` for a graph
  with no node — adds `smiles`, and applies a layer normalisation, a two-layer perceptron with a residual connection and
  a second layer normalisation.  The reference divides every weight by its graph's total first and sums afterwards.
  On finite inputs every weight is a positive real, so a non-empty graph's total is positive and the two arrangements
  of the weighted mean are one number; an empty graph gives `0` both ways.  A node that a graph collects looks that same
  graph up, which is what lets the total be taken out of the sum.  The scale `s` is the kernel's folded reciprocal of the
  reference's divisor, named as that exact reciprocal; with it the two exponents are equal.  Everything after the
  pooling is the same function of a row on both sides.
-/
import proofs.«181518_j33663953666886_2_alg».proof.Defs
import proofs.«181518_j33663953666886_2_alg».proof.Proof.Gen.Kernel
import proofs.«181518_j33663953666886_2_alg».proof.Proof.Gen.Kernel.Skeleton
import proofs.«181518_j33663953666886_2_alg».proof.Proof.Gen.Kernel.Launch
import proofs.«181518_j33663953666886_2_alg».proof.Proof.Gen.Kernel.Points
import proofs.«181518_j33663953666886_2_alg».proof.Proof.Gen.Kernel.Frame
import proofs.«181518_j33663953666886_2_alg».proof.Proof.Gen.KernelIdeal
import proofs.«181518_j33663953666886_2_alg».proof.Proof.Gen.KernelIdeal.Skeleton
import proofs.«181518_j33663953666886_2_alg».proof.Proof.Gen.KernelIdeal.Launch
import proofs.«181518_j33663953666886_2_alg».proof.Proof.Gen.KernelIdeal.Points
import proofs.«181518_j33663953666886_2_alg».proof.Proof.Gen.KernelIdeal.Frame
import proofs.«181518_j33663953666886_2_alg».proof.Proof.Gen.ReferenceIdeal
import proofs.«181518_j33663953666886_2_alg».proof.Proof.Gen.ReferenceIdeal.Run
import proofs.«181518_j33663953666886_2_alg».proof.Proof.Gen.ReferenceIdeal.Read
import proofs.«181518_j33663953666886_2_alg».proof.Proof.Gen.Pre_finite_inputs
import proofs.«181518_j33663953666886_2_alg».proof.Proof.WholeRun
import proofs.«181518_j33663953666886_2_alg».proof.Proof.KernelFinal
import proofs.«181518_j33663953666886_2_alg».proof.Proof.RefFinal
import proofs.«181518_j33663953666886_2_alg».proof.Proof.Finite
import Idealize.ShloMosaic.Adequacy
import Idealize.ShloMosaic.Init
import Idealize.ShloMosaic.PureOps.IdealRules

noncomputable section

namespace Cert.Proof

open Idealize.ShloMosaic Idealize.ShloMosaic.TcCoe Idealize.SL.Sem Cert.Attn

/-- The three frames: the two kernels' are the launch-and-flush argument over both calls; the reference has no call,
    and its run keeps its arguments. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The one idealisation: the scale constant read as the exact reciprocal `2097152 / 11863283` of the reference's
    divisor. -/
theorem preserves : Cert.preserves_Kernel_KernelIdeal :=
  IdealRules.named_const.statement Cert.KernelIdeal.κ "inv_scale" .f32 0x3E3504F3#32 ((2097152 / 11863283 : ℝ) : EReal) rfl

/-- Both programs end with the same two arrays: the block after the pooling applied to `smiles` plus the pooled value
    divided once by its total, and the attention column. -/
theorem algebraic : Cert.algebraic_KernelIdeal_ReferenceIdeal := by
  intro m ρ m' ρ' hpre hagree
  have hfin' : ∀ c : Dev Cert.ReferenceIdeal.nD, _ := fun c => by
    obtain ⟨h0, h1, h2, h4, h5, h6, h7, h8, h9⟩ := Cert.Attn.Finite.finite_inputs m hpre c
    obtain ⟨a0, a1, a2, a3, a4, a5, a6, a7, a8, a9, a10, a11, a12, a13, a14, a15, a16, a17⟩ := hagree c
    exact (⟨fun i => (congrFun a0 i).symm ▸ h0 i, fun i => (congrFun a1 i).symm ▸ h1 i, fun i => (congrFun a2 i).symm ▸ h2 i,
      fun i => (congrFun a4 i).symm ▸ h4 i, fun i => (congrFun a5 i).symm ▸ h5 i, fun i => (congrFun a6 i).symm ▸ h6 i,
      fun i => (congrFun a7 i).symm ▸ h7 i, fun i => (congrFun a8 i).symm ▸ h8 i, fun i => (congrFun a9 i).symm ▸ h9 i⟩ :
      (∀ i, Cert.GcnAlgebra.IsFin (m' ((c.tc : Thread Cert.ReferenceIdeal.nD Cert.ReferenceIdeal.τ).loc Cert.ReferenceIdeal.main_arg0) i))
      ∧ (∀ i, Cert.GcnAlgebra.IsFin (m' ((c.tc : Thread Cert.ReferenceIdeal.nD Cert.ReferenceIdeal.τ).loc Cert.ReferenceIdeal.main_arg1) i))
      ∧ (∀ i, Cert.GcnAlgebra.IsFin (m' ((c.tc : Thread Cert.ReferenceIdeal.nD Cert.ReferenceIdeal.τ).loc Cert.ReferenceIdeal.main_arg2) i))
      ∧ (∀ i, Cert.GcnAlgebra.IsFin (m' ((c.tc : Thread Cert.ReferenceIdeal.nD Cert.ReferenceIdeal.τ).loc Cert.ReferenceIdeal.main_arg4) i))
      ∧ (∀ i, Cert.GcnAlgebra.IsFin (m' ((c.tc : Thread Cert.ReferenceIdeal.nD Cert.ReferenceIdeal.τ).loc Cert.ReferenceIdeal.main_arg5) i))
      ∧ (∀ i, Cert.GcnAlgebra.IsFin (m' ((c.tc : Thread Cert.ReferenceIdeal.nD Cert.ReferenceIdeal.τ).loc Cert.ReferenceIdeal.main_arg6) i))
      ∧ (∀ i, Cert.GcnAlgebra.IsFin (m' ((c.tc : Thread Cert.ReferenceIdeal.nD Cert.ReferenceIdeal.τ).loc Cert.ReferenceIdeal.main_arg7) i))
      ∧ (∀ i, Cert.GcnAlgebra.IsFin (m' ((c.tc : Thread Cert.ReferenceIdeal.nD Cert.ReferenceIdeal.τ).loc Cert.ReferenceIdeal.main_arg8) i))
      ∧ (∀ i, Cert.GcnAlgebra.IsFin (m' ((c.tc : Thread Cert.ReferenceIdeal.nD Cert.ReferenceIdeal.τ).loc Cert.ReferenceIdeal.main_arg9) i)))
  refine ⟨fun c => smilesOut (pooledOnce (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg0)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => attOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Attn.KernelFinal.W4_smiles m ρ c), (h c).2.1.trans (Cert.Attn.KernelFinal.W4_att m ρ c),
        (h c).2.2⟩)
      (Cert.KernelIdeal.Whole.run m ρ)
  · refine (θ_run Cert.ReferenceIdeal.defs _ _).mono (fun r h c => ⟨(h c).1.trans ?_, (h c).2.1.trans ?_, (h c).2.2⟩)
      (Cert.Attn.RefFinal.run_final m' ρ' hfin')
    · obtain ⟨a0, a1, a2, a3, a4, a5, a6, a7, a8, a9, a10, a11, a12, a13, a14, a15, a16, a17⟩ := hagree c
      rw [a0, a1, a2, a3, a4, a5, a6, a7, a8, a9, a10, a11, a12, a13, a14, a15, a16, a17]
    · obtain ⟨a0, a1, a2, a3, a4, a5, a6, a7, a8, a9, a10, a11, a12, a13, a14, a15, a16, a17⟩ := hagree c
      rw [a0, a1, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
